-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S2x1600000 : Shape := ⟨2, ![2, 1600000]⟩
abbrev S1433x80 : Shape := ⟨2, ![1433, 80]⟩
abbrev S80 : Shape := ⟨1, ![80]⟩
abbrev S80x80 : Shape := ⟨2, ![80, 80]⟩
abbrev S80x7 : Shape := ⟨2, ![80, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x80 : S_.BroadcastsInDim S1433x80 (![] : Fin 0 → Fin S1433x80.rank)
  reducesTo_S1433x80_S_d0_1 : S1433x80.ReducesTo [0, 1] S_
  bcast_S_S80 : S_.BroadcastsInDim S80 (![] : Fin 0 → Fin S80.rank)
  reducesTo_S80_S_d0 : S80.ReducesTo [0] S_
  bcast_S_S80x80 : S_.BroadcastsInDim S80x80 (![] : Fin 0 → Fin S80x80.rank)
  reducesTo_S80x80_S_d0_1 : S80x80.ReducesTo [0, 1] S_
  bcast_S_S80x7 : S_.BroadcastsInDim S80x7 (![] : Fin 0 → Fin S80x7.rank)
  reducesTo_S80x7_S_d0_1 : S80x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S80 .f32) (main_arg6 : FVec F S80x7 .f32) (main_arg7 : FVec F S7 .f32) (main_v13 : IVec S_ 1) (main_v16 : IVec S80x80 1) : IVec S_ 1 :=
  let main_c_5 : IVec S_ 1 := constantI S_ 1 1#1
  let main_v17 : IVec S_ 1 := (fun x v => Host.reduce IntOp.andi x v reducesTo_S80x80_S_d0_1 h_S_) main_v16 main_c_5
  let main_v18 : IVec S_ 1 := andi main_v13 main_v17
  let main_v19 : FVec F S80 .f32 := Host.absf main_arg5
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  let main_v24 : FVec F S80x7 .f32 := Host.absf main_arg6
  let main_cst_8 : FVec F S_ .f32 := constant S_ .f32 0x7F800000#32
  let main_v25 : FVec F S80x7 .f32 := broadcastInDim S80x7 ![] bcast_S_S80x7 main_cst_8
  let main_v26 : IVec S80x7 1 := cmpf .olt main_v24 main_v25
  let main_c_9 : IVec S_ 1 := constantI S_ 1 1#1
  let main_v27 : IVec S_ 1 := (fun x v => Host.reduce IntOp.andi x v reducesTo_S80x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S100000x1433 .f32) (main_arg1 : IVec S2x1600000 32) (main_arg2 : FVec F S1433x80 .f32) (main_arg3 : FVec F S80 .f32) (main_arg4 : FVec F S80x80 .f32) (main_arg5 : FVec F S80 .f32) (main_arg6 : FVec F S80x7 .f32) (main_arg7 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x80 .f32 := Host.absf main_arg2
  let main_cst_0 : FVec F S_ .f32 := constant S_ .f32 0x7F800000#32
  let main_v5 : FVec F S1433x80 .f32 := broadcastInDim S1433x80 ![] bcast_S_S1433x80 main_cst_0
  let main_v6 : IVec S1433x80 1 := cmpf .olt main_v4 main_v5
  let main_c_1 : IVec S_ 1 := constantI S_ 1 1#1
  let main_v7 : IVec S_ 1 := (fun x v => Host.reduce IntOp.andi x v reducesTo_S1433x80_S_d0_1 h_S_) main_v6 main_c_1
  let main_v8 : IVec S_ 1 := andi main_v3 main_v7
  let main_v9 : FVec F S80 .f32 := Host.absf main_arg3
  let main_cst_2 : FVec F S_ .f32 := constant S_ .f32 0x7F800000#32
  let main_v10 : FVec F S80 .f32 := broadcastInDim S80 ![] bcast_S_S80 main_cst_2
  let main_v11 : IVec S80 1 := cmpf .olt main_v9 main_v10
  let main_c_3 : IVec S_ 1 := constantI S_ 1 1#1
  let main_v12 : IVec S_ 1 := (fun x v => Host.reduce IntOp.andi x v reducesTo_S80_S_d0 h_S_) main_v11 main_c_3
  let main_v13 : IVec S_ 1 := andi main_v8 main_v12
  let main_v14 : FVec F S80x80 .f32 := Host.absf main_arg4
  let main_cst_4 : FVec F S_ .f32 := constant S_ .f32 0x7F800000#32
  let main_v15 : FVec F S80x80 .f32 := broadcastInDim S80x80 ![] bcast_S_S80x80 main_cst_4
  let main_v16 : IVec S80x80 1 := cmpf .olt main_v14 main_v15
  fn_part1 (F := F) main_arg5 main_arg6 main_arg7 main_v13 main_v16
-- ==== Kernel.lean ====
abbrev S100000x1433 : Shape := ⟨2, ![100000, 1433]⟩
abbrev S2x1600000 : Shape := ⟨2, ![2, 1600000]⟩
abbrev S1433x80 : Shape := ⟨2, ![1433, 80]⟩
abbrev S80 : Shape := ⟨1, ![80]⟩
abbrev S80x80 : Shape := ⟨2, ![80, 80]⟩
abbrev S80x7 : Shape := ⟨2, ![80, 7]⟩
abbrev S7 : Shape := ⟨1, ![7]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x80 : Shape := ⟨2, ![100000, 80]⟩
abbrev S1000x1433 : Shape := ⟨2, ![1000, 1433]⟩
abbrev S1000x80 : Shape := ⟨2, ![1000, 80]⟩
abbrev S1700000x80 : Shape := ⟨2, ![1700000, 80]⟩
abbrev S1x80 : Shape := ⟨2, ![1, 80]⟩
abbrev S5000x80 : Shape := ⟨2, ![5000, 80]⟩
abbrev S1x7 : Shape := ⟨2, ![1, 7]⟩
abbrev S100000x7 : Shape := ⟨2, ![100000, 7]⟩
abbrev S5000x7 : Shape := ⟨2, ![5000, 7]⟩
abbrev S5000 : Shape := ⟨1, ![5000]⟩
abbrev S5000x1 : Shape := ⟨2, ![5000, 1]⟩

abbrev nBuf : Space → Nat
  | .hbm => 96
  | .vmem => 16
  | .smem => 0
  | _ => 0

abbrev bufTy : (tb : Table) → Fin (tcTables nBuf tb) → BufTy
  | .hbm, ⟨0, _⟩ => ⟨S100000x1433, .f32⟩
  | .hbm, ⟨1, _⟩ => ⟨S2x1600000, .i32⟩
  | .hbm, ⟨2, _⟩ => ⟨S1433x80, .f32⟩
  | .hbm, ⟨3, _⟩ => ⟨S80, .f32⟩
  | .hbm, ⟨4, _⟩ => ⟨S80x80, .f32⟩
  | .hbm, ⟨5, _⟩ => ⟨S80, .f32⟩
  | .hbm, ⟨6, _⟩ => ⟨S80x7, .f32⟩
  | .hbm, ⟨7, _⟩ => ⟨S7, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x80, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x80, .f32⟩
  | .hbm, ⟨58, _⟩ => ⟨S1700000x1, .f32⟩
  | .hbm, ⟨59, _⟩ => ⟨S1700000x80, .f32⟩
  | .hbm, ⟨60, _⟩ => ⟨S1700000x80, .f32⟩
  | .hbm, ⟨61, _⟩ => ⟨S_, .f32⟩
  | .hbm, ⟨62, _⟩ => ⟨S100000x80, .f32⟩
  | .hbm, ⟨63, _⟩ => ⟨S1700000x1, .i32⟩
  | .hbm, ⟨64, _⟩ => ⟨S100000x80, .f32⟩
  | .hbm, ⟨65, _⟩ => ⟨S1x80, .f32⟩
  | .hbm, ⟨66, _⟩ => ⟨S100000x80, .f32⟩
  | .hbm, ⟨67, _⟩ => ⟨S100000x80, .f32⟩
  | .hbm, ⟨68, _⟩ => ⟨S_, .f32⟩
  | .hbm, ⟨69, _⟩ => ⟨S100000x80, .f32⟩
  | .hbm, ⟨70, _⟩ => ⟨S100000x80, .f32⟩
  | .hbm, ⟨71, _⟩ => ⟨S100000x80, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x80, .f32⟩
  | .hbm, ⟨81, _⟩ => ⟨S1700000x1, .f32⟩
  | .hbm, ⟨82, _⟩ => ⟨S1700000x80, .f32⟩
  | .hbm, ⟨83, _⟩ => ⟨S1700000x80, .f32⟩
  | .hbm, ⟨84, _⟩ => ⟨S_, .f32⟩
  | .hbm, ⟨85, _⟩ => ⟨S100000x80, .f32⟩
  | .hbm, ⟨86, _⟩ => ⟨S1700000x1, .i32⟩
  | .hbm, ⟨87, _⟩ => ⟨S100000x80, .f32⟩
  | .hbm, ⟨88, _⟩ => ⟨S1x80, .f32⟩
  | .hbm, ⟨89, _⟩ => ⟨S100000x80, .f32⟩
  | .hbm, ⟨90, _⟩ => ⟨S100000x80, .f32⟩
  | .hbm, ⟨91, _⟩ => ⟨S_, .f32⟩
  | .hbm, ⟨92, _⟩ => ⟨S100000x80, .f32⟩
  | .hbm, ⟨93, _⟩ => ⟨S100000x80, .f32⟩
  | .hbm, ⟨94, _⟩ => ⟨S1x7, .f32⟩
  | .hbm, ⟨95, _⟩ => ⟨S100000x7, .f32⟩
  | .local _ .vmem, ⟨0, _⟩ => ⟨S1000x1433, .f32⟩
  | .local _ .vmem, ⟨1, _⟩ => ⟨S1000x1433, .f32⟩
  | .local _ .vmem, ⟨2, _⟩ => ⟨S1433x80, .f32⟩
  | .local _ .vmem, ⟨3, _⟩ => ⟨S1000x80, .f32⟩
  | .local _ .vmem, ⟨4, _⟩ => ⟨S1000x80, .f32⟩
  | .local _ .vmem, ⟨5, _⟩ => ⟨S5000x80, .f32⟩
  | .local _ .vmem, ⟨6, _⟩ => ⟨S5000x80, .f32⟩
  | .local _ .vmem, ⟨7, _⟩ => ⟨S80x80, .f32⟩
  | .local _ .vmem, ⟨8, _⟩ => ⟨S5000x80, .f32⟩
  | .local _ .vmem, ⟨9, _⟩ => ⟨S5000x80, .f32⟩
  | .local _ .vmem, ⟨10, _⟩ => ⟨S5000x80, .f32⟩
  | .local _ .vmem, ⟨11, _⟩ => ⟨S5000x80, .f32⟩
  | .local _ .vmem, ⟨12, _⟩ => ⟨S80x7, .f32⟩
  | .local _ .vmem, ⟨13, _⟩ => ⟨S1x7, .f32⟩
  | .local _ .vmem, ⟨14, _⟩ => ⟨S5000x7, .f32⟩
  | .local _ .vmem, ⟨15, _⟩ => ⟨S5000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S80x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x80 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S80x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x80_S1433x80_0_0 : ∀ a, (![0, 0] : Fin 2 → Nat) a + S1433x80.size a ≤ S1433x80.size a
  h_S1433x80 : 0 < S1433x80.numel
  inb_S1000x80_S1000x80_0_0 : ∀ a, (![0, 0] : Fin 2 → Nat) a + S1000x80.size a ≤ S1000x80.size a
  h_S1000x80 : 0 < S1000x80.numel
  bcast_S1700000x1_S1700000x80_0_1 : S1700000x1.BroadcastsInDim S1700000x80 (![0, 1] : Fin 2 → Fin S1700000x80.rank)
  bcast_S_S100000x80 : S_.BroadcastsInDim S100000x80 (![] : Fin 0 → Fin S100000x80.rank)
  bcast_S80_S1x80_1 : S80.BroadcastsInDim S1x80 (![1] : Fin 1 → Fin S1x80.rank)
  bcast_S1x80_S100000x80_0_1 : S1x80.BroadcastsInDim S100000x80 (![0, 1] : Fin 2 → Fin S100000x80.rank)
  inb_S5000x80_S5000x80_0_0 : ∀ a, (![0, 0] : Fin 2 → Nat) a + S5000x80.size a ≤ S5000x80.size a
  h_S5000x80 : 0 < S5000x80.numel
  shapeCasts_S5000x80_S5000x80 : S5000x80.ShapeCasts S5000x80
  inb_S80x80_S80x80_0_0 : ∀ a, (![0, 0] : Fin 2 → Nat) a + S80x80.size a ≤ S80x80.size a
  h_S80x80 : 0 < S80x80.numel
  shapeCasts_S7_S1x7 : S7.ShapeCasts S1x7
  inb_S80x7_S80x7_0_0 : ∀ a, (![0, 0] : Fin 2 → Nat) a + S80x7.size a ≤ S80x7.size a
  h_S80x7 : 0 < S80x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  reduces_S5000x7_S5000 : S5000x7.Reduces [1] S5000
  shapeCasts_S5000_S5000x1 : S5000.ShapeCasts S5000x1
  broadcasts_S5000x1_S5000x7 : S5000x1.Broadcasts S5000x7
  inb_S5000x7_S5000x7_0_0 : ∀ a, (![0, 0] : Fin 2 → Nat) a + S5000x7.size a ≤ S5000x7.size a
  h_S5000x7 : 0 < S5000x7.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S1000x1433_S1433x80_S1000x80_1_0_0_1_n_n_wf : DotDims.WF S1000x1433 S1433x80 S1000x80 [1] [0] [0] [1] [] []
  gather_S100000x80_S1700000x1_S1700000x80_1_0_n_n_0_1_180_wf : GatherDims.WF S100000x80 S1700000x1 S1700000x80 [1] [0] [] [0] [] 1 ![1, 80]
  scatter_S100000x80_S1700000x1_S1700000x80_1_0_0_1_wf : ScatterDims.WF S100000x80 S1700000x1 S1700000x80 [1] [0] [0] 1
  dot_S5000x80_S80x80_S5000x80_1_0_0_1_n_n_wf : DotDims.WF S5000x80 S80x80 S5000x80 [1] [0] [0] [1] [] []
  dot_S5000x80_S80x7_S5000x7_1_0_0_1_n_n_wf : DotDims.WF S5000x80 S80x7 S5000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S100000x1433.size a
  hwx0_0 : ∀ i : grid0.Coords, EltTy.bits .f32 = 32 ∨ (Rect.block (s := S100000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x80.size a ≤ S1433x80.size a
  hwx0_1 : ∀ i : grid0.Coords, EltTy.bits .f32 = 32 ∨ (Rect.block (s := S1433x80) S1433x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x80.size a ≤ S100000x80.size a
  hwx0_2 : ∀ i : grid0.Coords, EltTy.bits .f32 = 32 ∨ (Rect.block (s := S100000x80) S1000x80.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x80.size a ≤ S100000x80.size a
  hwx1_0 : ∀ i : grid1.Coords, EltTy.bits .f32 = 32 ∨ (Rect.block (s := S100000x80) S5000x80.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S80x80.size a ≤ S80x80.size a
  hwx1_1 : ∀ i : grid1.Coords, EltTy.bits .f32 = 32 ∨ (Rect.block (s := S80x80) S80x80.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x80.size a ≤ S100000x80.size a
  hwx1_2 : ∀ i : grid1.Coords, EltTy.bits .f32 = 32 ∨ (Rect.block (s := S100000x80) S5000x80.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x80.size a ≤ S100000x80.size a
  hwx2_0 : ∀ i : grid2.Coords, EltTy.bits .f32 = 32 ∨ (Rect.block (s := S100000x80) S5000x80.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S80x7.size a ≤ S80x7.size a
  hwx2_1 : ∀ i : grid2.Coords, EltTy.bits .f32 = 32 ∨ (Rect.block (s := S80x7) S80x7.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x7.size a ≤ S100000x7.size a
  hwx2_3 : ∀ i : grid2.Coords, EltTy.bits .f32 = 32 ∨ (Rect.block (s := S100000x7) S5000x7.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S1000x1433_S1433x80_S1000x80_1_0_0_1_n_n : DotDims S1000x1433 S1433x80 S1000x80 where
  lhsContracting := [1]
  rhsContracting := [0]
  lhsNonContracting := [0]
  rhsNonContracting := [1]
  lhsBatch := []
  rhsBatch := []
  wf := dot_S1000x1433_S1433x80_S1000x80_1_0_0_1_n_n_wf
def gather_S100000x80_S1700000x1_S1700000x80_1_0_n_n_0_1_180 : GatherDims S100000x80 S1700000x1 S1700000x80 where
  offsetDims := [1]
  collapsedSliceDims := [0]
  operandBatchingDims := []
  startIndicesBatchingDims := []
  startIndexMap := [0]
  indexVectorDim := 1
  sliceSizes := ![1, 80]
  wf := gather_S100000x80_S1700000x1_S1700000x80_1_0_n_n_0_1_180_wf
def scatter_S100000x80_S1700000x1_S1700000x80_1_0_0_1 : ScatterDims S100000x80 S1700000x1 S1700000x80 where
  updateWindowDims := [1]
  insertedWindowDims := [0]
  scatterDimsToOperandDims := [0]
  indexVectorDim := 1
  wf := scatter_S100000x80_S1700000x1_S1700000x80_1_0_0_1_wf
def dot_S5000x80_S80x80_S5000x80_1_0_0_1_n_n : DotDims S5000x80 S80x80 S5000x80 where
  lhsContracting := [1]
  rhsContracting := [0]
  lhsNonContracting := [0]
  rhsNonContracting := [1]
  lhsBatch := []
  rhsBatch := []
  wf := dot_S5000x80_S80x80_S5000x80_1_0_0_1_n_n_wf
def dot_S5000x80_S80x7_S5000x7_1_0_0_1_n_n : DotDims S5000x80 S80x7 S5000x7 where
  lhsContracting := [1]
  rhsContracting := [0]
  lhsNonContracting := [0]
  rhsNonContracting := [1]
  lhsBatch := []
  rhsBatch := []
  wf := dot_S5000x80_S80x7_S5000x7_1_0_0_1_n_n_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x80.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S80x80.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x80.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x80.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S80x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S5000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x1433 : Shape := ⟨2, ![100000, 1433]⟩
abbrev S2x1600000 : Shape := ⟨2, ![2, 1600000]⟩
abbrev S1433x80 : Shape := ⟨2, ![1433, 80]⟩
abbrev S80 : Shape := ⟨1, ![80]⟩
abbrev S80x80 : Shape := ⟨2, ![80, 80]⟩
abbrev S80x7 : Shape := ⟨2, ![80, 7]⟩
abbrev S7 : Shape := ⟨1, ![7]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x80 : Shape := ⟨2, ![100000, 80]⟩
abbrev S1700000x80 : Shape := ⟨2, ![1700000, 80]⟩
abbrev S1x80 : Shape := ⟨2, ![1, 80]⟩
abbrev S100000x7 : Shape := ⟨2, ![100000, 7]⟩
abbrev S1x7 : Shape := ⟨2, ![1, 7]⟩
abbrev S100000x1 : Shape := ⟨2, ![100000, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S2x1600000, .i32⟩
  | .hbm, ⟨2, _⟩ => ⟨S1433x80, .f32⟩
  | .hbm, ⟨3, _⟩ => ⟨S80, .f32⟩
  | .hbm, ⟨4, _⟩ => ⟨S80x80, .f32⟩
  | .hbm, ⟨5, _⟩ => ⟨S80, .f32⟩
  | .hbm, ⟨6, _⟩ => ⟨S80x7, .f32⟩
  | .hbm, ⟨7, _⟩ => ⟨S7, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x80, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x80, .f32⟩
  | .hbm, ⟨58, _⟩ => ⟨S1700000x1, .f32⟩
  | .hbm, ⟨59, _⟩ => ⟨S1700000x80, .f32⟩
  | .hbm, ⟨60, _⟩ => ⟨S1700000x80, .f32⟩
  | .hbm, ⟨61, _⟩ => ⟨S_, .f32⟩
  | .hbm, ⟨62, _⟩ => ⟨S100000x80, .f32⟩
  | .hbm, ⟨63, _⟩ => ⟨S1700000x1, .i32⟩
  | .hbm, ⟨64, _⟩ => ⟨S100000x80, .f32⟩
  | .hbm, ⟨65, _⟩ => ⟨S1x80, .f32⟩
  | .hbm, ⟨66, _⟩ => ⟨S100000x80, .f32⟩
  | .hbm, ⟨67, _⟩ => ⟨S100000x80, .f32⟩
  | .hbm, ⟨68, _⟩ => ⟨S_, .f32⟩
  | .hbm, ⟨69, _⟩ => ⟨S100000x80, .f32⟩
  | .hbm, ⟨70, _⟩ => ⟨S100000x80, .f32⟩
  | .hbm, ⟨71, _⟩ => ⟨S100000x80, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x80, .f32⟩
  | .hbm, ⟨81, _⟩ => ⟨S1700000x1, .f32⟩
  | .hbm, ⟨82, _⟩ => ⟨S1700000x80, .f32⟩
  | .hbm, ⟨83, _⟩ => ⟨S1700000x80, .f32⟩
  | .hbm, ⟨84, _⟩ => ⟨S_, .f32⟩
  | .hbm, ⟨85, _⟩ => ⟨S100000x80, .f32⟩
  | .hbm, ⟨86, _⟩ => ⟨S1700000x1, .i32⟩
  | .hbm, ⟨87, _⟩ => ⟨S100000x80, .f32⟩
  | .hbm, ⟨88, _⟩ => ⟨S1x80, .f32⟩
  | .hbm, ⟨89, _⟩ => ⟨S100000x80, .f32⟩
  | .hbm, ⟨90, _⟩ => ⟨S100000x80, .f32⟩
  | .hbm, ⟨91, _⟩ => ⟨S_, .f32⟩
  | .hbm, ⟨92, _⟩ => ⟨S100000x80, .f32⟩
  | .hbm, ⟨93, _⟩ => ⟨S100000x80, .f32⟩
  | .hbm, ⟨94, _⟩ => ⟨S100000x7, .f32⟩
  | .hbm, ⟨95, _⟩ => ⟨S1x7, .f32⟩
  | .hbm, ⟨96, _⟩ => ⟨S100000x7, .f32⟩
  | .hbm, ⟨97, _⟩ => ⟨S100000x7, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x7, .f32⟩
  | .hbm, ⟨105, _⟩ => ⟨S100000x7, .f32⟩
  | .hbm, ⟨106, _⟩ => ⟨S100000x7, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x1, .f32⟩
  | .hbm, ⟨111, _⟩ => ⟨S100000x7, .f32⟩
  | .hbm, ⟨112, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call3_cst : Ref sig .tc := ⟨.hbm, 98, rfl⟩
abbrev main_call3_v0 : Ref sig .tc := ⟨.hbm, 99, rfl⟩
abbrev main_call3_cst_0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_cst_1 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_v70 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x80_0_1 : S1700000x1.BroadcastsInDim S1700000x80 (![0, 1] : Fin 2 → Fin S1700000x80.rank)
  bcast_S_S100000x80 : S_.BroadcastsInDim S100000x80 (![] : Fin 0 → Fin S100000x80.rank)
  bcast_S80_S1x80_1 : S80.BroadcastsInDim S1x80 (![1] : Fin 1 → Fin S1x80.rank)
  bcast_S1x80_S100000x80_0_1 : S1x80.BroadcastsInDim S100000x80 (![0, 1] : Fin 2 → Fin S100000x80.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1433_S1433x80_S100000x80_1_0_0_1_n_n_wf : DotDims.WF S100000x1433 S1433x80 S100000x80 [1] [0] [0] [1] [] []
  gather_S100000x80_S1700000x1_S1700000x80_1_0_n_n_0_1_180_wf : GatherDims.WF S100000x80 S1700000x1 S1700000x80 [1] [0] [] [0] [] 1 ![1, 80]
  scatter_S100000x80_S1700000x1_S1700000x80_1_0_0_1_wf : ScatterDims.WF S100000x80 S1700000x1 S1700000x80 [1] [0] [0] 1
  dot_S100000x80_S80x80_S100000x80_1_0_0_1_n_n_wf : DotDims.WF S100000x80 S80x80 S100000x80 [1] [0] [0] [1] [] []
  dot_S100000x80_S80x7_S100000x7_1_0_0_1_n_n_wf : DotDims.WF S100000x80 S80x7 S100000x7 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1433_S1433x80_S100000x80_1_0_0_1_n_n : DotDims S100000x1433 S1433x80 S100000x80 where
  lhsContracting := [1]
  rhsContracting := [0]
  lhsNonContracting := [0]
  rhsNonContracting := [1]
  lhsBatch := []
  rhsBatch := []
  wf := dot_S100000x1433_S1433x80_S100000x80_1_0_0_1_n_n_wf
def gather_S100000x80_S1700000x1_S1700000x80_1_0_n_n_0_1_180 : GatherDims S100000x80 S1700000x1 S1700000x80 where
  offsetDims := [1]
  collapsedSliceDims := [0]
  operandBatchingDims := []
  startIndicesBatchingDims := []
  startIndexMap := [0]
  indexVectorDim := 1
  sliceSizes := ![1, 80]
  wf := gather_S100000x80_S1700000x1_S1700000x80_1_0_n_n_0_1_180_wf
def scatter_S100000x80_S1700000x1_S1700000x80_1_0_0_1 : ScatterDims S100000x80 S1700000x1 S1700000x80 where
  updateWindowDims := [1]
  insertedWindowDims := [0]
  scatterDimsToOperandDims := [0]
  indexVectorDim := 1
  wf := scatter_S100000x80_S1700000x1_S1700000x80_1_0_0_1_wf
def dot_S100000x80_S80x80_S100000x80_1_0_0_1_n_n : DotDims S100000x80 S80x80 S100000x80 where
  lhsContracting := [1]
  rhsContracting := [0]
  lhsNonContracting := [0]
  rhsNonContracting := [1]
  lhsBatch := []
  rhsBatch := []
  wf := dot_S100000x80_S80x80_S100000x80_1_0_0_1_n_n_wf
def dot_S100000x80_S80x7_S100000x7_1_0_0_1_n_n : DotDims S100000x80 S80x7 S100000x7 where
  lhsContracting := [1]
  rhsContracting := [0]
  lhsNonContracting := [0]
  rhsNonContracting := [1]
  lhsBatch := []
  rhsBatch := []
  wf := dot_S100000x80_S80x7_S100000x7_1_0_0_1_n_n_wf

class Facts : Prop extends Facts₀ where

variable [Facts]
-- ==== Proof.RLists.lean ====
/-
  The reference's operations, cut into the stretches its computation falls into, the outlined calls restated over plain
  buffer references.

  The whole list of operations is these ten stretches one after the other (the typed references of an outlined call's
  operations carry casts that are identities at these literal buffers, so the restated operations are the same ones).
-/
import proofs.«168237_j30374008717765_1_alg».proof.Proof.RefRun

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- Stretch A: the edge lists with self loops, the in-degrees, their positivity and inverse square roots. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Stretch B: the outlined `where`: d = deg^(-1/2) where positive, else 0. -/
abbrev opsB : List (HloOp τ sig (Elt F)) :=
  [ unary main_cst_2 main_call0_v0 (id : (⟨S_, .f32⟩ : BufTy).Contents (Elt F) → (⟨S_, .f32⟩ : BufTy).Contents (Elt F)),
    unary main_call0_v0 main_call0_v1 ((broadcastInDim S100000 ![] bcast_S_S100000) : (⟨S_, .f32⟩ : BufTy).Contents (Elt F) → (⟨S100000, .f32⟩ : BufTy).Contents (Elt F)),
    ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- Stretch C: the edge weights norm e = d(src e) · d(dst e). -/
abbrev opsC : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Stretch D: the first product x · W1. -/
abbrev opsD : List (HloOp τ sig (Elt F)) :=
  [ binary main_arg0 main_arg2 main_v30 ((fun l r => Host.dotGeneral dot_S100000x1433_S1433x80_S100000x80_1_0_0_1_n_n none l r) : (⟨S100000x1433, .f32⟩ : BufTy).Contents (Elt F) → (⟨S1433x80, .f32⟩ : BufTy).Contents (Elt F) → (⟨S100000x80, .f32⟩ : BufTy).Contents (Elt F)) ]

/-- Stretch E: the first layer: gather, scale, scatter-add, bias. -/
abbrev opsE : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x80_S1700000x1_S1700000x80_1_0_n_n_0_1_180 x i) : (⟨S100000x80, .f32⟩ : BufTy).Contents (Elt F) → (⟨S1700000x1, .i32⟩ : BufTy).Contents (Elt F) → (⟨S1700000x80, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x80 ![0, 1] bcast_S1700000x1_S1700000x80_0_1 : (⟨S1700000x1, .f32⟩ : BufTy).Contents (Elt F) → (⟨S1700000x80, .f32⟩ : BufTy).Contents (Elt F)),
    binary main_v37 main_v39 main_v40 (mulf : (⟨S1700000x80, .f32⟩ : BufTy).Contents (Elt F) → (⟨S1700000x80, .f32⟩ : BufTy).Contents (Elt F) → (⟨S1700000x80, .f32⟩ : BufTy).Contents (Elt F)),
    nullary main_cst_8 (constant S_ .f32 0x00000000#32),
    unary main_cst_8 main_v41 (broadcastInDim S100000x80 ![] bcast_S_S100000x80 : (⟨S_, .f32⟩ : BufTy).Contents (Elt F) → (⟨S100000x80, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x80_S1700000x1_S1700000x80_1_0_0_1 x i u) : (⟨S100000x80, .f32⟩ : BufTy).Contents (Elt F) → (⟨S1700000x1, .i32⟩ : BufTy).Contents (Elt F) → (⟨S1700000x80, .f32⟩ : BufTy).Contents (Elt F) → (⟨S100000x80, .f32⟩ : BufTy).Contents (Elt F)),
    unary main_arg3 main_v44 (broadcastInDim S1x80 ![1] bcast_S80_S1x80_1 : (⟨S80, .f32⟩ : BufTy).Contents (Elt F) → (⟨S1x80, .f32⟩ : BufTy).Contents (Elt F)),
    unary main_v44 main_v45 (broadcastInDim S100000x80 ![0, 1] bcast_S1x80_S100000x80_0_1 : (⟨S1x80, .f32⟩ : BufTy).Contents (Elt F) → (⟨S100000x80, .f32⟩ : BufTy).Contents (Elt F)),
    binary main_v43 main_v45 main_v46 (addf : (⟨S100000x80, .f32⟩ : BufTy).Contents (Elt F) → (⟨S100000x80, .f32⟩ : BufTy).Contents (Elt F) → (⟨S100000x80, .f32⟩ : BufTy).Contents (Elt F)) ]

/-- Stretch F: the first layer's clip at zero. -/
abbrev opsF : List (HloOp τ sig (Elt F)) :=
  [ nullary main_call1_cst (constant S_ .f32 0x00000000#32 : (⟨S_, .f32⟩ : BufTy).Contents (Elt F)),
    unary main_call1_cst main_call1_v0 ((broadcastInDim S100000x80 ![] bcast_S_S100000x80) : (⟨S_, .f32⟩ : BufTy).Contents (Elt F) → (⟨S100000x80, .f32⟩ : BufTy).Contents (Elt F)),
    binary main_v46 main_call1_v0 main_v47 (maximumf : (⟨S100000x80, .f32⟩ : BufTy).Contents (Elt F) → (⟨S100000x80, .f32⟩ : BufTy).Contents (Elt F) → (⟨S100000x80, .f32⟩ : BufTy).Contents (Elt F)) ]

/-- Stretch G: the second product. -/
abbrev opsG : List (HloOp τ sig (Elt F)) :=
  [ binary main_v47 main_arg4 main_v48 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)) ]

/-- Stretch H: the second layer: gather, scale, scatter-add, bias. -/
abbrev opsH : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x80_S1700000x1_S1700000x80_1_0_n_n_0_1_180 x i) : (⟨S100000x80, .f32⟩ : BufTy).Contents (Elt F) → (⟨S1700000x1, .i32⟩ : BufTy).Contents (Elt F) → (⟨S1700000x80, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x80 ![0, 1] bcast_S1700000x1_S1700000x80_0_1 : (⟨S1700000x1, .f32⟩ : BufTy).Contents (Elt F) → (⟨S1700000x80, .f32⟩ : BufTy).Contents (Elt F)),
    binary main_v55 main_v57 main_v58 (mulf : (⟨S1700000x80, .f32⟩ : BufTy).Contents (Elt F) → (⟨S1700000x80, .f32⟩ : BufTy).Contents (Elt F) → (⟨S1700000x80, .f32⟩ : BufTy).Contents (Elt F)),
    nullary main_cst_11 (constant S_ .f32 0x00000000#32),
    unary main_cst_11 main_v59 (broadcastInDim S100000x80 ![] bcast_S_S100000x80 : (⟨S_, .f32⟩ : BufTy).Contents (Elt F) → (⟨S100000x80, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x80_S1700000x1_S1700000x80_1_0_0_1 x i u) : (⟨S100000x80, .f32⟩ : BufTy).Contents (Elt F) → (⟨S1700000x1, .i32⟩ : BufTy).Contents (Elt F) → (⟨S1700000x80, .f32⟩ : BufTy).Contents (Elt F) → (⟨S100000x80, .f32⟩ : BufTy).Contents (Elt F)),
    unary main_arg5 main_v62 (broadcastInDim S1x80 ![1] bcast_S80_S1x80_1 : (⟨S80, .f32⟩ : BufTy).Contents (Elt F) → (⟨S1x80, .f32⟩ : BufTy).Contents (Elt F)),
    unary main_v62 main_v63 (broadcastInDim S100000x80 ![0, 1] bcast_S1x80_S100000x80_0_1 : (⟨S1x80, .f32⟩ : BufTy).Contents (Elt F) → (⟨S100000x80, .f32⟩ : BufTy).Contents (Elt F)),
    binary main_v61 main_v63 main_v64 (addf : (⟨S100000x80, .f32⟩ : BufTy).Contents (Elt F) → (⟨S100000x80, .f32⟩ : BufTy).Contents (Elt F) → (⟨S100000x80, .f32⟩ : BufTy).Contents (Elt F)) ]

/-- Stretch I: the second layer's clip at zero. -/
abbrev opsI : List (HloOp τ sig (Elt F)) :=
  [ nullary main_call2_cst (constant S_ .f32 0x00000000#32 : (⟨S_, .f32⟩ : BufTy).Contents (Elt F)),
    unary main_call2_cst main_call2_v0 ((broadcastInDim S100000x80 ![] bcast_S_S100000x80) : (⟨S_, .f32⟩ : BufTy).Contents (Elt F) → (⟨S100000x80, .f32⟩ : BufTy).Contents (Elt F)),
    binary main_v64 main_call2_v0 main_v65 (maximumf : (⟨S100000x80, .f32⟩ : BufTy).Contents (Elt F) → (⟨S100000x80, .f32⟩ : BufTy).Contents (Elt F) → (⟨S100000x80, .f32⟩ : BufTy).Contents (Elt F)) ]

/-- Stretch J: the classifier's product and bias, and the outlined log-softmax. -/
abbrev opsJ : List (HloOp τ sig (Elt F)) :=
  [ binary main_v65 main_arg6 main_v66 ((fun l r => Host.dotGeneral dot_S100000x80_S80x7_S100000x7_1_0_0_1_n_n none l r) : (⟨S100000x80, .f32⟩ : BufTy).Contents (Elt F) → (⟨S80x7, .f32⟩ : BufTy).Contents (Elt F) → (⟨S100000x7, .f32⟩ : BufTy).Contents (Elt F)),
    unary main_arg7 main_v67 (broadcastInDim S1x7 ![1] bcast_S7_S1x7_1 : (⟨S7, .f32⟩ : BufTy).Contents (Elt F) → (⟨S1x7, .f32⟩ : BufTy).Contents (Elt F)),
    unary main_v67 main_v68 (broadcastInDim S100000x7 ![0, 1] bcast_S1x7_S100000x7_0_1 : (⟨S1x7, .f32⟩ : BufTy).Contents (Elt F) → (⟨S100000x7, .f32⟩ : BufTy).Contents (Elt F)),
    binary main_v66 main_v68 main_v69 (addf : (⟨S100000x7, .f32⟩ : BufTy).Contents (Elt F) → (⟨S100000x7, .f32⟩ : BufTy).Contents (Elt F) → (⟨S100000x7, .f32⟩ : BufTy).Contents (Elt F)),
    nullary main_call3_cst (constant S_ .f32 0xFF800000#32 : (⟨S_, .f32⟩ : BufTy).Contents (Elt F)),
    binary main_v69 main_call3_cst main_call3_v0 ((fun x v => Host.reduce FloatOps.maximumf x v reducesTo_S100000x7_S100000_d1 h_S_) : (⟨S100000x7, .f32⟩ : BufTy).Contents (Elt F) → (⟨S_, .f32⟩ : BufTy).Contents (Elt F) → (⟨S100000, .f32⟩ : BufTy).Contents (Elt F)),
    nullary main_call3_cst_0 (constant S_ .f32 0xFF800000#32 : (⟨S_, .f32⟩ : BufTy).Contents (Elt F)),
    unary main_call3_cst_0 main_call3_v1 ((broadcastInDim S100000 ![] bcast_S_S100000) : (⟨S_, .f32⟩ : BufTy).Contents (Elt F) → (⟨S100000, .f32⟩ : BufTy).Contents (Elt F)),
    binary main_call3_v1 main_call3_v0 main_call3_v2 (maximumf : (⟨S100000, .f32⟩ : BufTy).Contents (Elt F) → (⟨S100000, .f32⟩ : BufTy).Contents (Elt F) → (⟨S100000, .f32⟩ : BufTy).Contents (Elt F)),
    unary main_call3_v2 main_call3_v3 ((broadcastInDim S100000x1 ![0] bcast_S100000_S100000x1_0) : (⟨S100000, .f32⟩ : BufTy).Contents (Elt F) → (⟨S100000x1, .f32⟩ : BufTy).Contents (Elt F)),
    unary main_call3_v3 main_call3_v4 ((broadcastInDim S100000x7 ![0, 1] bcast_S100000x1_S100000x7_0_1) : (⟨S100000x1, .f32⟩ : BufTy).Contents (Elt F) → (⟨S100000x7, .f32⟩ : BufTy).Contents (Elt F)),
    binary main_v69 main_call3_v4 main_call3_v5 (subf : (⟨S100000x7, .f32⟩ : BufTy).Contents (Elt F) → (⟨S100000x7, .f32⟩ : BufTy).Contents (Elt F) → (⟨S100000x7, .f32⟩ : BufTy).Contents (Elt F)),
    unary main_call3_v5 main_call3_v6 (Host.exp : (⟨S100000x7, .f32⟩ : BufTy).Contents (Elt F) → (⟨S100000x7, .f32⟩ : BufTy).Contents (Elt F)),
    nullary main_call3_cst_1 (constant S_ .f32 0x00000000#32 : (⟨S_, .f32⟩ : BufTy).Contents (Elt F)),
    binary main_call3_v6 main_call3_cst_1 main_call3_v7 ((fun x v => Host.reduceAdd x v reducesTo_S100000x7_S100000_d1 h_S_) : (⟨S100000x7, .f32⟩ : BufTy).Contents (Elt F) → (⟨S_, .f32⟩ : BufTy).Contents (Elt F) → (⟨S100000, .f32⟩ : BufTy).Contents (Elt F)),
    unary main_call3_v7 main_call3_v8 ((broadcastInDim S100000x1 ![0] bcast_S100000_S100000x1_0) : (⟨S100000, .f32⟩ : BufTy).Contents (Elt F) → (⟨S100000x1, .f32⟩ : BufTy).Contents (Elt F)),
    unary main_call3_v8 main_call3_v9 (Host.log : (⟨S100000x1, .f32⟩ : BufTy).Contents (Elt F) → (⟨S100000x1, .f32⟩ : BufTy).Contents (Elt F)),
    unary main_call3_v9 main_call3_v10 ((broadcastInDim S100000x7 ![0, 1] bcast_S100000x1_S100000x7_0_1) : (⟨S100000x1, .f32⟩ : BufTy).Contents (Elt F) → (⟨S100000x7, .f32⟩ : BufTy).Contents (Elt F)),
    binary main_call3_v5 main_call3_v10 main_v70 (subf : (⟨S100000x7, .f32⟩ : BufTy).Contents (Elt F) → (⟨S100000x7, .f32⟩ : BufTy).Contents (Elt F) → (⟨S100000x7, .f32⟩ : BufTy).Contents (Elt F)) ]

attribute [local irreducible] Host.reduce in
set_option maxRecDepth 16384 in
set_option maxHeartbeats 8000000 in
/-- The program's operations are the ten stretches in order. -/
theorem ops_eq : (Cert.ReferenceIdeal.ValueP.ops : List (HloOp τ sig (Elt F)))
    = opsA ++ (opsB ++ (opsC ++ (opsD ++ (opsE ++ (opsF ++ (opsG ++ (opsH ++ (opsI ++ opsJ)))))))) := rfl

end Cert.ReferenceIdeal.Stretch

end
-- ==== Proof.RStagesA.lean ====
/-
  The reference's first stretch read back: the edge lists with self loops appended, the in-degrees, their positivity and
  inverse square roots are the stage functions of the edge array. Over any contents V before the stretch.
-/
import proofs.«168237_j30374008717765_1_alg».proof.Proof.RLists
import proofs.«168237_j30374008717765_1_alg».proof.Proof.RefRead
import Idealize.ShloMosaic.Lib.StableHlo.Run

set_option maxRecDepth 16384

noncomputable section

namespace Cert.ReferenceIdeal.StagesA

open Cert.ReferenceIdeal Cert.ReferenceIdeal.Gen Cert.ReferenceIdeal.ReadP Cert.ReferenceIdeal.Stretch
open Idealize.ShloMosaic Idealize.ShloMosaic.TcCoe Idealize.ShloMosaic.ValueIdx Idealize.SL.Sem Idealize.ShloMosaic.StableHlo

set_option maxHeartbeats 8000000 in
/-- The sources of the edges, self loops appended. -/
theorem rA_v3 (V : Valuation τ sig (Elt Ideal)) :
    StableHlo.after opsA V (Proc.devRef .tc main_v3) = val_main_v3 (F := Ideal) (V (Proc.devRef .tc main_arg1)) := by
  dsimp only [opsA]
  after_results_simp
  rfl

set_option maxHeartbeats 8000000 in
/-- The destinations of the edges, self loops appended. -/
theorem rA_v6 (V : Valuation τ sig (Elt Ideal)) :
    StableHlo.after opsA V (Proc.devRef .tc main_v6) = val_main_v6 (F := Ideal) (V (Proc.devRef .tc main_arg1)) := by
  dsimp only [opsA]
  after_results_simp
  rfl

set_option maxHeartbeats 8000000 in
/-- Whether each node's in-degree is positive. -/
theorem rA_v12 (V : Valuation τ sig (Elt Ideal)) :
    StableHlo.after opsA V (Proc.devRef .tc main_v12) = val_main_v12 (F := Ideal) (V (Proc.devRef .tc main_arg1)) := by
  dsimp only [opsA]
  after_results_simp
  rfl

set_option maxHeartbeats 8000000 in
/-- The inverse square root of each node's in-degree. -/
theorem rA_v13 (V : Valuation τ sig (Elt Ideal)) :
    StableHlo.after opsA V (Proc.devRef .tc main_v13) = val_main_v13 (F := Ideal) (V (Proc.devRef .tc main_arg1)) := by
  dsimp only [opsA]
  after_results_simp
  rfl

set_option maxHeartbeats 8000000 in
/-- The zero that fills in where the degree is not positive. -/
theorem rA_cst_2 (V : Valuation τ sig (Elt Ideal)) :
    StableHlo.after opsA V (Proc.devRef .tc main_cst_2) = val_main_cst_2 (F := Ideal) := by
  dsimp only [opsA]
  after_results_simp
  rfl

set_option maxHeartbeats 4000000 in
theorem rA_keep_arg0 (V : Valuation τ sig (Elt Ideal)) : StableHlo.after opsA V (Proc.devRef .tc main_arg0) = V (Proc.devRef .tc main_arg0) := by
  dsimp only [opsA]
  after_results_simp

set_option maxHeartbeats 4000000 in
theorem rA_keep_arg2 (V : Valuation τ sig (Elt Ideal)) : StableHlo.after opsA V (Proc.devRef .tc main_arg2) = V (Proc.devRef .tc main_arg2) := by
  dsimp only [opsA]
  after_results_simp

set_option maxHeartbeats 4000000 in
theorem rA_keep_arg3 (V : Valuation τ sig (Elt Ideal)) : StableHlo.after opsA V (Proc.devRef .tc main_arg3) = V (Proc.devRef .tc main_arg3) := by
  dsimp only [opsA]
  after_results_simp

set_option maxHeartbeats 4000000 in
theorem rA_keep_arg4 (V : Valuation τ sig (Elt Ideal)) : StableHlo.after opsA V (Proc.devRef .tc main_arg4) = V (Proc.devRef .tc main_arg4) := by
  dsimp only [opsA]
  after_results_simp

set_option maxHeartbeats 4000000 in
theorem rA_keep_arg5 (V : Valuation τ sig (Elt Ideal)) : StableHlo.after opsA V (Proc.devRef .tc main_arg5) = V (Proc.devRef .tc main_arg5) := by
  dsimp only [opsA]
  after_results_simp

set_option maxHeartbeats 4000000 in
theorem rA_keep_arg6 (V : Valuation τ sig (Elt Ideal)) : StableHlo.after opsA V (Proc.devRef .tc main_arg6) = V (Proc.devRef .tc main_arg6) := by
  dsimp only [opsA]
  after_results_simp

set_option maxHeartbeats 4000000 in
theorem rA_keep_arg7 (V : Valuation τ sig (Elt Ideal)) : StableHlo.after opsA V (Proc.devRef .tc main_arg7) = V (Proc.devRef .tc main_arg7) := by
  dsimp only [opsA]
  after_results_simp

end Cert.ReferenceIdeal.StagesA

end
-- ==== Proof.RStagesC.lean ====
/-
  The reference's `where`, its edge weights, and its first product, each read back as its stage function from the
  contents before the stretch.
-/
import proofs.«168237_j30374008717765_1_alg».proof.Proof.RLists
import proofs.«168237_j30374008717765_1_alg».proof.Proof.RefRead
import Idealize.ShloMosaic.Lib.StableHlo.Run

set_option maxRecDepth 16384

noncomputable section

namespace Cert.ReferenceIdeal.StagesC

open Cert.ReferenceIdeal Cert.ReferenceIdeal.Gen Cert.ReferenceIdeal.ReadP Cert.ReferenceIdeal.Stretch
open Idealize.ShloMosaic Idealize.ShloMosaic.TcCoe Idealize.ShloMosaic.ValueIdx Idealize.SL.Sem Idealize.ShloMosaic.StableHlo

set_option maxHeartbeats 2000000 in
/-- d = deg^(-1/2) where positive, else 0. -/
theorem rB_v14 (V : Valuation τ sig (Elt Ideal)) (x1 : (⟨S2x1600000, .i32⟩ : BufTy).Contents (Elt Ideal))
    (h_v12 : V (Proc.devRef .tc main_v12) = val_main_v12 (F := Ideal) x1)
    (h_v13 : V (Proc.devRef .tc main_v13) = val_main_v13 (F := Ideal) x1)
    (h_cst_2 : V (Proc.devRef .tc main_cst_2) = val_main_cst_2 (F := Ideal)) :
    StableHlo.after opsB V (Proc.devRef .tc main_v14) = val_main_v14 (F := Ideal) x1 := by
  dsimp only [opsB]
  after_results
  rw [h_v12, h_v13, h_cst_2]
  rfl

set_option maxHeartbeats 4000000 in
theorem rB_keep_v3 (V : Valuation τ sig (Elt Ideal)) : StableHlo.after opsB V (Proc.devRef .tc main_v3) = V (Proc.devRef .tc main_v3) := by
  dsimp only [opsB]
  after_results

set_option maxHeartbeats 4000000 in
theorem rB_keep_v6 (V : Valuation τ sig (Elt Ideal)) : StableHlo.after opsB V (Proc.devRef .tc main_v6) = V (Proc.devRef .tc main_v6) := by
  dsimp only [opsB]
  after_results

set_option maxHeartbeats 4000000 in
theorem rB_keep_arg0 (V : Valuation τ sig (Elt Ideal)) : StableHlo.after opsB V (Proc.devRef .tc main_arg0) = V (Proc.devRef .tc main_arg0) := by
  dsimp only [opsB]
  after_results

set_option maxHeartbeats 4000000 in
theorem rB_keep_arg2 (V : Valuation τ sig (Elt Ideal)) : StableHlo.after opsB V (Proc.devRef .tc main_arg2) = V (Proc.devRef .tc main_arg2) := by
  dsimp only [opsB]
  after_results

set_option maxHeartbeats 4000000 in
theorem rB_keep_arg3 (V : Valuation τ sig (Elt Ideal)) : StableHlo.after opsB V (Proc.devRef .tc main_arg3) = V (Proc.devRef .tc main_arg3) := by
  dsimp only [opsB]
  after_results

set_option maxHeartbeats 4000000 in
theorem rB_keep_arg4 (V : Valuation τ sig (Elt Ideal)) : StableHlo.after opsB V (Proc.devRef .tc main_arg4) = V (Proc.devRef .tc main_arg4) := by
  dsimp only [opsB]
  after_results

set_option maxHeartbeats 4000000 in
theorem rB_keep_arg5 (V : Valuation τ sig (Elt Ideal)) : StableHlo.after opsB V (Proc.devRef .tc main_arg5) = V (Proc.devRef .tc main_arg5) := by
  dsimp only [opsB]
  after_results

set_option maxHeartbeats 4000000 in
theorem rB_keep_arg6 (V : Valuation τ sig (Elt Ideal)) : StableHlo.after opsB V (Proc.devRef .tc main_arg6) = V (Proc.devRef .tc main_arg6) := by
  dsimp only [opsB]
  after_results

set_option maxHeartbeats 4000000 in
theorem rB_keep_arg7 (V : Valuation τ sig (Elt Ideal)) : StableHlo.after opsB V (Proc.devRef .tc main_arg7) = V (Proc.devRef .tc main_arg7) := by
  dsimp only [opsB]
  after_results

set_option maxHeartbeats 8000000 in
/-- The edge weights. -/
theorem rC_v29 (V : Valuation τ sig (Elt Ideal)) (x1 : (⟨S2x1600000, .i32⟩ : BufTy).Contents (Elt Ideal))
    (h_v3 : V (Proc.devRef .tc main_v3) = val_main_v3 (F := Ideal) x1)
    (h_v6 : V (Proc.devRef .tc main_v6) = val_main_v6 (F := Ideal) x1)
    (h_v14 : V (Proc.devRef .tc main_v14) = val_main_v14 (F := Ideal) x1) :
    StableHlo.after opsC V (Proc.devRef .tc main_v29) = val_main_v29 (F := Ideal) x1 := by
  dsimp only [opsC]
  after_results_simp
  rw [h_v3, h_v6, h_v14]
  rfl

set_option maxHeartbeats 4000000 in
theorem rC_keep_v3 (V : Valuation τ sig (Elt Ideal)) : StableHlo.after opsC V (Proc.devRef .tc main_v3) = V (Proc.devRef .tc main_v3) := by
  dsimp only [opsC]
  after_results_simp

set_option maxHeartbeats 4000000 in
theorem rC_keep_v6 (V : Valuation τ sig (Elt Ideal)) : StableHlo.after opsC V (Proc.devRef .tc main_v6) = V (Proc.devRef .tc main_v6) := by
  dsimp only [opsC]
  after_results_simp

set_option maxHeartbeats 4000000 in
theorem rC_keep_arg0 (V : Valuation τ sig (Elt Ideal)) : StableHlo.after opsC V (Proc.devRef .tc main_arg0) = V (Proc.devRef .tc main_arg0) := by
  dsimp only [opsC]
  after_results_simp

set_option maxHeartbeats 4000000 in
theorem rC_keep_arg2 (V : Valuation τ sig (Elt Ideal)) : StableHlo.after opsC V (Proc.devRef .tc main_arg2) = V (Proc.devRef .tc main_arg2) := by
  dsimp only [opsC]
  after_results_simp

set_option maxHeartbeats 4000000 in
theorem rC_keep_arg3 (V : Valuation τ sig (Elt Ideal)) : StableHlo.after opsC V (Proc.devRef .tc main_arg3) = V (Proc.devRef .tc main_arg3) := by
  dsimp only [opsC]
  after_results_simp

set_option maxHeartbeats 4000000 in
theorem rC_keep_arg4 (V : Valuation τ sig (Elt Ideal)) : StableHlo.after opsC V (Proc.devRef .tc main_arg4) = V (Proc.devRef .tc main_arg4) := by
  dsimp only [opsC]
  after_results_simp

set_option maxHeartbeats 4000000 in
theorem rC_keep_arg5 (V : Valuation τ sig (Elt Ideal)) : StableHlo.after opsC V (Proc.devRef .tc main_arg5) = V (Proc.devRef .tc main_arg5) := by
  dsimp only [opsC]
  after_results_simp

set_option maxHeartbeats 4000000 in
theorem rC_keep_arg6 (V : Valuation τ sig (Elt Ideal)) : StableHlo.after opsC V (Proc.devRef .tc main_arg6) = V (Proc.devRef .tc main_arg6) := by
  dsimp only [opsC]
  after_results_simp

set_option maxHeartbeats 4000000 in
theorem rC_keep_arg7 (V : Valuation τ sig (Elt Ideal)) : StableHlo.after opsC V (Proc.devRef .tc main_arg7) = V (Proc.devRef .tc main_arg7) := by
  dsimp only [opsC]
  after_results_simp

set_option maxHeartbeats 2000000 in
/-- The first product. -/
theorem rD_v30 (V : Valuation τ sig (Elt Ideal)) (x0 : (⟨S100000x1433, .f32⟩ : BufTy).Contents (Elt Ideal)) (x2 : (⟨S1433x80, .f32⟩ : BufTy).Contents (Elt Ideal))
    (h_arg0 : V (Proc.devRef .tc main_arg0) = x0)
    (h_arg2 : V (Proc.devRef .tc main_arg2) = x2) :
    StableHlo.after opsD V (Proc.devRef .tc main_v30) = val_main_v30 (F := Ideal) x0 x2 := by
  dsimp only [opsD]
  after_results
  rw [h_arg0, h_arg2]
  rfl

set_option maxHeartbeats 4000000 in
theorem rD_keep_v3 (V : Valuation τ sig (Elt Ideal)) : StableHlo.after opsD V (Proc.devRef .tc main_v3) = V (Proc.devRef .tc main_v3) := by
  dsimp only [opsD]
  after_results

set_option maxHeartbeats 4000000 in
theorem rD_keep_v6 (V : Valuation τ sig (Elt Ideal)) : StableHlo.after opsD V (Proc.devRef .tc main_v6) = V (Proc.devRef .tc main_v6) := by
  dsimp only [opsD]
  after_results

set_option maxHeartbeats 4000000 in
theorem rD_keep_v29 (V : Valuation τ sig (Elt Ideal)) : StableHlo.after opsD V (Proc.devRef .tc main_v29) = V (Proc.devRef .tc main_v29) := by
  dsimp only [opsD]
  after_results

set_option maxHeartbeats 4000000 in
theorem rD_keep_arg3 (V : Valuation τ sig (Elt Ideal)) : StableHlo.after opsD V (Proc.devRef .tc main_arg3) = V (Proc.devRef .tc main_arg3) := by
  dsimp only [opsD]
  after_results

set_option maxHeartbeats 4000000 in
theorem rD_keep_arg4 (V : Valuation τ sig (Elt Ideal)) : StableHlo.after opsD V (Proc.devRef .tc main_arg4) = V (Proc.devRef .tc main_arg4) := by
  dsimp only [opsD]
  after_results

set_option maxHeartbeats 4000000 in
theorem rD_keep_arg5 (V : Valuation τ sig (Elt Ideal)) : StableHlo.after opsD V (Proc.devRef .tc main_arg5) = V (Proc.devRef .tc main_arg5) := by
  dsimp only [opsD]
  after_results

set_option maxHeartbeats 4000000 in
theorem rD_keep_arg6 (V : Valuation τ sig (Elt Ideal)) : StableHlo.after opsD V (Proc.devRef .tc main_arg6) = V (Proc.devRef .tc main_arg6) := by
  dsimp only [opsD]
  after_results

set_option maxHeartbeats 4000000 in
theorem rD_keep_arg7 (V : Valuation τ sig (Elt Ideal)) : StableHlo.after opsD V (Proc.devRef .tc main_arg7) = V (Proc.devRef .tc main_arg7) := by
  dsimp only [opsD]
  after_results

end Cert.ReferenceIdeal.StagesC

end
-- ==== Proof.RStagesE.lean ====
/-
  The reference's first layer (gather, scale, scatter-add, bias; clip at zero) and its second product, read back.
-/
import proofs.«168237_j30374008717765_1_alg».proof.Proof.RLists
import proofs.«168237_j30374008717765_1_alg».proof.Proof.RefRead
import Idealize.ShloMosaic.Lib.StableHlo.Run

set_option maxRecDepth 16384

noncomputable section

namespace Cert.ReferenceIdeal.StagesE

open Cert.ReferenceIdeal Cert.ReferenceIdeal.Gen Cert.ReferenceIdeal.ReadP Cert.ReferenceIdeal.Stretch
open Idealize.ShloMosaic Idealize.ShloMosaic.TcCoe Idealize.ShloMosaic.ValueIdx Idealize.SL.Sem Idealize.ShloMosaic.StableHlo

set_option maxHeartbeats 8000000 in
/-- The aggregated rows plus the bias. -/
theorem rE_v46 (V : Valuation τ sig (Elt Ideal)) (x0 : (⟨S100000x1433, .f32⟩ : BufTy).Contents (Elt Ideal)) (x1 : (⟨S2x1600000, .i32⟩ : BufTy).Contents (Elt Ideal)) (x2 : (⟨S1433x80, .f32⟩ : BufTy).Contents (Elt Ideal)) (x3 : (⟨S80, .f32⟩ : BufTy).Contents (Elt Ideal))
    (h_v30 : V (Proc.devRef .tc main_v30) = val_main_v30 (F := Ideal) x0 x2)
    (h_v3 : V (Proc.devRef .tc main_v3) = val_main_v3 (F := Ideal) x1)
    (h_v6 : V (Proc.devRef .tc main_v6) = val_main_v6 (F := Ideal) x1)
    (h_v29 : V (Proc.devRef .tc main_v29) = val_main_v29 (F := Ideal) x1)
    (h_arg3 : V (Proc.devRef .tc main_arg3) = x3) :
    StableHlo.after opsE V (Proc.devRef .tc main_v46) = val_main_v46 (F := Ideal) x0 x1 x2 x3 := by
  dsimp only [opsE]
  after_results_simp
  rw [h_v30, h_v3, h_v6, h_v29, h_arg3]
  rfl

set_option maxHeartbeats 4000000 in
theorem rE_keep_v3 (V : Valuation τ sig (Elt Ideal)) : StableHlo.after opsE V (Proc.devRef .tc main_v3) = V (Proc.devRef .tc main_v3) := by
  dsimp only [opsE]
  after_results_simp

set_option maxHeartbeats 4000000 in
theorem rE_keep_v6 (V : Valuation τ sig (Elt Ideal)) : StableHlo.after opsE V (Proc.devRef .tc main_v6) = V (Proc.devRef .tc main_v6) := by
  dsimp only [opsE]
  after_results_simp

set_option maxHeartbeats 4000000 in
theorem rE_keep_v29 (V : Valuation τ sig (Elt Ideal)) : StableHlo.after opsE V (Proc.devRef .tc main_v29) = V (Proc.devRef .tc main_v29) := by
  dsimp only [opsE]
  after_results_simp

set_option maxHeartbeats 4000000 in
theorem rE_keep_arg4 (V : Valuation τ sig (Elt Ideal)) : StableHlo.after opsE V (Proc.devRef .tc main_arg4) = V (Proc.devRef .tc main_arg4) := by
  dsimp only [opsE]
  after_results_simp

set_option maxHeartbeats 4000000 in
theorem rE_keep_arg5 (V : Valuation τ sig (Elt Ideal)) : StableHlo.after opsE V (Proc.devRef .tc main_arg5) = V (Proc.devRef .tc main_arg5) := by
  dsimp only [opsE]
  after_results_simp

set_option maxHeartbeats 4000000 in
theorem rE_keep_arg6 (V : Valuation τ sig (Elt Ideal)) : StableHlo.after opsE V (Proc.devRef .tc main_arg6) = V (Proc.devRef .tc main_arg6) := by
  dsimp only [opsE]
  after_results_simp

set_option maxHeartbeats 4000000 in
theorem rE_keep_arg7 (V : Valuation τ sig (Elt Ideal)) : StableHlo.after opsE V (Proc.devRef .tc main_arg7) = V (Proc.devRef .tc main_arg7) := by
  dsimp only [opsE]
  after_results_simp

set_option maxHeartbeats 2000000 in
/-- Clipped at zero. -/
theorem rF_v47 (V : Valuation τ sig (Elt Ideal)) (x0 : (⟨S100000x1433, .f32⟩ : BufTy).Contents (Elt Ideal)) (x1 : (⟨S2x1600000, .i32⟩ : BufTy).Contents (Elt Ideal)) (x2 : (⟨S1433x80, .f32⟩ : BufTy).Contents (Elt Ideal)) (x3 : (⟨S80, .f32⟩ : BufTy).Contents (Elt Ideal))
    (h_v46 : V (Proc.devRef .tc main_v46) = val_main_v46 (F := Ideal) x0 x1 x2 x3) :
    StableHlo.after opsF V (Proc.devRef .tc main_v47) = val_main_v47 (F := Ideal) x0 x1 x2 x3 := by
  dsimp only [opsF]
  after_results
  rw [h_v46]
  rfl

set_option maxHeartbeats 4000000 in
theorem rF_keep_v3 (V : Valuation τ sig (Elt Ideal)) : StableHlo.after opsF V (Proc.devRef .tc main_v3) = V (Proc.devRef .tc main_v3) := by
  dsimp only [opsF]
  after_results

set_option maxHeartbeats 4000000 in
theorem rF_keep_v6 (V : Valuation τ sig (Elt Ideal)) : StableHlo.after opsF V (Proc.devRef .tc main_v6) = V (Proc.devRef .tc main_v6) := by
  dsimp only [opsF]
  after_results

set_option maxHeartbeats 4000000 in
theorem rF_keep_v29 (V : Valuation τ sig (Elt Ideal)) : StableHlo.after opsF V (Proc.devRef .tc main_v29) = V (Proc.devRef .tc main_v29) := by
  dsimp only [opsF]
  after_results

set_option maxHeartbeats 4000000 in
theorem rF_keep_arg4 (V : Valuation τ sig (Elt Ideal)) : StableHlo.after opsF V (Proc.devRef .tc main_arg4) = V (Proc.devRef .tc main_arg4) := by
  dsimp only [opsF]
  after_results

set_option maxHeartbeats 4000000 in
theorem rF_keep_arg5 (V : Valuation τ sig (Elt Ideal)) : StableHlo.after opsF V (Proc.devRef .tc main_arg5) = V (Proc.devRef .tc main_arg5) := by
  dsimp only [opsF]
  after_results

set_option maxHeartbeats 4000000 in
theorem rF_keep_arg6 (V : Valuation τ sig (Elt Ideal)) : StableHlo.after opsF V (Proc.devRef .tc main_arg6) = V (Proc.devRef .tc main_arg6) := by
  dsimp only [opsF]
  after_results

set_option maxHeartbeats 4000000 in
theorem rF_keep_arg7 (V : Valuation τ sig (Elt Ideal)) : StableHlo.after opsF V (Proc.devRef .tc main_arg7) = V (Proc.devRef .tc main_arg7) := by
  dsimp only [opsF]
  after_results

set_option maxHeartbeats 2000000 in
/-- The second product. -/
theorem rG_v48 (V : Valuation τ sig (Elt Ideal)) (x0 : (⟨S100000x1433, .f32⟩ : BufTy).Contents (Elt Ideal)) (x1 : (⟨S2x1600000, .i32⟩ : BufTy).Contents (Elt Ideal)) (x2 : (⟨S1433x80, .f32⟩ : BufTy).Contents (Elt Ideal)) (x3 : (⟨S80, .f32⟩ : BufTy).Contents (Elt Ideal)) (x4 : (⟨S80x80, .f32⟩ : BufTy).Contents (Elt Ideal))
    (h_v47 : V (Proc.devRef .tc main_v47) = val_main_v47 (F := Ideal) x0 x1 x2 x3)
    (h_arg4 : V (Proc.devRef .tc main_arg4) = x4) :
    StableHlo.after opsG V (Proc.devRef .tc main_v48) = val_main_v48 (F := Ideal) x0 x1 x2 x3 x4 := by
  dsimp only [opsG]
  after_results
  rw [h_v47, h_arg4]
  rfl

set_option maxHeartbeats 4000000 in
theorem rG_keep_v3 (V : Valuation τ sig (Elt Ideal)) : StableHlo.after opsG V (Proc.devRef .tc main_v3) = V (Proc.devRef .tc main_v3) := by
  dsimp only [opsG]
  after_results

set_option maxHeartbeats 4000000 in
theorem rG_keep_v6 (V : Valuation τ sig (Elt Ideal)) : StableHlo.after opsG V (Proc.devRef .tc main_v6) = V (Proc.devRef .tc main_v6) := by
  dsimp only [opsG]
  after_results

set_option maxHeartbeats 4000000 in
theorem rG_keep_v29 (V : Valuation τ sig (Elt Ideal)) : StableHlo.after opsG V (Proc.devRef .tc main_v29) = V (Proc.devRef .tc main_v29) := by
  dsimp only [opsG]
  after_results

set_option maxHeartbeats 4000000 in
theorem rG_keep_arg5 (V : Valuation τ sig (Elt Ideal)) : StableHlo.after opsG V (Proc.devRef .tc main_arg5) = V (Proc.devRef .tc main_arg5) := by
  dsimp only [opsG]
  after_results

set_option maxHeartbeats 4000000 in
theorem rG_keep_arg6 (V : Valuation τ sig (Elt Ideal)) : StableHlo.after opsG V (Proc.devRef .tc main_arg6) = V (Proc.devRef .tc main_arg6) := by
  dsimp only [opsG]
  after_results

set_option maxHeartbeats 4000000 in
theorem rG_keep_arg7 (V : Valuation τ sig (Elt Ideal)) : StableHlo.after opsG V (Proc.devRef .tc main_arg7) = V (Proc.devRef .tc main_arg7) := by
  dsimp only [opsG]
  after_results

end Cert.ReferenceIdeal.StagesE

end
-- ==== Proof.RStagesH.lean ====
/-
  The reference's second layer, its clip at zero, and its classifier (product, bias, log-softmax), read back.
-/
import proofs.«168237_j30374008717765_1_alg».proof.Proof.RLists
import proofs.«168237_j30374008717765_1_alg».proof.Proof.RefRead
import Idealize.ShloMosaic.Lib.StableHlo.Run

set_option maxRecDepth 16384

noncomputable section

namespace Cert.ReferenceIdeal.StagesH

open Cert.ReferenceIdeal Cert.ReferenceIdeal.Gen Cert.ReferenceIdeal.ReadP Cert.ReferenceIdeal.Stretch
open Idealize.ShloMosaic Idealize.ShloMosaic.TcCoe Idealize.ShloMosaic.ValueIdx Idealize.SL.Sem Idealize.ShloMosaic.StableHlo

set_option maxHeartbeats 8000000 in
/-- The aggregated rows plus the bias. -/
theorem rH_v64 (V : Valuation τ sig (Elt Ideal)) (x0 : (⟨S100000x1433, .f32⟩ : BufTy).Contents (Elt Ideal)) (x1 : (⟨S2x1600000, .i32⟩ : BufTy).Contents (Elt Ideal)) (x2 : (⟨S1433x80, .f32⟩ : BufTy).Contents (Elt Ideal)) (x3 : (⟨S80, .f32⟩ : BufTy).Contents (Elt Ideal)) (x4 : (⟨S80x80, .f32⟩ : BufTy).Contents (Elt Ideal)) (x5 : (⟨S80, .f32⟩ : BufTy).Contents (Elt Ideal))
    (h_v48 : V (Proc.devRef .tc main_v48) = val_main_v48 (F := Ideal) x0 x1 x2 x3 x4)
    (h_v3 : V (Proc.devRef .tc main_v3) = val_main_v3 (F := Ideal) x1)
    (h_v6 : V (Proc.devRef .tc main_v6) = val_main_v6 (F := Ideal) x1)
    (h_v29 : V (Proc.devRef .tc main_v29) = val_main_v29 (F := Ideal) x1)
    (h_arg5 : V (Proc.devRef .tc main_arg5) = x5) :
    StableHlo.after opsH V (Proc.devRef .tc main_v64) = val_main_v64 (F := Ideal) x0 x1 x2 x3 x4 x5 := by
  dsimp only [opsH]
  after_results_simp
  rw [h_v48, h_v3, h_v6, h_v29, h_arg5]
  rfl

set_option maxHeartbeats 4000000 in
theorem rH_keep_arg6 (V : Valuation τ sig (Elt Ideal)) : StableHlo.after opsH V (Proc.devRef .tc main_arg6) = V (Proc.devRef .tc main_arg6) := by
  dsimp only [opsH]
  after_results_simp

set_option maxHeartbeats 4000000 in
theorem rH_keep_arg7 (V : Valuation τ sig (Elt Ideal)) : StableHlo.after opsH V (Proc.devRef .tc main_arg7) = V (Proc.devRef .tc main_arg7) := by
  dsimp only [opsH]
  after_results_simp

set_option maxHeartbeats 2000000 in
/-- Clipped at zero. -/
theorem rI_v65 (V : Valuation τ sig (Elt Ideal)) (x0 : (⟨S100000x1433, .f32⟩ : BufTy).Contents (Elt Ideal)) (x1 : (⟨S2x1600000, .i32⟩ : BufTy).Contents (Elt Ideal)) (x2 : (⟨S1433x80, .f32⟩ : BufTy).Contents (Elt Ideal)) (x3 : (⟨S80, .f32⟩ : BufTy).Contents (Elt Ideal)) (x4 : (⟨S80x80, .f32⟩ : BufTy).Contents (Elt Ideal)) (x5 : (⟨S80, .f32⟩ : BufTy).Contents (Elt Ideal))
    (h_v64 : V (Proc.devRef .tc main_v64) = val_main_v64 (F := Ideal) x0 x1 x2 x3 x4 x5) :
    StableHlo.after opsI V (Proc.devRef .tc main_v65) = val_main_v65 (F := Ideal) x0 x1 x2 x3 x4 x5 := by
  dsimp only [opsI]
  after_results
  rw [h_v64]
  rfl

set_option maxHeartbeats 4000000 in
theorem rI_keep_arg6 (V : Valuation τ sig (Elt Ideal)) : StableHlo.after opsI V (Proc.devRef .tc main_arg6) = V (Proc.devRef .tc main_arg6) := by
  dsimp only [opsI]
  after_results

set_option maxHeartbeats 4000000 in
theorem rI_keep_arg7 (V : Valuation τ sig (Elt Ideal)) : StableHlo.after opsI V (Proc.devRef .tc main_arg7) = V (Proc.devRef .tc main_arg7) := by
  dsimp only [opsI]
  after_results

attribute [local irreducible] Host.reduce in
set_option maxHeartbeats 8000000 in
/-- The log-softmax of the logits. -/
theorem rJ_v70 (V : Valuation τ sig (Elt Ideal)) (x0 : (⟨S100000x1433, .f32⟩ : BufTy).Contents (Elt Ideal)) (x1 : (⟨S2x1600000, .i32⟩ : BufTy).Contents (Elt Ideal)) (x2 : (⟨S1433x80, .f32⟩ : BufTy).Contents (Elt Ideal)) (x3 : (⟨S80, .f32⟩ : BufTy).Contents (Elt Ideal)) (x4 : (⟨S80x80, .f32⟩ : BufTy).Contents (Elt Ideal)) (x5 : (⟨S80, .f32⟩ : BufTy).Contents (Elt Ideal)) (x6 : (⟨S80x7, .f32⟩ : BufTy).Contents (Elt Ideal)) (x7 : (⟨S7, .f32⟩ : BufTy).Contents (Elt Ideal))
    (h_v65 : V (Proc.devRef .tc main_v65) = val_main_v65 (F := Ideal) x0 x1 x2 x3 x4 x5)
    (h_arg6 : V (Proc.devRef .tc main_arg6) = x6)
    (h_arg7 : V (Proc.devRef .tc main_arg7) = x7) :
    StableHlo.after opsJ V (Proc.devRef .tc main_v70) = val_main_v70 (F := Ideal) x0 x1 x2 x3 x4 x5 x6 x7 := by
  dsimp only [opsJ]
  after_results_simp
  rw [h_v65, h_arg6, h_arg7]
  rfl

end Cert.ReferenceIdeal.StagesH

end
-- ==== Proof.RefValue.lean ====
/-
  The reference's run: every weakly fair execution of its @main terminates with the result at the last stage function
  of the arguments, the arguments unchanged.

  Its operations are ten stretches one after the other; the contents after each stretch are the contents before it with
  that stretch's results added. Walking the stretches in order: the graph's lists and degrees; d; the edge weights; the
  first product; the first layer and its clip; the second product; the second layer and its clip; the classifier. Each
  stretch's result is its stage function of what the stretch reads, and what it does not write it keeps, so the result
  buffer ends at the composed stage function of the launch contents of the arguments.
-/
import proofs.«168237_j30374008717765_1_alg».proof.Proof.RLists
import proofs.«168237_j30374008717765_1_alg».proof.Proof.RefRead
import proofs.«168237_j30374008717765_1_alg».proof.Proof.RStagesA
import proofs.«168237_j30374008717765_1_alg».proof.Proof.RStagesC
import proofs.«168237_j30374008717765_1_alg».proof.Proof.RStagesE
import proofs.«168237_j30374008717765_1_alg».proof.Proof.RStagesH
import Idealize.ShloMosaic.Lib.StableHlo.Run
import Idealize.ShloMosaic.Lib.Pipeline.Frame

set_option maxRecDepth 16384

noncomputable section

namespace Cert.ReferenceIdeal.RefValue

open Cert.ReferenceIdeal Cert.ReferenceIdeal.Gen Cert.ReferenceIdeal.ReadP Cert.ReferenceIdeal.Stretch
open Cert.ReferenceIdeal.StagesA Cert.ReferenceIdeal.StagesC Cert.ReferenceIdeal.StagesE Cert.ReferenceIdeal.StagesH
open Idealize.ShloMosaic Idealize.ShloMosaic.TcCoe Idealize.SL.Sem Idealize.ShloMosaic.StableHlo

set_option maxHeartbeats 4000000 in
/-- From any contents V0, the result buffer after all the operations is the last stage function of V0's arguments. -/
theorem value (V0 : Valuation τ sig (Elt Ideal)) :
    StableHlo.after (Cert.ReferenceIdeal.ValueP.ops (F := Ideal)) V0 (Proc.devRef .tc main_v70) = val_main_v70 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  have a_v3 := rA_v3 V0
  have a_v6 := rA_v6 V0
  have a_v12 := rA_v12 V0
  have a_v13 := rA_v13 V0
  have a_cst_2 := rA_cst_2 V0
  have a_arg0 := rA_keep_arg0 V0
  have a_arg2 := rA_keep_arg2 V0
  have a_arg3 := rA_keep_arg3 V0
  have a_arg4 := rA_keep_arg4 V0
  have a_arg5 := rA_keep_arg5 V0
  have a_arg6 := rA_keep_arg6 V0
  have a_arg7 := rA_keep_arg7 V0
  have b_v14 := rB_v14 (StableHlo.after opsA V0) (V0 (Proc.devRef .tc main_arg1)) a_v12 a_v13 a_cst_2
  have b_v3 := (rB_keep_v3 (StableHlo.after opsA V0)).trans a_v3
  have b_v6 := (rB_keep_v6 (StableHlo.after opsA V0)).trans a_v6
  have b_arg0 := (rB_keep_arg0 (StableHlo.after opsA V0)).trans a_arg0
  have b_arg2 := (rB_keep_arg2 (StableHlo.after opsA V0)).trans a_arg2
  have b_arg3 := (rB_keep_arg3 (StableHlo.after opsA V0)).trans a_arg3
  have b_arg4 := (rB_keep_arg4 (StableHlo.after opsA V0)).trans a_arg4
  have b_arg5 := (rB_keep_arg5 (StableHlo.after opsA V0)).trans a_arg5
  have b_arg6 := (rB_keep_arg6 (StableHlo.after opsA V0)).trans a_arg6
  have b_arg7 := (rB_keep_arg7 (StableHlo.after opsA V0)).trans a_arg7
  have c_v29 := rC_v29 (StableHlo.after opsB (StableHlo.after opsA V0)) (V0 (Proc.devRef .tc main_arg1)) b_v3 b_v6 b_v14
  have c_v3 := (rC_keep_v3 (StableHlo.after opsB (StableHlo.after opsA V0))).trans b_v3
  have c_v6 := (rC_keep_v6 (StableHlo.after opsB (StableHlo.after opsA V0))).trans b_v6
  have c_arg0 := (rC_keep_arg0 (StableHlo.after opsB (StableHlo.after opsA V0))).trans b_arg0
  have c_arg2 := (rC_keep_arg2 (StableHlo.after opsB (StableHlo.after opsA V0))).trans b_arg2
  have c_arg3 := (rC_keep_arg3 (StableHlo.after opsB (StableHlo.after opsA V0))).trans b_arg3
  have c_arg4 := (rC_keep_arg4 (StableHlo.after opsB (StableHlo.after opsA V0))).trans b_arg4
  have c_arg5 := (rC_keep_arg5 (StableHlo.after opsB (StableHlo.after opsA V0))).trans b_arg5
  have c_arg6 := (rC_keep_arg6 (StableHlo.after opsB (StableHlo.after opsA V0))).trans b_arg6
  have c_arg7 := (rC_keep_arg7 (StableHlo.after opsB (StableHlo.after opsA V0))).trans b_arg7
  have d_v30 := rD_v30 (StableHlo.after opsC (StableHlo.after opsB (StableHlo.after opsA V0))) (V0 (Proc.devRef .tc main_arg0)) (V0 (Proc.devRef .tc main_arg2)) c_arg0 c_arg2
  have d_v3 := (rD_keep_v3 (StableHlo.after opsC (StableHlo.after opsB (StableHlo.after opsA V0)))).trans c_v3
  have d_v6 := (rD_keep_v6 (StableHlo.after opsC (StableHlo.after opsB (StableHlo.after opsA V0)))).trans c_v6
  have d_v29 := (rD_keep_v29 (StableHlo.after opsC (StableHlo.after opsB (StableHlo.after opsA V0)))).trans c_v29
  have d_arg3 := (rD_keep_arg3 (StableHlo.after opsC (StableHlo.after opsB (StableHlo.after opsA V0)))).trans c_arg3
  have d_arg4 := (rD_keep_arg4 (StableHlo.after opsC (StableHlo.after opsB (StableHlo.after opsA V0)))).trans c_arg4
  have d_arg5 := (rD_keep_arg5 (StableHlo.after opsC (StableHlo.after opsB (StableHlo.after opsA V0)))).trans c_arg5
  have d_arg6 := (rD_keep_arg6 (StableHlo.after opsC (StableHlo.after opsB (StableHlo.after opsA V0)))).trans c_arg6
  have d_arg7 := (rD_keep_arg7 (StableHlo.after opsC (StableHlo.after opsB (StableHlo.after opsA V0)))).trans c_arg7
  have e_v46 := rE_v46 (StableHlo.after opsD (StableHlo.after opsC (StableHlo.after opsB (StableHlo.after opsA V0)))) (V0 (Proc.devRef .tc main_arg0)) (V0 (Proc.devRef .tc main_arg1)) (V0 (Proc.devRef .tc main_arg2)) (V0 (Proc.devRef .tc main_arg3)) d_v30 d_v3 d_v6 d_v29 d_arg3
  have e_v3 := (rE_keep_v3 (StableHlo.after opsD (StableHlo.after opsC (StableHlo.after opsB (StableHlo.after opsA V0))))).trans d_v3
  have e_v6 := (rE_keep_v6 (StableHlo.after opsD (StableHlo.after opsC (StableHlo.after opsB (StableHlo.after opsA V0))))).trans d_v6
  have e_v29 := (rE_keep_v29 (StableHlo.after opsD (StableHlo.after opsC (StableHlo.after opsB (StableHlo.after opsA V0))))).trans d_v29
  have e_arg4 := (rE_keep_arg4 (StableHlo.after opsD (StableHlo.after opsC (StableHlo.after opsB (StableHlo.after opsA V0))))).trans d_arg4
  have e_arg5 := (rE_keep_arg5 (StableHlo.after opsD (StableHlo.after opsC (StableHlo.after opsB (StableHlo.after opsA V0))))).trans d_arg5
  have e_arg6 := (rE_keep_arg6 (StableHlo.after opsD (StableHlo.after opsC (StableHlo.after opsB (StableHlo.after opsA V0))))).trans d_arg6
  have e_arg7 := (rE_keep_arg7 (StableHlo.after opsD (StableHlo.after opsC (StableHlo.after opsB (StableHlo.after opsA V0))))).trans d_arg7
  have f_v47 := rF_v47 (StableHlo.after opsE (StableHlo.after opsD (StableHlo.after opsC (StableHlo.after opsB (StableHlo.after opsA V0))))) (V0 (Proc.devRef .tc main_arg0)) (V0 (Proc.devRef .tc main_arg1)) (V0 (Proc.devRef .tc main_arg2)) (V0 (Proc.devRef .tc main_arg3)) e_v46
  have f_v3 := (rF_keep_v3 (StableHlo.after opsE (StableHlo.after opsD (StableHlo.after opsC (StableHlo.after opsB (StableHlo.after opsA V0)))))).trans e_v3
  have f_v6 := (rF_keep_v6 (StableHlo.after opsE (StableHlo.after opsD (StableHlo.after opsC (StableHlo.after opsB (StableHlo.after opsA V0)))))).trans e_v6
  have f_v29 := (rF_keep_v29 (StableHlo.after opsE (StableHlo.after opsD (StableHlo.after opsC (StableHlo.after opsB (StableHlo.after opsA V0)))))).trans e_v29
  have f_arg4 := (rF_keep_arg4 (StableHlo.after opsE (StableHlo.after opsD (StableHlo.after opsC (StableHlo.after opsB (StableHlo.after opsA V0)))))).trans e_arg4
  have f_arg5 := (rF_keep_arg5 (StableHlo.after opsE (StableHlo.after opsD (StableHlo.after opsC (StableHlo.after opsB (StableHlo.after opsA V0)))))).trans e_arg5
  have f_arg6 := (rF_keep_arg6 (StableHlo.after opsE (StableHlo.after opsD (StableHlo.after opsC (StableHlo.after opsB (StableHlo.after opsA V0)))))).trans e_arg6
  have f_arg7 := (rF_keep_arg7 (StableHlo.after opsE (StableHlo.after opsD (StableHlo.after opsC (StableHlo.after opsB (StableHlo.after opsA V0)))))).trans e_arg7
  have g_v48 := rG_v48 (StableHlo.after opsF (StableHlo.after opsE (StableHlo.after opsD (StableHlo.after opsC (StableHlo.after opsB (StableHlo.after opsA V0)))))) (V0 (Proc.devRef .tc main_arg0)) (V0 (Proc.devRef .tc main_arg1)) (V0 (Proc.devRef .tc main_arg2)) (V0 (Proc.devRef .tc main_arg3)) (V0 (Proc.devRef .tc main_arg4)) f_v47 f_arg4
  have g_v3 := (rG_keep_v3 (StableHlo.after opsF (StableHlo.after opsE (StableHlo.after opsD (StableHlo.after opsC (StableHlo.after opsB (StableHlo.after opsA V0))))))).trans f_v3
  have g_v6 := (rG_keep_v6 (StableHlo.after opsF (StableHlo.after opsE (StableHlo.after opsD (StableHlo.after opsC (StableHlo.after opsB (StableHlo.after opsA V0))))))).trans f_v6
  have g_v29 := (rG_keep_v29 (StableHlo.after opsF (StableHlo.after opsE (StableHlo.after opsD (StableHlo.after opsC (StableHlo.after opsB (StableHlo.after opsA V0))))))).trans f_v29
  have g_arg5 := (rG_keep_arg5 (StableHlo.after opsF (StableHlo.after opsE (StableHlo.after opsD (StableHlo.after opsC (StableHlo.after opsB (StableHlo.after opsA V0))))))).trans f_arg5
  have g_arg6 := (rG_keep_arg6 (StableHlo.after opsF (StableHlo.after opsE (StableHlo.after opsD (StableHlo.after opsC (StableHlo.after opsB (StableHlo.after opsA V0))))))).trans f_arg6
  have g_arg7 := (rG_keep_arg7 (StableHlo.after opsF (StableHlo.after opsE (StableHlo.after opsD (StableHlo.after opsC (StableHlo.after opsB (StableHlo.after opsA V0))))))).trans f_arg7
  have h_v64 := rH_v64 (StableHlo.after opsG (StableHlo.after opsF (StableHlo.after opsE (StableHlo.after opsD (StableHlo.after opsC (StableHlo.after opsB (StableHlo.after opsA V0))))))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) g_v48 g_v3 g_v6 g_v29 g_arg5
  have h_arg6 := (rH_keep_arg6 (StableHlo.after opsG (StableHlo.after opsF (StableHlo.after opsE (StableHlo.after opsD (StableHlo.after opsC (StableHlo.after opsB (StableHlo.after opsA V0)))))))).trans g_arg6
  have h_arg7 := (rH_keep_arg7 (StableHlo.after opsG (StableHlo.after opsF (StableHlo.after opsE (StableHlo.after opsD (StableHlo.after opsC (StableHlo.after opsB (StableHlo.after opsA V0)))))))).trans g_arg7
  have i_v65 := rI_v65 (StableHlo.after opsH (StableHlo.after opsG (StableHlo.after opsF (StableHlo.after opsE (StableHlo.after opsD (StableHlo.after opsC (StableHlo.after opsB (StableHlo.after opsA V0)))))))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) h_v64
  have i_arg6 := (rI_keep_arg6 (StableHlo.after opsH (StableHlo.after opsG (StableHlo.after opsF (StableHlo.after opsE (StableHlo.after opsD (StableHlo.after opsC (StableHlo.after opsB (StableHlo.after opsA V0))))))))).trans h_arg6
  have i_arg7 := (rI_keep_arg7 (StableHlo.after opsH (StableHlo.after opsG (StableHlo.after opsF (StableHlo.after opsE (StableHlo.after opsD (StableHlo.after opsC (StableHlo.after opsB (StableHlo.after opsA V0))))))))).trans h_arg7
  have j_v70 := rJ_v70 (StableHlo.after opsI (StableHlo.after opsH (StableHlo.after opsG (StableHlo.after opsF (StableHlo.after opsE (StableHlo.after opsD (StableHlo.after opsC (StableHlo.after opsB (StableHlo.after opsA V0))))))))) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) i_v65 i_arg6 i_arg7
  rw [ops_eq]
  simp only [StableHlo.after_append]
  exact j_v70

set_option maxRecDepth 16384 in
set_option maxHeartbeats 42000000 in
/-- On every device, from any memory with zero counters: every weakly fair execution of @main terminates, the result at
    the last stage function of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70) = val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v70).trans (value (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.RefValue

end
-- ==== Proof.KernelRun.lean ====
/-
  The run of the program with its result named.

  Every weakly fair execution of @main terminates without a fault, and in the final state every buffer that outlives
  the kernels holds the contents the run's last boundary assigns to it: the host operations applied in order to the
  launch memory, each kernel's arrays at what its write-backs leave. Read at the result buffer this names the result;
  read at an argument it gives back the launch contents, since nothing writes an argument.
-/
import proofs.«168237_j30374008717765_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    buffer ends at the last boundary's contents, and the arguments end as launched. -/
theorem run : θ_run defs (onTc (τ := τ) (main (F := F))) ⟨m, fun _ => 0, ρ⟩ (fun r => ∀ c : Dev nD,
      r.2.mem ((c.tc : Thread nD τ).loc main_v67) = W11 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v67 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Out

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«168237_j30374008717765_1_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.LibFoldLast.lean ====
/-
  Minimum and maximum reductions over the LAST axis, read at an index as a fold over that axis's coordinate.

  A `vector.multi_reduction <minimumf>` / `<maximumf>` and the host's one-operand `stablehlo.reduce` with a
  commutative and associative body fold, at a result index, over the set of source indices that drop to it. For the
  last axis of a rank-3 array `[A, B, C]` that set is `{(p, g, k) | k < C}` at the result index `(p, g)`, and for the
  last axis of a matrix `[A, B]` it is `{(p, k) | k < B}` at `p`: the folds below run over `k`, from the starting
  value left as it is written (the pattern of an infinity is never evaluated). All extents are arbitrary, so one
  statement serves a kernel's block and a reference's whole array.
-/
import Idealize.ShloMosaic.PureOps.Ideal.Laws
import Idealize.ShloMosaic.Lib.ValueIdx

noncomputable section

namespace Cert.Lib.FoldLast

open Idealize.ShloMosaic Idealize.ShloMosaic.ValueIdx

/-- The source index over `(p, g)` with `k` inserted on the last axis of a rank-3 shape is `(p, g, k)`. -/
theorem lift_last3 {A B C : Nat} (h : (⟨3, ![A, B, C]⟩ : Shape).Reduces [(2 : Fin 3)] ⟨2, ![A, B]⟩)
    (p : Fin A) (g : Fin B) (k : Fin C) : h.lift (ix2 p g) k = ix3 p g k := by
  funext c
  apply Fin.ext
  match c with
  | ⟨0, _⟩ => rfl
  | ⟨1, _⟩ => rfl
  | ⟨2, _⟩ => rfl

/-- The source index over `p` with `k` inserted on the last axis of a matrix is `(p, k)`. -/
theorem lift_last2 {A B : Nat} (h : (⟨2, ![A, B]⟩ : Shape).Reduces [(1 : Fin 2)] ⟨1, ![A]⟩)
    (p : Fin A) (k : Fin B) : h.lift (ix1 p) k = ix2 p k := by
  funext c
  apply Fin.ext
  match c with
  | ⟨0, _⟩ => rfl
  | ⟨1, _⟩ => rfl

variable {φ : FTy}

/-- A `multi_reduction <minimumf>` over the last axis of `[A, B, C]` at `(p, g)`: the fold of the minimum over `k` of
    the source at `(p, g, k)`. -/
theorem multiReduction_min_last3 {A B C : Nat} (x : FVec Ideal ⟨3, ![A, B, C]⟩ φ) (acc : BitVec φ.bits)
    (h : (⟨3, ![A, B, C]⟩ : Shape).Reduces [(2 : Fin 3)] ⟨2, ![A, B]⟩) (hφ : FKind.Formats φ)
    (hacc : acc = FKind.minimumf.neutral φ hφ) (p : Fin A) (g : Fin B) :
    multiReduction .minimumf [(2 : Fin 3)] ⟨2, ![A, B]⟩ x acc h hφ hacc (ix2 p g)
      = (Finset.univ : Finset (Fin C)).fold FloatOps.minimumf (FloatOps.ofBits φ acc) (fun k => x (ix3 p g k)) := by
  rw [multiReduction_minimumf_eq_fold]
  refine (h.fold_filter_drop_single _ _ x (ix2 p g)).trans ?_
  exact congrArg (fun f => Finset.fold FloatOps.minimumf (FloatOps.ofBits φ acc) f (Finset.univ : Finset (Fin C)))
    (funext fun k => congrArg x (lift_last3 h p g k))

/-- A `multi_reduction <maximumf>` along the rows of `[A, B]` at `p`: the fold of the maximum over `k` of the source
    at `(p, k)`. -/
theorem multiReduction_max_last2 {A B : Nat} (x : FVec Ideal ⟨2, ![A, B]⟩ φ) (acc : BitVec φ.bits)
    (h : (⟨2, ![A, B]⟩ : Shape).Reduces [(1 : Fin 2)] ⟨1, ![A]⟩) (hφ : FKind.Formats φ)
    (hacc : acc = FKind.maximumf.neutral φ hφ) (p : Fin A) :
    multiReduction .maximumf [(1 : Fin 2)] ⟨1, ![A]⟩ x acc h hφ hacc (ix1 p)
      = (Finset.univ : Finset (Fin B)).fold FloatOps.maximumf (FloatOps.ofBits φ acc) (fun k => x (ix2 p k)) := by
  rw [multiReduction_maximumf_eq_fold]
  refine (h.fold_filter_drop_single _ _ x (ix1 p)).trans ?_
  exact congrArg (fun f => Finset.fold FloatOps.maximumf (FloatOps.ofBits φ acc) f (Finset.univ : Finset (Fin B)))
    (funext fun k => congrArg x (lift_last2 h p k))

/-- The host's reduce with a commutative and associative body over the last axis of `[A, B, C]` at `(p, g)`: the fold
    over `k` of the operand at `(p, g, k)`, from the rank-0 initial value's one element. -/
theorem hostReduce_last3 {α : Type} {A B C : Nat} {u : Shape} (f : α → α → α) [Std.Commutative f] [Std.Associative f]
    (x : (⟨3, ![A, B, C]⟩ : Shape).Idx → α) (init : u.Idx → α)
    (h' : (⟨3, ![A, B, C]⟩ : Shape).ReducesTo [(2 : Fin 3)] ⟨2, ![A, B]⟩)
    (h : (⟨3, ![A, B, C]⟩ : Shape).Reduces [(2 : Fin 3)] ⟨2, ![A, B]⟩) (hu : 0 < u.numel) (p : Fin A) (g : Fin B) :
    Host.reduce f x init h' hu (ix2 p g)
      = (Finset.univ : Finset (Fin C)).fold f (init (Shape.Idx.first hu)) (fun k => x (ix3 p g k)) := by
  refine (Host.reduce_eq_fold_single f x init h' h hu (ix2 p g)).trans ?_
  exact congrArg (fun y => Finset.fold f (init (Shape.Idx.first hu)) y (Finset.univ : Finset (Fin C)))
    (funext fun k => congrArg x (lift_last3 h p g k))

/-- The same along the rows of a matrix `[A, B]` at `p`. -/
theorem hostReduce_last2 {α : Type} {A B : Nat} {u : Shape} (f : α → α → α) [Std.Commutative f] [Std.Associative f]
    (x : (⟨2, ![A, B]⟩ : Shape).Idx → α) (init : u.Idx → α)
    (h' : (⟨2, ![A, B]⟩ : Shape).ReducesTo [(1 : Fin 2)] ⟨1, ![A]⟩)
    (h : (⟨2, ![A, B]⟩ : Shape).Reduces [(1 : Fin 2)] ⟨1, ![A]⟩) (hu : 0 < u.numel) (p : Fin A) :
    Host.reduce f x init h' hu (ix1 p)
      = (Finset.univ : Finset (Fin B)).fold f (init (Shape.Idx.first hu)) (fun k => x (ix2 p k)) := by
  refine (Host.reduce_eq_fold_single f x init h' h hu (ix1 p)).trans ?_
  exact congrArg (fun y => Finset.fold f (init (Shape.Idx.first hu)) y (Finset.univ : Finset (Fin B)))
    (funext fun k => congrArg x (lift_last2 h p k))

end Cert.Lib.FoldLast

end
-- ==== Proof.LibLogSoftmax.lean ====
/-
  The row-wise log-softmax of a matrix of extended reals, and its two spellings read at an entry, for any extents.

      rowLogSoftmax z (p, q) = (z(p,q) - m p) - log (∑ₖ exp (z(p,k) - m p)),      m p = rowMax z p,

  the maximum of row p folded from -∞. A kernel body spells it with reductions along the rows whose results are laid
  out as columns [A, 1] and repeated along the row (`kernel_logSoftmax_apply`); the host spells it with `reduce`s whose
  results are broadcast through [A] → [A, 1] → [A, B], and takes the greater of -∞ and the fold of the maximum, which is
  the fold (`host_logSoftmax_apply`). Each entry reads its own row only (`rowLogSoftmaxAt_congr`).
-/
import Idealize.ShloMosaic.PureOps.Ideal.Laws
import Idealize.ShloMosaic.Lib.ValueIdx
import Idealize.ShloMosaic.Lib.Pipeline.Value
import proofs.«168237_j30374008717765_1_alg».proof.Proof.LibOuterSum
import proofs.«168237_j30374008717765_1_alg».proof.Proof.LibRowReduce
import proofs.«168237_j30374008717765_1_alg».proof.Proof.LibFoldLast

noncomputable section

namespace Cert.LibLogSoftmax

open Idealize.ShloMosaic Idealize.ShloMosaic.ValueIdx

/-- A matrix of extended reals with `a` rows and `b` columns. -/
abbrev Arr (a b : Nat) : Type := (⟨2, ![a, b]⟩ : Shape).Idx → EReal

/-- The maximum of row `p`, folded from `-∞`. -/
def rowMax {M N : Nat} (z : Arr M N) (p : Fin M) : EReal :=
  (Finset.univ : Finset (Fin N)).fold max (⊥ : EReal) (fun k => z (ix2 p k))

/-- The row-wise log-softmax at row `p`, column `q`. -/
def rowLogSoftmaxAt {M N : Nat} (z : Arr M N) (p : Fin M) (q : Fin N) : EReal :=
  (z (ix2 p q) - rowMax z p) - Ideal.log (∑ k : Fin N, Ideal.exp (z (ix2 p k) - rowMax z p))

/-- The row-wise log-softmax as an array. -/
def rowLogSoftmax {M N : Nat} (z : Arr M N) : Arr M N := fun i => rowLogSoftmaxAt z (i 0) (i 1)

theorem rowLogSoftmax_ix2 {M N : Nat} (z : Arr M N) (p : Fin M) (q : Fin N) :
    rowLogSoftmax z (ix2 p q) = rowLogSoftmaxAt z p q := rfl

/-- The maximum of a row depends on that row only. -/
theorem rowMax_congr {M M' N : Nat} {z : Arr M N} {z' : Arr M' N} (p : Fin M) (p' : Fin M')
    (hz : ∀ k : Fin N, z (ix2 p k) = z' (ix2 p' k)) : rowMax z p = rowMax z' p' := by
  unfold rowMax
  exact congrArg (fun f => (Finset.univ : Finset (Fin N)).fold max (⊥ : EReal) f) (funext hz)

/-- A log-softmax entry depends on its row only. -/
theorem rowLogSoftmaxAt_congr {M M' N : Nat} {z : Arr M N} {z' : Arr M' N} (p : Fin M) (p' : Fin M') (q : Fin N)
    (hz : ∀ k : Fin N, z (ix2 p k) = z' (ix2 p' k)) : rowLogSoftmaxAt z p q = rowLogSoftmaxAt z' p' q := by
  unfold rowLogSoftmaxAt
  rw [rowMax_congr p p' hz, hz q, Finset.sum_congr rfl fun k _ => by rw [hz k]]

/-! ## The kernel's spelling -/

/-- A row's maximum (from -∞), laid out as a column and repeated along the row, at an entry. -/
theorem kernel_rowMax_apply {A B : Nat} (z : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ (multiReduction .maximumf [1] ⟨1, ![A]⟩ z 0xFF800000#32 h hφ hacc) hc) hb (ix2 a b)
      = rowMax z a := by
  rw [Cert.LibRowReduce.stat_bcast_apply, Cert.LibRowReduce.max_row2]
  rfl

/-- The kernel's log-softmax of a block at an entry. -/
theorem kernel_logSoftmax_apply {A B : Nat} (z : FVec Ideal ⟨2, ![A, B]⟩ .f32)
    (h : (⟨2, ![A, B]⟩ : Shape).Reduces [1] ⟨1, ![A]⟩) (hφ : FKind.Formats FTy.f32)
    (hmax : (0xFF800000#32 : BitVec 32) = 0xFF800000#32) (hadd : (0x00000000#32 : BitVec 32) = 0x00000000#32)
    (hc : (⟨1, ![A]⟩ : Shape).ShapeCasts ⟨2, ![A, 1]⟩) (hb : (⟨2, ![A, 1]⟩ : Shape).Broadcasts ⟨2, ![A, B]⟩)
    (a : Fin A) (b : Fin B) :
    subf (subf z (broadcastTo ⟨2, ![A, B]⟩ (shapeCast ⟨2, ![A, 1]⟩ (multiReduction .maximumf [1] ⟨1, ![A]⟩ z 0xFF800000#32 h hφ hmax) hc) hb))
        (broadcastTo ⟨2, ![A, B]⟩
          (log (shapeCast ⟨2, ![A, 1]⟩
            (multiReduction .add [1] ⟨1, ![A]⟩
              (exp (subf z (broadcastTo ⟨2, ![A, B]⟩ (shapeCast ⟨2, ![A, 1]⟩ (multiReduction .maximumf [1] ⟨1, ![A]⟩ z 0xFF800000#32 h hφ hmax) hc) hb)))
              0x00000000#32 h hφ hadd) hc)) hb) (ix2 a b)
      = rowLogSoftmax z (ix2 a b) := by
  have hm : ∀ k : Fin B,
      broadcastTo ⟨2, ![A, B]⟩ (shapeCast ⟨2, ![A, 1]⟩ (multiReduction .maximumf [1] ⟨1, ![A]⟩ z 0xFF800000#32 h hφ hmax) hc) hb (ix2 a k)
        = rowMax z a := fun k => kernel_rowMax_apply z h hφ hmax hc hb a k
  rw [subf_apply, subf_apply, hm b, Cert.LibOuterSum.bcast_col_apply]
  show (z (ix2 a b) - rowMax z a) - Ideal.log (shapeCast ⟨2, ![A, 1]⟩ _ hc (ix2 a (⟨0, Nat.one_pos⟩ : Fin 1))) = _
  rw [Cert.LibOuterSum.col_of_vec_apply, Cert.LibRowReduce.sum_row2, rowLogSoftmax_ix2]
  unfold rowLogSoftmaxAt
  refine congrArg (fun s => (z (ix2 a b) - rowMax z a) - Ideal.log s) (Finset.sum_congr rfl fun k _ => ?_)
  show Ideal.exp (z (ix2 a k) - _) = _
  rw [hm k]

/-! ## The host's spelling -/

/-- A per-row value [A] broadcast through [A, 1] to [A, B] reads, at (a, b), the value of row a. -/
theorem host_stat_apply {A B : Nat} {α : Type} (v : (⟨1, ![A]⟩ : Shape).Idx → α)
    (h1 : (⟨1, ![A]⟩ : Shape).BroadcastsInDim ⟨2, ![A, 1]⟩ ![0])
    (h2 : (⟨2, ![A, 1]⟩ : Shape).BroadcastsInDim ⟨2, ![A, B]⟩ ![0, 1]) (a : Fin A) (b : Fin B) :
    broadcastInDim ⟨2, ![A, B]⟩ ![0, 1] h2 (broadcastInDim ⟨2, ![A, 1]⟩ ![0] h1 v) (ix2 a b) = v (ix1 a) := by
  refine (broadcastInDim_apply _ h2 _ (ix2 a b) (ix2 a (0 : Fin 1)) fun d => ?_).trans
    (broadcastInDim_apply _ h1 v (ix2 a (0 : Fin 1)) (ix1 a) fun d => ?_)
  · match d with
    | ⟨0, _⟩ =>
      show a.val = if A = 1 then 0 else a.val
      split
      · have := a.isLt; omega
      · rfl
    | ⟨1, _⟩ =>
      show (0 : Nat) = if (1 : Nat) = 1 then 0 else b.val
      rfl
  · match d with
    | ⟨0, _⟩ =>
      show a.val = if A = 1 then 0 else a.val
      split
      · have := a.isLt; omega
      · rfl

/-- The host's row maximum, the greater of -∞ and the fold from -∞, is the fold. -/
theorem host_rowMax_apply {A B : Nat} (z : FVec Ideal ⟨2, ![A, B]⟩ .f32)
    (hR : (⟨2, ![A, B]⟩ : Shape).ReducesTo [(1 : Fin 2)] ⟨1, ![A]⟩) (h : (⟨2, ![A, B]⟩ : Shape).Reduces [(1 : Fin 2)] ⟨1, ![A]⟩)
    (hu : 0 < (⟨0, ![]⟩ : Shape).numel) (h0 : (⟨0, ![]⟩ : Shape).BroadcastsInDim ⟨1, ![A]⟩ ![]) (a : Fin A) :
    maximumf (broadcastInDim ⟨1, ![A]⟩ ![] h0 (constant (F := Ideal) ⟨0, ![]⟩ .f32 0xFF800000#32))
        (Host.reduce FloatOps.maximumf z (constant (F := Ideal) ⟨0, ![]⟩ .f32 0xFF800000#32) hR hu) (ix1 a)
      = rowMax z a := by
  show max (broadcastInDim ⟨1, ![A]⟩ ![] h0 (constant (F := Ideal) ⟨0, ![]⟩ .f32 0xFF800000#32) (ix1 a))
      (Host.reduce (max : EReal → EReal → EReal) z (constant (F := Ideal) ⟨0, ![]⟩ .f32 0xFF800000#32) hR hu (ix1 a)) = _
  rw [Cert.Lib.FoldLast.hostReduce_last2 (max : EReal → EReal → EReal) z _ hR h hu a,
    broadcastInDim_apply _ h0 _ (ix1 a) ix0 fun d => d.elim0]
  show max (Ideal.ofBits .f32 0xFF800000#32) ((Finset.univ : Finset (Fin B)).fold max (Ideal.ofBits .f32 0xFF800000#32) _) = _
  rw [Cert.LibRowReduce.ofBits_neg_inf_f32, max_eq_right bot_le]
  rfl

/-- The host's log-softmax of an array at an entry. -/
theorem host_logSoftmax_apply {A B : Nat} (z : FVec Ideal ⟨2, ![A, B]⟩ .f32)
    (hR : (⟨2, ![A, B]⟩ : Shape).ReducesTo [(1 : Fin 2)] ⟨1, ![A]⟩) (h : (⟨2, ![A, B]⟩ : Shape).Reduces [(1 : Fin 2)] ⟨1, ![A]⟩)
    (hu : 0 < (⟨0, ![]⟩ : Shape).numel) (h0 : (⟨0, ![]⟩ : Shape).BroadcastsInDim ⟨1, ![A]⟩ ![])
    (h1 : (⟨1, ![A]⟩ : Shape).BroadcastsInDim ⟨2, ![A, 1]⟩ ![0])
    (h2 : (⟨2, ![A, 1]⟩ : Shape).BroadcastsInDim ⟨2, ![A, B]⟩ ![0, 1]) (a : Fin A) (b : Fin B) :
    subf (subf z (broadcastInDim ⟨2, ![A, B]⟩ ![0, 1] h2 (broadcastInDim ⟨2, ![A, 1]⟩ ![0] h1
          (maximumf (broadcastInDim ⟨1, ![A]⟩ ![] h0 (constant (F := Ideal) ⟨0, ![]⟩ .f32 0xFF800000#32))
            (Host.reduce FloatOps.maximumf z (constant (F := Ideal) ⟨0, ![]⟩ .f32 0xFF800000#32) hR hu)))))
        (broadcastInDim ⟨2, ![A, B]⟩ ![0, 1] h2
          (Host.log (broadcastInDim ⟨2, ![A, 1]⟩ ![0] h1
            (Host.reduceAdd
              (Host.exp (subf z (broadcastInDim ⟨2, ![A, B]⟩ ![0, 1] h2 (broadcastInDim ⟨2, ![A, 1]⟩ ![0] h1
                (maximumf (broadcastInDim ⟨1, ![A]⟩ ![] h0 (constant (F := Ideal) ⟨0, ![]⟩ .f32 0xFF800000#32))
                  (Host.reduce FloatOps.maximumf z (constant (F := Ideal) ⟨0, ![]⟩ .f32 0xFF800000#32) hR hu))))))
              (constant (F := Ideal) ⟨0, ![]⟩ .f32 0x00000000#32) hR hu)))) (ix2 a b)
      = rowLogSoftmax z (ix2 a b) := by
  have hm : ∀ k : Fin B,
      broadcastInDim ⟨2, ![A, B]⟩ ![0, 1] h2 (broadcastInDim ⟨2, ![A, 1]⟩ ![0] h1
          (maximumf (broadcastInDim ⟨1, ![A]⟩ ![] h0 (constant (F := Ideal) ⟨0, ![]⟩ .f32 0xFF800000#32))
            (Host.reduce FloatOps.maximumf z (constant (F := Ideal) ⟨0, ![]⟩ .f32 0xFF800000#32) hR hu))) (ix2 a k)
        = rowMax z a := fun k => (host_stat_apply _ h1 h2 a k).trans (host_rowMax_apply z hR h hu h0 a)
  rw [subf_apply, subf_apply, hm b]
  rw [broadcastInDim_apply (s := ⟨2, ![A, 1]⟩) (t := ⟨2, ![A, B]⟩) ![0, 1] h2 _ (ix2 a b) (ix2 a (0 : Fin 1)) fun d => by
    match d with
    | ⟨0, _⟩ =>
      show a.val = if A = 1 then 0 else a.val
      split
      · have := a.isLt; omega
      · rfl
    | ⟨1, _⟩ =>
      show (0 : Nat) = if (1 : Nat) = 1 then 0 else b.val
      rfl]
  simp only [Host.log]
  rw [broadcastInDim_apply (s := ⟨1, ![A]⟩) (t := ⟨2, ![A, 1]⟩) ![0] h1 _ (ix2 a (0 : Fin 1)) (ix1 a) fun d => by
    match d with
    | ⟨0, _⟩ =>
      show a.val = if A = 1 then 0 else a.val
      split
      · have := a.isLt; omega
      · rfl]
  show (z (ix2 a b) - rowMax z a) - Ideal.log (Ideal.hostReduceAdd hR _ (Ideal.ofBits .f32 0x00000000#32) (ix1 a)) = _
  rw [Ideal.hostReduceAdd_single hR h, Ideal.ofBits_zero_f32, zero_add, rowLogSoftmax_ix2]
  unfold rowLogSoftmaxAt
  refine congrArg (fun s => (z (ix2 a b) - rowMax z a) - Ideal.log s) (Finset.sum_congr rfl fun k _ => ?_)
  rw [Cert.Lib.FoldLast.lift_last2 h a k]
  show Ideal.exp (z (ix2 a k) - _) = _
  rw [hm k]

end Cert.LibLogSoftmax

end
-- ==== Proof.Head.lean ====
/-
  The reference's last stages: the logits h₂ · Wl + bl and their row-wise log-softmax.

  The logits at (p, k) are ∑ⱼ h₂(p, j) · Wl(j, k) + bl(k): the host's product is the sum over the shared axis, and the
  bias vector broadcast through the row [1, 7] to all rows reads its entry k. The result is the host's spelling of the
  log-softmax of that array: the row maximum taken as the greater of −∞ and the fold from −∞ (which is the fold), the
  row statistics broadcast through [A] → [A, 1] → [A, B].
-/
import proofs.«168237_j30374008717765_1_alg».proof.Proof.RefRead
import proofs.«168237_j30374008717765_1_alg».proof.Proof.LibDotSum
import proofs.«168237_j30374008717765_1_alg».proof.Proof.LibLogSoftmax
import Idealize.ShloMosaic.Lib.Pipeline.Value
import Idealize.ShloMosaic.Lib.ValueIdx
import Idealize.ShloMosaic.PureOps.Ideal.Laws

noncomputable section

namespace Cert.ReferenceIdeal.Head

open Cert.ReferenceIdeal Cert.ReferenceIdeal.Gen Cert.ReferenceIdeal.ReadP Cert.LibLogSoftmax
open Idealize.ShloMosaic Idealize.ShloMosaic.ValueIdx

variable (x0 : (⟨S100000x1433, .f32⟩ : BufTy).Contents (Elt Ideal)) (x1 : (⟨S2x1600000, .i32⟩ : BufTy).Contents (Elt Ideal))
  (x2 : (⟨S1433x80, .f32⟩ : BufTy).Contents (Elt Ideal)) (x3 : (⟨S80, .f32⟩ : BufTy).Contents (Elt Ideal))
  (x4 : (⟨S80x80, .f32⟩ : BufTy).Contents (Elt Ideal)) (x5 : (⟨S80, .f32⟩ : BufTy).Contents (Elt Ideal))
  (x6 : (⟨S80x7, .f32⟩ : BufTy).Contents (Elt Ideal)) (x7 : (⟨S7, .f32⟩ : BufTy).Contents (Elt Ideal))

/-- The reference's logits at an entry. -/
theorem logits_apply (p : Fin 100000) (k : Fin 7) :
    val_main_v69 (F := Ideal) x0 x1 x2 x3 x4 x5 x6 x7 (ix2 p k)
      = ∑ j : Fin 80, val_main_v65 (F := Ideal) x0 x1 x2 x3 x4 x5 (ix2 p j) * x6 (ix2 j k) + x7 (ix1 k) := by
  rw [val_main_v69_apply, val_main_v66_apply]
  have el : ∀ j : Fin 80, lidx_main_v66 (ix2 p k) j = ix2 p j := fun j => funext fun a => by
    match a with
    | ⟨0, _⟩ => rfl
    | ⟨1, _⟩ => rfl
  have er : ∀ j : Fin 80, ridx_main_v66 (ix2 p k) j = ix2 j k := fun j => funext fun a => by
    match a with
    | ⟨0, _⟩ => rfl
    | ⟨1, _⟩ => rfl
  simp only [el, er]
  refine congrArg (∑ j : Fin 80, val_main_v65 (F := Ideal) x0 x1 x2 x3 x4 x5 (ix2 p j) * x6 (ix2 j k) + ·) ?_
  unfold val_main_v68 val_main_v67
  exact Cert.LibDotSum.bias_apply x7 bcast_S7_S1x7_1 bcast_S1x7_S100000x7_0_1 p k

/-- The reference's result is the row-wise log-softmax of its logits. -/
theorem result_apply (p : Fin 100000) (q : Fin 7) :
    val_main_v70 (F := Ideal) x0 x1 x2 x3 x4 x5 x6 x7 (ix2 p q) = rowLogSoftmax (val_main_v69 (F := Ideal) x0 x1 x2 x3 x4 x5 x6 x7) (ix2 p q) :=
  host_logSoftmax_apply (val_main_v69 (F := Ideal) x0 x1 x2 x3 x4 x5 x6 x7) reducesTo_S100000x7_S100000_d1 (by decide) h_S_
    bcast_S_S100000 bcast_S100000_S100000x1_0 bcast_S100000x1_S100000x7_0_1 p q

/-- The first product read entry by entry. -/
theorem first_apply (p : Fin 100000) (q : Fin 80) :
    val_main_v30 (F := Ideal) x0 x2 (ix2 p q) = ∑ k : Fin 1433, x0 (ix2 p k) * x2 (ix2 k q) := by
  rw [val_main_v30_apply]
  refine Finset.sum_congr rfl fun k _ => ?_
  have el : lidx_main_v30 (ix2 p q) k = ix2 p k := funext fun a => by
    match a with
    | ⟨0, _⟩ => rfl
    | ⟨1, _⟩ => rfl
  have er : ridx_main_v30 (ix2 p q) k = ix2 k q := funext fun a => by
    match a with
    | ⟨0, _⟩ => rfl
    | ⟨1, _⟩ => rfl
  rw [el, er]

/-- The second product read entry by entry. -/
theorem second_apply (p : Fin 100000) (q : Fin 80) :
    val_main_v48 (F := Ideal) x0 x1 x2 x3 x4 (ix2 p q)
      = ∑ k : Fin 80, val_main_v47 (F := Ideal) x0 x1 x2 x3 (ix2 p k) * x4 (ix2 k q) := by
  rw [val_main_v48_apply]
  refine Finset.sum_congr rfl fun k _ => ?_
  have el : lidx_main_v48 (ix2 p q) k = ix2 p k := funext fun a => by
    match a with
    | ⟨0, _⟩ => rfl
    | ⟨1, _⟩ => rfl
  have er : ridx_main_v48 (ix2 p q) k = ix2 k q := funext fun a => by
    match a with
    | ⟨0, _⟩ => rfl
    | ⟨1, _⟩ => rfl
  rw [el, er]

end Cert.ReferenceIdeal.Head

end
-- ==== Proof.Product.lean ====
/-
  The product of an M × K array by a K × N array of extended reals, read entry by entry:

      (A · B)(p, q) = ∑ₖ A(p, k) · B(k, q),      k over the K positions of the shared axis.

  Addition of extended reals is commutative and associative, so this finite sum needs no order of summation and no
  finiteness of the entries. A product computed tile by tile along the rows is this same function: the rows of the
  result that a tile holds depend on the same rows of A and on all of B.
-/
import Idealize.ShloMosaic.PureOps.Ideal
import Idealize.ShloMosaic.Lib.ValueIdx

noncomputable section

namespace Cert.Product

open Idealize.ShloMosaic Idealize.ShloMosaic.ValueIdx

/-- The product of `A : [M, K]` by `B : [K, N]`, at an entry. -/
def mm {M K N : Nat} (A : FVec Ideal ⟨2, ![M, K]⟩ .f32) (B : FVec Ideal ⟨2, ![K, N]⟩ .f32) : FVec Ideal ⟨2, ![M, N]⟩ .f32 :=
  fun i => ∑ k : Fin K, A (ix2 ⟨(i 0).val, (i 0).isLt⟩ k) * B (ix2 k ⟨(i 1).val, (i 1).isLt⟩)

/-- At the entry `(p, q)`. -/
theorem mm_ix2 {M K N : Nat} (A : FVec Ideal ⟨2, ![M, K]⟩ .f32) (B : FVec Ideal ⟨2, ![K, N]⟩ .f32) (p : Fin M) (q : Fin N) :
    mm A B (ix2 p q) = ∑ k : Fin K, A (ix2 p k) * B (ix2 k q) := rfl

end Cert.Product

end
-- ==== Proof.Tiles0.lean ====
/-
  The first dense product, x · W1, computed in 100 tiles of 1000 rows.

  At grid point t the body reads rows 1000·t … 1000·t + 999 of x (all 1433 columns) and the whole of W1, and writes
  the product of the two, a 1000 × 80 tile, to the same rows of the result. Entry (p, q) of the tile is
  ∑ₖ x(1000·t + p, k) · W1(k, q): entry (1000·t + p, q) of the whole product x · W1. Row r of the result lies in the
  tile of point r / 1000, so the hundred tiles fill the result and it ends holding x · W1.
-/
import proofs.«168237_j30374008717765_1_alg».proof.Proof.Gen.KernelIdeal.Frame
import proofs.«168237_j30374008717765_1_alg».proof.Proof.LibDotSum
import proofs.«168237_j30374008717765_1_alg».proof.Proof.Product
import Idealize.ShloMosaic.Lib.Pipeline.Value
import Idealize.ShloMosaic.Lib.ValueIdx
import Idealize.ShloMosaic.PureOps.Ideal.Laws

set_option maxRecDepth 16384

noncomputable section

namespace Cert.KernelIdeal.Tiles0

open Cert.KernelIdeal Cert.KernelIdeal.Gen Cert.Product
open Idealize.ShloMosaic Idealize.ShloMosaic.TcCoe Idealize.ShloMosaic.ValueIdx Idealize.SL.Sem
open Idealize.ShloMosaic.Pipeline (Dat)

/-- The tile's entry (p, q): the matrix product accumulated into the zero array is the sum over the shared axis
    (the operands' change of format is the identity on extended reals). -/
theorem tile_apply (x0 : Vec Ideal S1000x1433 .f32) (x1 : Vec Ideal S1433x80 .f32) (p : Fin 1000) (q : Fin 80) :
    k0_pay1 x0 x1 (ix2 p q) = ∑ k : Fin 1433, x0 (ix2 p k) * x1 (ix2 k q) := by
  unfold k0_pay1
  exact (Ideal.matmul_constant_zero_apply dot_S1000x1433_S1433x80_S1000x80_1_0_0_1_n_n none _ _ (ix2 p q)).trans
    (Cert.LibDotSum.sum_dot dot_S1000x1433_S1433x80_S1000x80_1_0_0_1_n_n rfl rfl (fun _ _ => rfl) (fun _ _ => rfl)
      (fun _ _ => rfl) (fun _ _ => rfl) x0 x1 p q)

/-- A tile whose left block holds rows `r·1000 …` of `a0` and whose right block is `a2` holds, at `y`, the entry of
    `a0 · a2` at row `r·1000 + y₀`, column `y₁`. -/
theorem tile_eq (a0 : FVec Ideal S100000x1433 .f32) (a2 : FVec Ideal S1433x80 .f32)
    (x0 : Vec Ideal S1000x1433 .f32) (x1 : Vec Ideal S1433x80 .f32) (r : Nat)
    (h0 : ∀ (p : Fin 1000) (k : Fin 1433) (P : Fin 100000), P.val = r * 1000 + p.val → x0 (ix2 p k) = a0 (ix2 P k))
    (h1 : ∀ (k : Fin 1433) (q : Fin 80), x1 (ix2 k q) = a2 (ix2 k q))
    (y : S1000x80.Idx) (i : S100000x80.Idx) (hi0 : (i 0).val = r * 1000 + (y 0).val) (hi1 : (i 1).val = (y 1).val) :
    k0_pay1 x0 x1 y = mm (M := 100000) (K := 1433) (N := 80) a0 a2 i := by
  obtain ⟨p, q, rfl⟩ : ∃ (p : Fin 1000) (q : Fin 80), y = ix2 p q := ⟨y 0, y 1, eq_ix2 y⟩
  obtain ⟨P, Q, rfl⟩ : ∃ (P : Fin 100000) (Q : Fin 80), i = ix2 P Q := ⟨i 0, i 1, eq_ix2 i⟩
  have hP : P.val = r * 1000 + p.val := hi0
  obtain rfl : Q = q := Fin.ext hi1
  rw [tile_apply, mm_ix2]
  exact Finset.sum_congr rfl fun k _ => by rw [h0 p k P hP, h1 k Q]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the result's row block is the point's number, every
    other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- What point `t` writes back is block `t` of the product of the two arrays as the region finds them. -/
theorem flushed_eq (c : Dev nD) (t : Fin cfg0.N) :
    (dat0 V c).flushed 2 t = ((cfg0.win 2).blk t).view.read (Elt Ideal)
      (mm (M := 100000) (K := 1433) (N := 80) (V c main_arg0) (V c main_arg2)) := by
  show (cfg0.win 2).cut (grid0.coords t) ((dat0 V c).after 2 t) = _
  rw [after0_2]
  unfold out0_2
  rw [View.canon_unit_zero hz]
  simp only [View.ld_unit_zero (S := S1000x1433) hz, View.ld_unit_zero (S := S1433x80) hz]
  obtain ⟨e0, e1, e2, e3, e4, e5⟩ := idx_facts t
  funext j
  show k0_pay1 (iblk0 V c 0 t) (iblk0 V c 1 t) j
    = mm (M := 100000) (K := 1433) (N := 80) (V c main_arg0) (V c main_arg2) (((cfg0.win 2).blk t).view.emb j)
  refine tile_eq (V c main_arg0) (V c main_arg2) (iblk0 V c 0 t) (iblk0 V c 1 t) t.val ?_ ?_ j
    (((cfg0.win 2).blk t).view.emb j) ?_ ?_
  · intro p k P hP
    show V c main_arg0 (((cfg0.win 0).blk t).view.emb (ix2 p k)) = V c main_arg0 (ix2 P k)
    refine congrArg (V c main_arg0) (funext fun a => Fin.ext ?_)
    match a with
    | ⟨0, _⟩ => show win0_0.index t (0 : Fin 2) * 1000 + 1 * p.val = P.val; omega
    | ⟨1, _⟩ => show win0_0.index t (1 : Fin 2) * 1433 + 1 * k.val = k.val; omega
  · intro k q
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 1433 + 1 * k.val = k.val; omega
    | ⟨1, _⟩ => show win0_1.index t (1 : Fin 2) * 80 + 1 * q.val = q.val; omega
  · show win0_2.index t (0 : Fin 2) * 1000 + 1 * (j 0).val = t.val * 1000 + (j 0).val; omega
  · show win0_2.index t (1 : Fin 2) * 80 + 1 * (j 1).val = (j 1).val; omega

/-- An index of the result is in point `t`'s block iff each coordinate is in the block's range on its axis. -/
theorem mem_blk (t : Fin cfg0.N) (i : S100000x80.Idx) :
    i ∈ ((cfg0.win 2).blk t).view.set ↔ ∀ a : Fin 2, win0_2.index t a * S1000x80.size a ≤ (i a).val
      ∧ (i a).val < win0_2.index t a * S1000x80.size a + S1000x80.size a := by
  show i ∈ ((View.whole main_v30).slice (win0_2.rect t)).set ↔ _
  rw [View.set_slice_whole, Rect.mem_set_unit]
  exact Iff.rfl

/-- Row `r` of the result is in the block of point `r / 1000`. -/
theorem covered (i : S100000x80.Idx) :
    ∃ t : Fin cfg0.N, (cfg0.win 2).flush t = true ∧ i ∈ ((cfg0.win 2).blk t).view.set := by
  have hi0 : (i 0).val < 100000 := (i 0).isLt
  have hi1 : (i 1).val < 80 := (i 1).isLt
  have hN : cfg0.N = 100 := N_0
  let t : Fin cfg0.N := ⟨(i 0).val / 1000, by rw [hN]; omega⟩
  obtain ⟨e0, e1, e2, e3, e4, e5⟩ := idx_facts t
  have ht : t.val = (i 0).val / 1000 := rfl
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 80 ≤ (i 1).val ∧ (i 1).val < win0_2.index t (1 : Fin 2) * 80 + 80; omega

/-- The result array after the region: the product of the two input arrays as the region finds them. -/
theorem final (c : Dev nD) :
    (dat0 V c).arrAt 2 cfg0.N = mm (M := 100000) (K := 1433) (N := 80) (V c main_arg0) (V c main_arg2) :=
  (dat0 V c).arrAt_eq_of_cover 2 _ (fun t _ => flushed_eq V c t) covered

end Cert.KernelIdeal.Tiles0

end
-- ==== Proof.Tiles1.lean ====
/-
  The second dense product, h₁ · W2, computed in 20 tiles of 5000 rows.

  At grid point t the body reads rows 5000·t … 5000·t + 4999 of h₁ (all 80 columns) and the whole of W2, and writes
  the product of the two, a 5000 × 80 tile, to the same rows of the result. Entry (p, q) of the tile is
  ∑ₖ h₁(5000·t + p, k) · W2(k, q): entry (5000·t + p, q) of the whole product h₁ · W2. Row r of the result lies in the
  tile of point r / 5000, so the twenty tiles fill the result and it ends holding h₁ · W2. (The body first casts its left
  block to its own shape, which changes nothing.)
-/
import proofs.«168237_j30374008717765_1_alg».proof.Proof.Gen.KernelIdeal.Frame
import proofs.«168237_j30374008717765_1_alg».proof.Proof.LibDotSum
import proofs.«168237_j30374008717765_1_alg».proof.Proof.Product
import Idealize.ShloMosaic.Lib.Pipeline.Value
import Idealize.ShloMosaic.Lib.ValueIdx
import Idealize.ShloMosaic.PureOps.Ideal.Laws

set_option maxRecDepth 16384

noncomputable section

namespace Cert.KernelIdeal.Tiles1

open Cert.KernelIdeal Cert.KernelIdeal.Gen Cert.Product
open Idealize.ShloMosaic Idealize.ShloMosaic.TcCoe Idealize.ShloMosaic.ValueIdx Idealize.SL.Sem
open Idealize.ShloMosaic.Pipeline (Dat)

/-- The tile's entry (p, q): the matrix product accumulated into the zero array is the sum over the shared axis
    (the operands' change of format is the identity on extended reals). -/
theorem tile_apply (x0 : Vec Ideal S5000x80 .f32) (x1 : Vec Ideal S80x80 .f32) (p : Fin 5000) (q : Fin 80) :
    k1_pay1 x0 x1 (ix2 p q) = ∑ k : Fin 80, x0 (ix2 p k) * x1 (ix2 k q) := by
  unfold k1_pay1
  rw [shapeCast_self]
  exact (Ideal.matmul_constant_zero_apply dot_S5000x80_S80x80_S5000x80_1_0_0_1_n_n none _ _ (ix2 p q)).trans
    (Cert.LibDotSum.sum_dot dot_S5000x80_S80x80_S5000x80_1_0_0_1_n_n rfl rfl (fun _ _ => rfl) (fun _ _ => rfl)
      (fun _ _ => rfl) (fun _ _ => rfl) x0 x1 p q)

/-- A tile whose left block holds rows `r·5000 …` of `a0` and whose right block is `a2` holds, at `y`, the entry of
    `a0 · a2` at row `r·5000 + y₀`, column `y₁`. -/
theorem tile_eq (a0 : FVec Ideal S100000x80 .f32) (a2 : FVec Ideal S80x80 .f32)
    (x0 : Vec Ideal S5000x80 .f32) (x1 : Vec Ideal S80x80 .f32) (r : Nat)
    (h0 : ∀ (p : Fin 5000) (k : Fin 80) (P : Fin 100000), P.val = r * 5000 + p.val → x0 (ix2 p k) = a0 (ix2 P k))
    (h1 : ∀ (k : Fin 80) (q : Fin 80), x1 (ix2 k q) = a2 (ix2 k q))
    (y : S5000x80.Idx) (i : S100000x80.Idx) (hi0 : (i 0).val = r * 5000 + (y 0).val) (hi1 : (i 1).val = (y 1).val) :
    k1_pay1 x0 x1 y = mm (M := 100000) (K := 80) (N := 80) a0 a2 i := by
  obtain ⟨p, q, rfl⟩ : ∃ (p : Fin 5000) (q : Fin 80), y = ix2 p q := ⟨y 0, y 1, eq_ix2 y⟩
  obtain ⟨P, Q, rfl⟩ : ∃ (P : Fin 100000) (Q : Fin 80), i = ix2 P Q := ⟨i 0, i 1, eq_ix2 i⟩
  have hP : P.val = r * 5000 + p.val := hi0
  obtain rfl : Q = q := Fin.ext hi1
  rw [tile_apply, mm_ix2]
  exact Finset.sum_congr rfl fun k _ => by rw [h0 p k P hP, h1 k Q]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the result's row block is the point's number, every
    other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-- What point `t` writes back is block `t` of the product of the two arrays as the region finds them. -/
theorem flushed_eq (c : Dev nD) (t : Fin cfg1.N) :
    (dat1 V c).flushed 2 t = ((cfg1.win 2).blk t).view.read (Elt Ideal)
      (mm (M := 100000) (K := 80) (N := 80) (V c main_v47) (V c main_arg4)) := by
  show (cfg1.win 2).cut (grid1.coords t) ((dat1 V c).after 2 t) = _
  rw [after1_2]
  unfold out1_2
  rw [View.canon_unit_zero hz]
  simp only [View.ld_unit_zero (S := S5000x80) hz, View.ld_unit_zero (S := S80x80) hz]
  obtain ⟨e0, e1, e2, e3, e4, e5⟩ := idx_facts t
  funext j
  show k1_pay1 (iblk1 V c 0 t) (iblk1 V c 1 t) j
    = mm (M := 100000) (K := 80) (N := 80) (V c main_v47) (V c main_arg4) (((cfg1.win 2).blk t).view.emb j)
  refine tile_eq (V c main_v47) (V c main_arg4) (iblk1 V c 0 t) (iblk1 V c 1 t) t.val ?_ ?_ j
    (((cfg1.win 2).blk t).view.emb j) ?_ ?_
  · intro p k P hP
    show V c main_v47 (((cfg1.win 0).blk t).view.emb (ix2 p k)) = V c main_v47 (ix2 P k)
    refine congrArg (V c main_v47) (funext fun a => Fin.ext ?_)
    match a with
    | ⟨0, _⟩ => show win1_0.index t (0 : Fin 2) * 5000 + 1 * p.val = P.val; omega
    | ⟨1, _⟩ => show win1_0.index t (1 : Fin 2) * 80 + 1 * k.val = k.val; omega
  · intro k q
    show V c main_arg4 (((cfg1.win 1).blk t).view.emb (ix2 k q)) = V c main_arg4 (ix2 k q)
    refine congrArg (V c main_arg4) (funext fun a => Fin.ext ?_)
    match a with
    | ⟨0, _⟩ => show win1_1.index t (0 : Fin 2) * 80 + 1 * k.val = k.val; omega
    | ⟨1, _⟩ => show win1_1.index t (1 : Fin 2) * 80 + 1 * q.val = q.val; omega
  · show win1_2.index t (0 : Fin 2) * 5000 + 1 * (j 0).val = t.val * 5000 + (j 0).val; omega
  · show win1_2.index t (1 : Fin 2) * 80 + 1 * (j 1).val = (j 1).val; omega

/-- An index of the result is in point `t`'s block iff each coordinate is in the block's range on its axis. -/
theorem mem_blk (t : Fin cfg1.N) (i : S100000x80.Idx) :
    i ∈ ((cfg1.win 2).blk t).view.set ↔ ∀ a : Fin 2, win1_2.index t a * S5000x80.size a ≤ (i a).val
      ∧ (i a).val < win1_2.index t a * S5000x80.size a + S5000x80.size a := by
  show i ∈ ((View.whole main_v48).slice (win1_2.rect t)).set ↔ _
  rw [View.set_slice_whole, Rect.mem_set_unit]
  exact Iff.rfl

/-- Row `r` of the result is in the block of point `r / 5000`. -/
theorem covered (i : S100000x80.Idx) :
    ∃ t : Fin cfg1.N, (cfg1.win 2).flush t = true ∧ i ∈ ((cfg1.win 2).blk t).view.set := by
  have hi0 : (i 0).val < 100000 := (i 0).isLt
  have hi1 : (i 1).val < 80 := (i 1).isLt
  have hN : cfg1.N = 20 := N_1
  let t : Fin cfg1.N := ⟨(i 0).val / 5000, by rw [hN]; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 80 ≤ (i 1).val ∧ (i 1).val < win1_2.index t (1 : Fin 2) * 80 + 80; omega

/-- The result array after the region: the product of the two input arrays as the region finds them. -/
theorem final (c : Dev nD) :
    (dat1 V c).arrAt 2 cfg1.N = mm (M := 100000) (K := 80) (N := 80) (V c main_v47) (V c main_arg4) :=
  (dat1 V c).arrAt_eq_of_cover 2 _ (fun t _ => flushed_eq V c t) covered

end Cert.KernelIdeal.Tiles1

end
-- ==== Proof.Tiles2.lean ====
/-
  The classifier: the row-wise log-softmax of h₂ · Wl + bl, computed in 20 tiles of 5000 rows.

  The logits are z(p, q) = ∑ₖ h₂(p, k) · Wl(k, q) + bl(q), the bias laid out as the one row [1, 7]; the result is

      (z(p, q) − m p) − log ∑ₖ exp(z(p, k) − m p),      m p the maximum of row p, folded from −∞.

  At grid point t the body reads rows 5000·t … 5000·t + 4999 of h₂, the whole of Wl and the bias row, forms the tile's
  logits and takes the log-softmax of each of the tile's rows. A row's log-softmax reads that row of the logits only, and
  row p of the tile's logits is row 5000·t + p of the whole array's logits, so the tile holds rows 5000·t … of the
  log-softmax of the whole logits. Row r of the result lies in the tile of point r / 5000: the twenty tiles fill it.
-/
import proofs.«168237_j30374008717765_1_alg».proof.Proof.Gen.KernelIdeal.Frame
import proofs.«168237_j30374008717765_1_alg».proof.Proof.LibDotSum
import proofs.«168237_j30374008717765_1_alg».proof.Proof.LibLogSoftmax
import proofs.«168237_j30374008717765_1_alg».proof.Proof.Product
import Idealize.ShloMosaic.Lib.Pipeline.Value
import Idealize.ShloMosaic.Lib.ValueIdx
import Idealize.ShloMosaic.PureOps.Ideal.Laws

set_option maxRecDepth 16384

noncomputable section

namespace Cert.KernelIdeal.Tiles2

open Cert.KernelIdeal Cert.KernelIdeal.Gen Cert.Product Cert.LibLogSoftmax
open Idealize.ShloMosaic Idealize.ShloMosaic.TcCoe Idealize.ShloMosaic.ValueIdx Idealize.SL.Sem
open Idealize.ShloMosaic.Pipeline (Dat)

/-- The logits of `M` rows: the product with the weights plus the bias row. -/
def logits {M : Nat} (h : FVec Ideal ⟨2, ![M, 80]⟩ .f32) (w : FVec Ideal ⟨2, ![80, 7]⟩ .f32) (b : FVec Ideal ⟨2, ![1, 7]⟩ .f32) :
    FVec Ideal ⟨2, ![M, 7]⟩ .f32 :=
  fun i => mm h w i + b (ix2 (0 : Fin 1) ⟨(i 1).val, (i 1).isLt⟩)

theorem logits_ix2 {M : Nat} (h : FVec Ideal ⟨2, ![M, 80]⟩ .f32) (w : FVec Ideal ⟨2, ![80, 7]⟩ .f32)
    (b : FVec Ideal ⟨2, ![1, 7]⟩ .f32) (p : Fin M) (q : Fin 7) :
    logits h w b (ix2 p q) = ∑ k : Fin 80, h (ix2 p k) * w (ix2 k q) + b (ix2 (0 : Fin 1) q) := rfl

/-- The tile's logits as the body forms them: the product accumulated into the zero array (its operands' changes of
    format and the casts of a block to its own shape are identities) plus the bias row repeated over the rows. -/
def tileLogits (x0 : Vec Ideal S5000x80 .f32) (x1 : Vec Ideal S80x7 .f32) (x2 : Vec Ideal S1x7 .f32) : FVec Ideal S5000x7 .f32 :=
  addf (matmul dot_S5000x80_S80x7_S5000x7_1_0_0_1_n_n none
      (truncf .bf16 (shapeCast S5000x80 x0 shapeCasts_S5000x80_S5000x80) bitsLt_bf16_f32) (truncf .bf16 x1 bitsLt_bf16_f32)
      (constant (F := Ideal) S5000x7 .f32 0x00000000#32))
    (broadcastTo S5000x7 (shapeCast S1x7 x2 shapeCasts_S1x7_S1x7) broadcasts_S1x7_S5000x7)

/-- The tile's logits at an entry. -/
theorem tileLogits_apply (x0 : Vec Ideal S5000x80 .f32) (x1 : Vec Ideal S80x7 .f32) (x2 : Vec Ideal S1x7 .f32)
    (p : Fin 5000) (q : Fin 7) :
    tileLogits x0 x1 x2 (ix2 p q) = ∑ k : Fin 80, x0 (ix2 p k) * x1 (ix2 k q) + x2 (ix2 (0 : Fin 1) q) := by
  unfold tileLogits
  rw [shapeCast_self, shapeCast_self]
  refine congrArg₂ (· + ·) ?_ ?_
  · exact (Ideal.matmul_constant_zero_apply dot_S5000x80_S80x7_S5000x7_1_0_0_1_n_n none _ _ (ix2 p q)).trans
      (Cert.LibDotSum.sum_dot dot_S5000x80_S80x7_S5000x7_1_0_0_1_n_n rfl rfl (fun _ _ => rfl) (fun _ _ => rfl)
        (fun _ _ => rfl) (fun _ _ => rfl) x0 x1 p q)
  · exact broadcastTo_apply x2 broadcasts_S1x7_S5000x7 (ix2 p q) (ix2 (0 : Fin 1) q) fun a => by
      match a with
      | ⟨0, _⟩ => rfl
      | ⟨1, _⟩ => rfl

/-- What the body stores is the row-wise log-softmax of the tile's logits. -/
theorem pay_apply (x0 : Vec Ideal S5000x80 .f32) (x1 : Vec Ideal S80x7 .f32) (x2 : Vec Ideal S1x7 .f32)
    (p : Fin 5000) (q : Fin 7) :
    k2_pay1 x0 x1 x2 (ix2 p q) = rowLogSoftmax (tileLogits x0 x1 x2) (ix2 p q) := by
  unfold k2_pay1
  exact kernel_logSoftmax_apply (tileLogits x0 x1 x2) reduces_S5000x7_S5000 (.inl rfl) rfl rfl
    shapeCasts_S5000_S5000x1 broadcasts_S5000x1_S5000x7 p q

/-- A tile whose first block holds rows `r·5000 …` of `a0`, whose second is `a1` and whose third is the row `a2`
    holds, at `y`, the log-softmax of the whole logits at row `r·5000 + y₀`, column `y₁`. -/
theorem tile_eq (a0 : FVec Ideal S100000x80 .f32) (a1 : FVec Ideal S80x7 .f32) (a2 : FVec Ideal S1x7 .f32)
    (x0 : Vec Ideal S5000x80 .f32) (x1 : Vec Ideal S80x7 .f32) (x2 : Vec Ideal S1x7 .f32) (r : Nat)
    (h0 : ∀ (p : Fin 5000) (k : Fin 80) (P : Fin 100000), P.val = r * 5000 + p.val → x0 (ix2 p k) = a0 (ix2 P k))
    (h1 : ∀ (k : Fin 80) (q : Fin 7), x1 (ix2 k q) = a1 (ix2 k q))
    (h2 : ∀ q : Fin 7, x2 (ix2 (0 : Fin 1) q) = a2 (ix2 (0 : Fin 1) q))
    (y : S5000x7.Idx) (i : S100000x7.Idx) (hi0 : (i 0).val = r * 5000 + (y 0).val) (hi1 : (i 1).val = (y 1).val) :
    k2_pay1 x0 x1 x2 y = rowLogSoftmax (logits (M := 100000) a0 a1 a2) i := by
  obtain ⟨p, q, rfl⟩ : ∃ (p : Fin 5000) (q : Fin 7), y = ix2 p q := ⟨y 0, y 1, eq_ix2 y⟩
  obtain ⟨P, Q, rfl⟩ : ∃ (P : Fin 100000) (Q : Fin 7), i = ix2 P Q := ⟨i 0, i 1, eq_ix2 i⟩
  have hP : P.val = r * 5000 + p.val := hi0
  obtain rfl : Q = q := Fin.ext hi1
  rw [pay_apply, rowLogSoftmax_ix2, rowLogSoftmax_ix2]
  refine rowLogSoftmaxAt_congr p P Q fun k => ?_
  rw [tileLogits_apply, logits_ix2, h2 k]
  exact congrArg (· + a2 (ix2 (0 : Fin 1) k)) (Finset.sum_congr rfl fun j _ => by rw [h0 p j P hP, h1 j k])

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the first operand's and the result's row block is the point's number, every
    other block index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0)

/-- What point `t` writes back is block `t` of the log-softmax of the logits of the three arrays as the region finds them. -/
theorem flushed_eq (c : Dev nD) (t : Fin cfg2.N) :
    (dat2 V c).flushed 3 t = ((cfg2.win 3).blk t).view.read (Elt Ideal)
      (rowLogSoftmax (logits (M := 100000) (V c main_v65) (V c main_arg6) (V c main_v66))) := by
  show (cfg2.win 3).cut (grid2.coords t) ((dat2 V c).after 3 t) = _
  rw [after2_3]
  unfold out2_3
  rw [View.canon_unit_zero hz]
  simp only [View.ld_unit_zero (S := S5000x80) hz, View.ld_unit_zero (S := S80x7) hz, View.ld_unit_zero (S := S1x7) hz]
  obtain ⟨e0, e1, e2, e3, e4, e5, e6, e7⟩ := idx_facts t
  funext j
  show k2_pay1 (iblk2 V c 0 t) (iblk2 V c 1 t) (iblk2 V c 2 t) j
    = rowLogSoftmax (logits (M := 100000) (V c main_v65) (V c main_arg6) (V c main_v66)) (((cfg2.win 3).blk t).view.emb j)
  refine tile_eq (V c main_v65) (V c main_arg6) (V c main_v66) (iblk2 V c 0 t) (iblk2 V c 1 t) (iblk2 V c 2 t) t.val
    ?_ ?_ ?_ j (((cfg2.win 3).blk t).view.emb j) ?_ ?_
  · intro p k P hP
    show V c main_v65 (((cfg2.win 0).blk t).view.emb (ix2 p k)) = V c main_v65 (ix2 P k)
    refine congrArg (V c main_v65) (funext fun a => Fin.ext ?_)
    match a with
    | ⟨0, _⟩ => show win2_0.index t (0 : Fin 2) * 5000 + 1 * p.val = P.val; omega
    | ⟨1, _⟩ => show win2_0.index t (1 : Fin 2) * 80 + 1 * k.val = k.val; omega
  · intro k q
    show V c main_arg6 (((cfg2.win 1).blk t).view.emb (ix2 k q)) = V c main_arg6 (ix2 k q)
    refine congrArg (V c main_arg6) (funext fun a => Fin.ext ?_)
    match a with
    | ⟨0, _⟩ => show win2_1.index t (0 : Fin 2) * 80 + 1 * k.val = k.val; omega
    | ⟨1, _⟩ => show win2_1.index t (1 : Fin 2) * 7 + 1 * q.val = q.val; omega
  · intro q
    show V c main_v66 (((cfg2.win 2).blk t).view.emb (ix2 (0 : Fin 1) q)) = V c main_v66 (ix2 (0 : Fin 1) q)
    refine congrArg (V c main_v66) (funext fun a => Fin.ext ?_)
    match a with
    | ⟨0, _⟩ => show win2_2.index t (0 : Fin 2) * 1 + 1 * 0 = 0; omega
    | ⟨1, _⟩ => show win2_2.index t (1 : Fin 2) * 7 + 1 * q.val = q.val; omega
  · show win2_3.index t (0 : Fin 2) * 5000 + 1 * (j 0).val = t.val * 5000 + (j 0).val; omega
  · show win2_3.index t (1 : Fin 2) * 7 + 1 * (j 1).val = (j 1).val; omega

/-- An index of the result is in point `t`'s block iff each coordinate is in the block's range on its axis. -/
theorem mem_blk (t : Fin cfg2.N) (i : S100000x7.Idx) :
    i ∈ ((cfg2.win 3).blk t).view.set ↔ ∀ a : Fin 2, win2_3.index t a * S5000x7.size a ≤ (i a).val
      ∧ (i a).val < win2_3.index t a * S5000x7.size a + S5000x7.size a := by
  show i ∈ ((View.whole main_v67).slice (win2_3.rect t)).set ↔ _
  rw [View.set_slice_whole, Rect.mem_set_unit]
  exact Iff.rfl

/-- Row `r` of the result is in the block of point `r / 5000`. -/
theorem covered (i : S100000x7.Idx) :
    ∃ t : Fin cfg2.N, (cfg2.win 3).flush t = true ∧ i ∈ ((cfg2.win 3).blk t).view.set := by
  have hi0 : (i 0).val < 100000 := (i 0).isLt
  have hi1 : (i 1).val < 7 := (i 1).isLt
  have hN : cfg2.N = 20 := N_2
  let t : Fin cfg2.N := ⟨(i 0).val / 5000, by rw [hN]; omega⟩
  obtain ⟨e0, e1, e2, e3, e4, e5, e6, e7⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 7 ≤ (i 1).val ∧ (i 1).val < win2_3.index t (1 : Fin 2) * 7 + 7; omega

/-- The result array after the region: the row-wise log-softmax of the logits of the three input arrays as the region
    finds them. -/
theorem final (c : Dev nD) :
    (dat2 V c).arrAt 3 cfg2.N = rowLogSoftmax (logits (M := 100000) (V c main_v65) (V c main_arg6) (V c main_v66)) :=
  (dat2 V c).arrAt_eq_of_cover 3 _ (fun t _ => flushed_eq V c t) covered

end Cert.KernelIdeal.Tiles2

end
-- ==== Proof.KStagesA.lean ====
/-
  The first stretch of host operations: the edge lists with self loops appended, the in-degree of each node (a
  scatter-add of ones over the destinations), whether it is positive, and its inverse square root.

  Each result is the reference's stage function of the edge array: the operations are the same, one for one. Stated for
  any contents V of the buffers before the stretch.
-/
import proofs.«168237_j30374008717765_1_alg».proof.Proof.Gen.KernelIdeal.Frame
import proofs.«168237_j30374008717765_1_alg».proof.Proof.RefRead
import Idealize.ShloMosaic.Lib.StableHlo.Run

set_option maxRecDepth 16384

noncomputable section

namespace Cert.KernelIdeal.StagesA

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

set_option maxHeartbeats 8000000 in
/-- The sources of the edges, self loops appended. -/
theorem kA_v3 (V : Valuation τ sig (Elt Ideal)) :
    StableHlo.after hostOps0 V (Proc.devRef .tc main_v3) = val_main_v3 (F := Ideal) (V (Proc.devRef .tc main_arg1)) := by
  dsimp only [hostOps0]
  after_results_simp
  rfl

set_option maxHeartbeats 8000000 in
/-- The destinations of the edges, self loops appended. -/
theorem kA_v6 (V : Valuation τ sig (Elt Ideal)) :
    StableHlo.after hostOps0 V (Proc.devRef .tc main_v6) = val_main_v6 (F := Ideal) (V (Proc.devRef .tc main_arg1)) := by
  dsimp only [hostOps0]
  after_results_simp
  rfl

set_option maxHeartbeats 8000000 in
/-- Whether each node's in-degree is positive. -/
theorem kA_v12 (V : Valuation τ sig (Elt Ideal)) :
    StableHlo.after hostOps0 V (Proc.devRef .tc main_v12) = val_main_v12 (F := Ideal) (V (Proc.devRef .tc main_arg1)) := by
  dsimp only [hostOps0]
  after_results_simp
  rfl

set_option maxHeartbeats 8000000 in
/-- The inverse square root of each node's in-degree. -/
theorem kA_v13 (V : Valuation τ sig (Elt Ideal)) :
    StableHlo.after hostOps0 V (Proc.devRef .tc main_v13) = val_main_v13 (F := Ideal) (V (Proc.devRef .tc main_arg1)) := by
  dsimp only [hostOps0]
  after_results_simp
  rfl

set_option maxHeartbeats 8000000 in
/-- The zero that fills in where the degree is not positive. -/
theorem kA_cst_2 (V : Valuation τ sig (Elt Ideal)) :
    StableHlo.after hostOps0 V (Proc.devRef .tc main_cst_2) = val_main_cst_2 (F := Ideal) := by
  dsimp only [hostOps0]
  after_results_simp
  rfl

set_option maxHeartbeats 4000000 in
theorem kA_keep_arg0 (V : Valuation τ sig (Elt Ideal)) : StableHlo.after hostOps0 V (Proc.devRef .tc main_arg0) = V (Proc.devRef .tc main_arg0) := by
  dsimp only [hostOps0]
  after_results_simp

set_option maxHeartbeats 4000000 in
theorem kA_keep_arg2 (V : Valuation τ sig (Elt Ideal)) : StableHlo.after hostOps0 V (Proc.devRef .tc main_arg2) = V (Proc.devRef .tc main_arg2) := by
  dsimp only [hostOps0]
  after_results_simp

set_option maxHeartbeats 4000000 in
theorem kA_keep_arg3 (V : Valuation τ sig (Elt Ideal)) : StableHlo.after hostOps0 V (Proc.devRef .tc main_arg3) = V (Proc.devRef .tc main_arg3) := by
  dsimp only [hostOps0]
  after_results_simp

set_option maxHeartbeats 4000000 in
theorem kA_keep_arg4 (V : Valuation τ sig (Elt Ideal)) : StableHlo.after hostOps0 V (Proc.devRef .tc main_arg4) = V (Proc.devRef .tc main_arg4) := by
  dsimp only [hostOps0]
  after_results_simp

set_option maxHeartbeats 4000000 in
theorem kA_keep_arg5 (V : Valuation τ sig (Elt Ideal)) : StableHlo.after hostOps0 V (Proc.devRef .tc main_arg5) = V (Proc.devRef .tc main_arg5) := by
  dsimp only [hostOps0]
  after_results_simp

set_option maxHeartbeats 4000000 in
theorem kA_keep_arg6 (V : Valuation τ sig (Elt Ideal)) : StableHlo.after hostOps0 V (Proc.devRef .tc main_arg6) = V (Proc.devRef .tc main_arg6) := by
  dsimp only [hostOps0]
  after_results_simp

set_option maxHeartbeats 4000000 in
theorem kA_keep_arg7 (V : Valuation τ sig (Elt Ideal)) : StableHlo.after hostOps0 V (Proc.devRef .tc main_arg7) = V (Proc.devRef .tc main_arg7) := by
  dsimp only [hostOps0]
  after_results_simp

end Cert.KernelIdeal.StagesA

end
-- ==== Proof.KStagesC.lean ====
/-
  The second and third stretches: d = deg^(-1/2) where the degree is positive and 0 elsewhere (an outlined `where`),
  then the edge weights norm e = d(src e) · d(dst e), each index first normalised (a negative index counts from the end).

  The outlined call's three operations are restated over plain buffer references (the typed references' casts are
  identities at these literal buffers), which is the same list.
-/
import proofs.«168237_j30374008717765_1_alg».proof.Proof.Gen.KernelIdeal.Frame
import proofs.«168237_j30374008717765_1_alg».proof.Proof.RefRead
import Idealize.ShloMosaic.Lib.StableHlo.Run

set_option maxRecDepth 16384

noncomputable section

namespace Cert.KernelIdeal.StagesC

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

/-- The outlined `where` in plain spelling. -/
abbrev whereOps : List (HloOp τ sig (Elt Ideal)) :=
  [ StableHlo.unary main_cst_2 main_call0_v0 id,
    StableHlo.unary main_call0_v0 main_call0_v1 (broadcastInDim S100000 ![] bcast_S_S100000),
    StableHlo.ternary main_v12 main_v13 main_call0_v1 main_v14 select ]

theorem where_eq : (hostOps0_1 : List (HloOp τ sig (Elt Ideal))) = whereOps := rfl

set_option maxHeartbeats 2000000 in
/-- d: the inverse square root where the degree is positive, else zero. -/
theorem kB_v14 (V : Valuation τ sig (Elt Ideal)) (x1 : (⟨S2x1600000, .i32⟩ : BufTy).Contents (Elt Ideal))
    (h_v12 : V (Proc.devRef .tc main_v12) = val_main_v12 (F := Ideal) x1)
    (h_v13 : V (Proc.devRef .tc main_v13) = val_main_v13 (F := Ideal) x1)
    (h_cst_2 : V (Proc.devRef .tc main_cst_2) = val_main_cst_2 (F := Ideal)) :
    StableHlo.after whereOps V (Proc.devRef .tc main_v14) = val_main_v14 (F := Ideal) x1 := by
  dsimp only [whereOps]
  after_results
  rw [h_v12, h_v13, h_cst_2]
  rfl

set_option maxHeartbeats 4000000 in
theorem kB_keep_v3 (V : Valuation τ sig (Elt Ideal)) : StableHlo.after whereOps V (Proc.devRef .tc main_v3) = V (Proc.devRef .tc main_v3) := by
  dsimp only [whereOps]
  after_results

set_option maxHeartbeats 4000000 in
theorem kB_keep_v6 (V : Valuation τ sig (Elt Ideal)) : StableHlo.after whereOps V (Proc.devRef .tc main_v6) = V (Proc.devRef .tc main_v6) := by
  dsimp only [whereOps]
  after_results

set_option maxHeartbeats 4000000 in
theorem kB_keep_arg0 (V : Valuation τ sig (Elt Ideal)) : StableHlo.after whereOps V (Proc.devRef .tc main_arg0) = V (Proc.devRef .tc main_arg0) := by
  dsimp only [whereOps]
  after_results

set_option maxHeartbeats 4000000 in
theorem kB_keep_arg2 (V : Valuation τ sig (Elt Ideal)) : StableHlo.after whereOps V (Proc.devRef .tc main_arg2) = V (Proc.devRef .tc main_arg2) := by
  dsimp only [whereOps]
  after_results

set_option maxHeartbeats 4000000 in
theorem kB_keep_arg3 (V : Valuation τ sig (Elt Ideal)) : StableHlo.after whereOps V (Proc.devRef .tc main_arg3) = V (Proc.devRef .tc main_arg3) := by
  dsimp only [whereOps]
  after_results

set_option maxHeartbeats 4000000 in
theorem kB_keep_arg4 (V : Valuation τ sig (Elt Ideal)) : StableHlo.after whereOps V (Proc.devRef .tc main_arg4) = V (Proc.devRef .tc main_arg4) := by
  dsimp only [whereOps]
  after_results

set_option maxHeartbeats 4000000 in
theorem kB_keep_arg5 (V : Valuation τ sig (Elt Ideal)) : StableHlo.after whereOps V (Proc.devRef .tc main_arg5) = V (Proc.devRef .tc main_arg5) := by
  dsimp only [whereOps]
  after_results

set_option maxHeartbeats 4000000 in
theorem kB_keep_arg6 (V : Valuation τ sig (Elt Ideal)) : StableHlo.after whereOps V (Proc.devRef .tc main_arg6) = V (Proc.devRef .tc main_arg6) := by
  dsimp only [whereOps]
  after_results

set_option maxHeartbeats 4000000 in
theorem kB_keep_arg7 (V : Valuation τ sig (Elt Ideal)) : StableHlo.after whereOps V (Proc.devRef .tc main_arg7) = V (Proc.devRef .tc main_arg7) := by
  dsimp only [whereOps]
  after_results

set_option maxHeartbeats 8000000 in
/-- The edge weights: d at the source times d at the destination. -/
theorem kC_v29 (V : Valuation τ sig (Elt Ideal)) (x1 : (⟨S2x1600000, .i32⟩ : BufTy).Contents (Elt Ideal))
    (h_v3 : V (Proc.devRef .tc main_v3) = val_main_v3 (F := Ideal) x1)
    (h_v6 : V (Proc.devRef .tc main_v6) = val_main_v6 (F := Ideal) x1)
    (h_v14 : V (Proc.devRef .tc main_v14) = val_main_v14 (F := Ideal) x1) :
    StableHlo.after hostOps0_2 V (Proc.devRef .tc main_v29) = val_main_v29 (F := Ideal) x1 := by
  dsimp only [hostOps0_2]
  after_results_simp
  rw [h_v3, h_v6, h_v14]
  rfl

set_option maxHeartbeats 4000000 in
theorem kC_keep_v3 (V : Valuation τ sig (Elt Ideal)) : StableHlo.after hostOps0_2 V (Proc.devRef .tc main_v3) = V (Proc.devRef .tc main_v3) := by
  dsimp only [hostOps0_2]
  after_results_simp

set_option maxHeartbeats 4000000 in
theorem kC_keep_v6 (V : Valuation τ sig (Elt Ideal)) : StableHlo.after hostOps0_2 V (Proc.devRef .tc main_v6) = V (Proc.devRef .tc main_v6) := by
  dsimp only [hostOps0_2]
  after_results_simp

set_option maxHeartbeats 4000000 in
theorem kC_keep_arg0 (V : Valuation τ sig (Elt Ideal)) : StableHlo.after hostOps0_2 V (Proc.devRef .tc main_arg0) = V (Proc.devRef .tc main_arg0) := by
  dsimp only [hostOps0_2]
  after_results_simp

set_option maxHeartbeats 4000000 in
theorem kC_keep_arg2 (V : Valuation τ sig (Elt Ideal)) : StableHlo.after hostOps0_2 V (Proc.devRef .tc main_arg2) = V (Proc.devRef .tc main_arg2) := by
  dsimp only [hostOps0_2]
  after_results_simp

set_option maxHeartbeats 4000000 in
theorem kC_keep_arg3 (V : Valuation τ sig (Elt Ideal)) : StableHlo.after hostOps0_2 V (Proc.devRef .tc main_arg3) = V (Proc.devRef .tc main_arg3) := by
  dsimp only [hostOps0_2]
  after_results_simp

set_option maxHeartbeats 4000000 in
theorem kC_keep_arg4 (V : Valuation τ sig (Elt Ideal)) : StableHlo.after hostOps0_2 V (Proc.devRef .tc main_arg4) = V (Proc.devRef .tc main_arg4) := by
  dsimp only [hostOps0_2]
  after_results_simp

set_option maxHeartbeats 4000000 in
theorem kC_keep_arg5 (V : Valuation τ sig (Elt Ideal)) : StableHlo.after hostOps0_2 V (Proc.devRef .tc main_arg5) = V (Proc.devRef .tc main_arg5) := by
  dsimp only [hostOps0_2]
  after_results_simp

set_option maxHeartbeats 4000000 in
theorem kC_keep_arg6 (V : Valuation τ sig (Elt Ideal)) : StableHlo.after hostOps0_2 V (Proc.devRef .tc main_arg6) = V (Proc.devRef .tc main_arg6) := by
  dsimp only [hostOps0_2]
  after_results_simp

set_option maxHeartbeats 4000000 in
theorem kC_keep_arg7 (V : Valuation τ sig (Elt Ideal)) : StableHlo.after hostOps0_2 V (Proc.devRef .tc main_arg7) = V (Proc.devRef .tc main_arg7) := by
  dsimp only [hostOps0_2]
  after_results_simp

end Cert.KernelIdeal.StagesC

end
-- ==== Proof.KStagesE.lean ====
/-
  The first layer's host operations: the rows of the first product gathered at the edges' sources, scaled by the edge
  weights, scatter-added at the destinations, plus the bias; then clipped at zero (an outlined call, restated over plain
  buffer references). Each result is the reference's stage function, the operations being the same one for one; the
  gather and the scatter enter only as the same functions on both sides.
-/
import proofs.«168237_j30374008717765_1_alg».proof.Proof.Gen.KernelIdeal.Frame
import proofs.«168237_j30374008717765_1_alg».proof.Proof.RefRead
import Idealize.ShloMosaic.Lib.StableHlo.Run

set_option maxRecDepth 16384

noncomputable section

namespace Cert.KernelIdeal.StagesE

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

set_option maxHeartbeats 8000000 in
/-- The aggregated rows plus the bias. -/
theorem kE_v46 (V : Valuation τ sig (Elt Ideal)) (x0 : (⟨S100000x1433, .f32⟩ : BufTy).Contents (Elt Ideal)) (x1 : (⟨S2x1600000, .i32⟩ : BufTy).Contents (Elt Ideal)) (x2 : (⟨S1433x80, .f32⟩ : BufTy).Contents (Elt Ideal)) (x3 : (⟨S80, .f32⟩ : BufTy).Contents (Elt Ideal))
    (h_v30 : V (Proc.devRef .tc main_v30) = val_main_v30 (F := Ideal) x0 x2)
    (h_v3 : V (Proc.devRef .tc main_v3) = val_main_v3 (F := Ideal) x1)
    (h_v6 : V (Proc.devRef .tc main_v6) = val_main_v6 (F := Ideal) x1)
    (h_v29 : V (Proc.devRef .tc main_v29) = val_main_v29 (F := Ideal) x1)
    (h_arg3 : V (Proc.devRef .tc main_arg3) = x3) :
    StableHlo.after hostOps1 V (Proc.devRef .tc main_v46) = val_main_v46 (F := Ideal) x0 x1 x2 x3 := by
  dsimp only [hostOps1]
  after_results_simp
  rw [h_v30, h_v3, h_v6, h_v29, h_arg3]
  rfl

set_option maxHeartbeats 4000000 in
theorem kE_keep_v3 (V : Valuation τ sig (Elt Ideal)) : StableHlo.after hostOps1 V (Proc.devRef .tc main_v3) = V (Proc.devRef .tc main_v3) := by
  dsimp only [hostOps1]
  after_results_simp

set_option maxHeartbeats 4000000 in
theorem kE_keep_v6 (V : Valuation τ sig (Elt Ideal)) : StableHlo.after hostOps1 V (Proc.devRef .tc main_v6) = V (Proc.devRef .tc main_v6) := by
  dsimp only [hostOps1]
  after_results_simp

set_option maxHeartbeats 4000000 in
theorem kE_keep_v29 (V : Valuation τ sig (Elt Ideal)) : StableHlo.after hostOps1 V (Proc.devRef .tc main_v29) = V (Proc.devRef .tc main_v29) := by
  dsimp only [hostOps1]
  after_results_simp

set_option maxHeartbeats 4000000 in
theorem kE_keep_arg4 (V : Valuation τ sig (Elt Ideal)) : StableHlo.after hostOps1 V (Proc.devRef .tc main_arg4) = V (Proc.devRef .tc main_arg4) := by
  dsimp only [hostOps1]
  after_results_simp

set_option maxHeartbeats 4000000 in
theorem kE_keep_arg5 (V : Valuation τ sig (Elt Ideal)) : StableHlo.after hostOps1 V (Proc.devRef .tc main_arg5) = V (Proc.devRef .tc main_arg5) := by
  dsimp only [hostOps1]
  after_results_simp

set_option maxHeartbeats 4000000 in
theorem kE_keep_arg6 (V : Valuation τ sig (Elt Ideal)) : StableHlo.after hostOps1 V (Proc.devRef .tc main_arg6) = V (Proc.devRef .tc main_arg6) := by
  dsimp only [hostOps1]
  after_results_simp

set_option maxHeartbeats 4000000 in
theorem kE_keep_arg7 (V : Valuation τ sig (Elt Ideal)) : StableHlo.after hostOps1 V (Proc.devRef .tc main_arg7) = V (Proc.devRef .tc main_arg7) := by
  dsimp only [hostOps1]
  after_results_simp

section
variable {F : FTy → Type} [FloatOps F]

/-- The outlined clip at zero in plain spelling. -/
abbrev relu1Ops : List (HloOp τ sig (Elt F)) :=
  [ StableHlo.nullary main_call1_cst (constant S_ .f32 0x00000000#32 : (⟨S_, .f32⟩ : BufTy).Contents (Elt F)),
    StableHlo.unary main_call1_cst main_call1_v0 (broadcastInDim S100000x80 ![] bcast_S_S100000x80 : (⟨S_, .f32⟩ : BufTy).Contents (Elt F) → (⟨S100000x80, .f32⟩ : BufTy).Contents (Elt F)),
    StableHlo.binary main_v46 main_call1_v0 main_v47 (maximumf : (⟨S100000x80, .f32⟩ : BufTy).Contents (Elt F) → (⟨S100000x80, .f32⟩ : BufTy).Contents (Elt F) → (⟨S100000x80, .f32⟩ : BufTy).Contents (Elt F)) ]

theorem relu1_eq : (hostOps1_1 : List (HloOp τ sig (Elt F))) = relu1Ops := rfl

end

set_option maxHeartbeats 2000000 in
/-- Clipped at zero. -/
theorem kF_v47 (V : Valuation τ sig (Elt Ideal)) (x0 : (⟨S100000x1433, .f32⟩ : BufTy).Contents (Elt Ideal)) (x1 : (⟨S2x1600000, .i32⟩ : BufTy).Contents (Elt Ideal)) (x2 : (⟨S1433x80, .f32⟩ : BufTy).Contents (Elt Ideal)) (x3 : (⟨S80, .f32⟩ : BufTy).Contents (Elt Ideal))
    (h_v46 : V (Proc.devRef .tc main_v46) = val_main_v46 (F := Ideal) x0 x1 x2 x3) :
    StableHlo.after relu1Ops V (Proc.devRef .tc main_v47) = val_main_v47 (F := Ideal) x0 x1 x2 x3 := by
  dsimp only [relu1Ops]
  after_results
  rw [h_v46]
  rfl

set_option maxHeartbeats 4000000 in
theorem kF_keep_v3 (V : Valuation τ sig (Elt Ideal)) : StableHlo.after relu1Ops V (Proc.devRef .tc main_v3) = V (Proc.devRef .tc main_v3) := by
  dsimp only [relu1Ops]
  after_results

set_option maxHeartbeats 4000000 in
theorem kF_keep_v6 (V : Valuation τ sig (Elt Ideal)) : StableHlo.after relu1Ops V (Proc.devRef .tc main_v6) = V (Proc.devRef .tc main_v6) := by
  dsimp only [relu1Ops]
  after_results

set_option maxHeartbeats 4000000 in
theorem kF_keep_v29 (V : Valuation τ sig (Elt Ideal)) : StableHlo.after relu1Ops V (Proc.devRef .tc main_v29) = V (Proc.devRef .tc main_v29) := by
  dsimp only [relu1Ops]
  after_results

set_option maxHeartbeats 4000000 in
theorem kF_keep_arg4 (V : Valuation τ sig (Elt Ideal)) : StableHlo.after relu1Ops V (Proc.devRef .tc main_arg4) = V (Proc.devRef .tc main_arg4) := by
  dsimp only [relu1Ops]
  after_results

set_option maxHeartbeats 4000000 in
theorem kF_keep_arg5 (V : Valuation τ sig (Elt Ideal)) : StableHlo.after relu1Ops V (Proc.devRef .tc main_arg5) = V (Proc.devRef .tc main_arg5) := by
  dsimp only [relu1Ops]
  after_results

set_option maxHeartbeats 4000000 in
theorem kF_keep_arg6 (V : Valuation τ sig (Elt Ideal)) : StableHlo.after relu1Ops V (Proc.devRef .tc main_arg6) = V (Proc.devRef .tc main_arg6) := by
  dsimp only [relu1Ops]
  after_results

set_option maxHeartbeats 4000000 in
theorem kF_keep_arg7 (V : Valuation τ sig (Elt Ideal)) : StableHlo.after relu1Ops V (Proc.devRef .tc main_arg7) = V (Proc.devRef .tc main_arg7) := by
  dsimp only [relu1Ops]
  after_results

end Cert.KernelIdeal.StagesE

end
-- ==== Proof.KStagesH.lean ====
/-
  The second layer's host operations (the same as the first layer's, on the second product and the second bias), its
  clip at zero, and the classifier's bias vector laid out as the one row [1, 7].
-/
import proofs.«168237_j30374008717765_1_alg».proof.Proof.Gen.KernelIdeal.Frame
import proofs.«168237_j30374008717765_1_alg».proof.Proof.RefRead
import Idealize.ShloMosaic.Lib.StableHlo.Run

set_option maxRecDepth 16384

noncomputable section

namespace Cert.KernelIdeal.StagesH

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP

set_option maxHeartbeats 8000000 in
/-- The aggregated rows plus the bias. -/
theorem kH_v64 (V : Valuation τ sig (Elt Ideal)) (x0 : (⟨S100000x1433, .f32⟩ : BufTy).Contents (Elt Ideal)) (x1 : (⟨S2x1600000, .i32⟩ : BufTy).Contents (Elt Ideal)) (x2 : (⟨S1433x80, .f32⟩ : BufTy).Contents (Elt Ideal)) (x3 : (⟨S80, .f32⟩ : BufTy).Contents (Elt Ideal)) (x4 : (⟨S80x80, .f32⟩ : BufTy).Contents (Elt Ideal)) (x5 : (⟨S80, .f32⟩ : BufTy).Contents (Elt Ideal))
    (h_v48 : V (Proc.devRef .tc main_v48) = val_main_v48 (F := Ideal) x0 x1 x2 x3 x4)
    (h_v3 : V (Proc.devRef .tc main_v3) = val_main_v3 (F := Ideal) x1)
    (h_v6 : V (Proc.devRef .tc main_v6) = val_main_v6 (F := Ideal) x1)
    (h_v29 : V (Proc.devRef .tc main_v29) = val_main_v29 (F := Ideal) x1)
    (h_arg5 : V (Proc.devRef .tc main_arg5) = x5) :
    StableHlo.after hostOps2 V (Proc.devRef .tc main_v64) = val_main_v64 (F := Ideal) x0 x1 x2 x3 x4 x5 := by
  dsimp only [hostOps2]
  after_results_simp
  rw [h_v48, h_v3, h_v6, h_v29, h_arg5]
  rfl

set_option maxHeartbeats 4000000 in
theorem kH_keep_arg6 (V : Valuation τ sig (Elt Ideal)) : StableHlo.after hostOps2 V (Proc.devRef .tc main_arg6) = V (Proc.devRef .tc main_arg6) := by
  dsimp only [hostOps2]
  after_results_simp

set_option maxHeartbeats 4000000 in
theorem kH_keep_arg7 (V : Valuation τ sig (Elt Ideal)) : StableHlo.after hostOps2 V (Proc.devRef .tc main_arg7) = V (Proc.devRef .tc main_arg7) := by
  dsimp only [hostOps2]
  after_results_simp

section
variable {F : FTy → Type} [FloatOps F]

/-- The outlined clip at zero in plain spelling. -/
abbrev relu2Ops : List (HloOp τ sig (Elt F)) :=
  [ StableHlo.nullary main_call2_cst (constant S_ .f32 0x00000000#32 : (⟨S_, .f32⟩ : BufTy).Contents (Elt F)),
    StableHlo.unary main_call2_cst main_call2_v0 (broadcastInDim S100000x80 ![] bcast_S_S100000x80 : (⟨S_, .f32⟩ : BufTy).Contents (Elt F) → (⟨S100000x80, .f32⟩ : BufTy).Contents (Elt F)),
    StableHlo.binary main_v64 main_call2_v0 main_v65 (maximumf : (⟨S100000x80, .f32⟩ : BufTy).Contents (Elt F) → (⟨S100000x80, .f32⟩ : BufTy).Contents (Elt F) → (⟨S100000x80, .f32⟩ : BufTy).Contents (Elt F)) ]

theorem relu2_eq : (hostOps2_1 : List (HloOp τ sig (Elt F))) = relu2Ops := rfl

end

set_option maxHeartbeats 2000000 in
/-- Clipped at zero. -/
theorem kI_v65 (V : Valuation τ sig (Elt Ideal)) (x0 : (⟨S100000x1433, .f32⟩ : BufTy).Contents (Elt Ideal)) (x1 : (⟨S2x1600000, .i32⟩ : BufTy).Contents (Elt Ideal)) (x2 : (⟨S1433x80, .f32⟩ : BufTy).Contents (Elt Ideal)) (x3 : (⟨S80, .f32⟩ : BufTy).Contents (Elt Ideal)) (x4 : (⟨S80x80, .f32⟩ : BufTy).Contents (Elt Ideal)) (x5 : (⟨S80, .f32⟩ : BufTy).Contents (Elt Ideal))
    (h_v64 : V (Proc.devRef .tc main_v64) = val_main_v64 (F := Ideal) x0 x1 x2 x3 x4 x5) :
    StableHlo.after relu2Ops V (Proc.devRef .tc main_v65) = val_main_v65 (F := Ideal) x0 x1 x2 x3 x4 x5 := by
  dsimp only [relu2Ops]
  after_results
  rw [h_v64]
  rfl

set_option maxHeartbeats 4000000 in
theorem kI_keep_arg6 (V : Valuation τ sig (Elt Ideal)) : StableHlo.after relu2Ops V (Proc.devRef .tc main_arg6) = V (Proc.devRef .tc main_arg6) := by
  dsimp only [relu2Ops]
  after_results

set_option maxHeartbeats 4000000 in
theorem kI_keep_arg7 (V : Valuation τ sig (Elt Ideal)) : StableHlo.after relu2Ops V (Proc.devRef .tc main_arg7) = V (Proc.devRef .tc main_arg7) := by
  dsimp only [relu2Ops]
  after_results

/-- The bias vector reshaped to the row [1, 7] reads, at (0, q), its entry q. -/
theorem kJ_v66 (V : Valuation τ sig (Elt Ideal)) (q : Fin 7) :
    StableHlo.after hostOps2_2 V (Proc.devRef .tc main_v66) (ix2 (0 : Fin 1) q) = V (Proc.devRef .tc main_arg7) (ix1 q) := by
  dsimp only [hostOps2_2]
  after_results
  show shapeCast S1x7 (V (Proc.devRef .tc main_arg7)) shapeCasts_S7_S1x7 (ix2 (0 : Fin 1) q) = _
  exact shapeCast_apply _ shapeCasts_S7_S1x7 (ix2 (0 : Fin 1) q) (ix1 q) (by
    rw [Shape.rowMajor_val_one, Shape.rowMajor_val_two]
    show q.val = 0 * 7 + q.val
    omega)

set_option maxHeartbeats 4000000 in
theorem kJ_keep_v65 (V : Valuation τ sig (Elt Ideal)) : StableHlo.after hostOps2_2 V (Proc.devRef .tc main_v65) = V (Proc.devRef .tc main_v65) := by
  dsimp only [hostOps2_2]
  after_results

set_option maxHeartbeats 4000000 in
theorem kJ_keep_arg6 (V : Valuation τ sig (Elt Ideal)) : StableHlo.after hostOps2_2 V (Proc.devRef .tc main_arg6) = V (Proc.devRef .tc main_arg6) := by
  dsimp only [hostOps2_2]
  after_results

end Cert.KernelIdeal.StagesH

end
-- ==== Proof.Boundary.lean ====
/-
  What each buffer holds at each boundary of the run, as a function of the arguments.

  The run is: host operations; the first product; host operations; the second product; host operations; the classifier.
  The host operations are the same, one for one, in this program and in the reference (the normalisation of the graph,
  then per layer: gather the rows, scale them, scatter-add them, add the bias, clip at zero), so each stretch's results
  are the reference's own stage functions of the arguments applied to what the previous boundary holds; the three
  kernels' results are the two products and the log-softmax of the logits, which are the reference's stages read entry
  by entry. The gathers and the scatters enter only as the same functions on both sides.
-/
import proofs.«168237_j30374008717765_1_alg».proof.Proof.Gen.KernelIdeal.Frame
import proofs.«168237_j30374008717765_1_alg».proof.Proof.RefRead
import proofs.«168237_j30374008717765_1_alg».proof.Proof.Head
import proofs.«168237_j30374008717765_1_alg».proof.Proof.Tiles0
import proofs.«168237_j30374008717765_1_alg».proof.Proof.Tiles1
import proofs.«168237_j30374008717765_1_alg».proof.Proof.Tiles2
import proofs.«168237_j30374008717765_1_alg».proof.Proof.KStagesA
import proofs.«168237_j30374008717765_1_alg».proof.Proof.KStagesC
import proofs.«168237_j30374008717765_1_alg».proof.Proof.KStagesE
import proofs.«168237_j30374008717765_1_alg».proof.Proof.KStagesH
import Idealize.ShloMosaic.Lib.StableHlo.Run

set_option maxRecDepth 16384

noncomputable section

namespace Cert.KernelIdeal.Boundary

open Cert.KernelIdeal Cert.KernelIdeal.Gen Cert.Product Cert.LibLogSoftmax
open Cert.KernelIdeal.StagesA Cert.KernelIdeal.StagesC Cert.KernelIdeal.StagesE Cert.KernelIdeal.StagesH
open Idealize.ShloMosaic Idealize.ShloMosaic.TcCoe Idealize.ShloMosaic.ValueIdx Idealize.SL.Sem Idealize.ShloMosaic.StableHlo
open Cert.ReferenceIdeal.ReadP

variable (m : (ℓ : Loc nD τ sig) → Buf (Elt Ideal) ℓ) (ρ : Dev nD → PrngReg) (c : Dev nD)

/-- An outlined call's operations in either spelling leave the same contents. -/
theorem afterWhere (V : Valuation τ sig (Elt Ideal)) (b : DevRef τ sig) :
    StableHlo.after hostOps0_1 V b = StableHlo.after whereOps V b := congrArg (fun L => StableHlo.after L V b) where_eq
theorem afterRelu1 (V : Valuation τ sig (Elt Ideal)) (b : DevRef τ sig) :
    StableHlo.after hostOps1_1 V b = StableHlo.after relu1Ops V b := congrArg (fun L => StableHlo.after L V b) (relu1_eq (F := Ideal))
theorem afterRelu2 (V : Valuation τ sig (Elt Ideal)) (b : DevRef τ sig) :
    StableHlo.after hostOps2_1 V b = StableHlo.after relu2Ops V b := congrArg (fun L => StableHlo.after L V b) (relu2_eq (F := Ideal))

/-! ## After the first stretch: the graph's lists and degrees -/

theorem w1_v3 : W1 m ρ c (Proc.devRef .tc main_v3) = val_main_v3 (F := Ideal) (m ((c : Thread nD τ).loc main_arg1)) :=
  kA_v3 (W0 m ρ c)

theorem w1_v6 : W1 m ρ c (Proc.devRef .tc main_v6) = val_main_v6 (F := Ideal) (m ((c : Thread nD τ).loc main_arg1)) :=
  kA_v6 (W0 m ρ c)

theorem w1_v12 : W1 m ρ c (Proc.devRef .tc main_v12) = val_main_v12 (F := Ideal) (m ((c : Thread nD τ).loc main_arg1)) :=
  kA_v12 (W0 m ρ c)

theorem w1_v13 : W1 m ρ c (Proc.devRef .tc main_v13) = val_main_v13 (F := Ideal) (m ((c : Thread nD τ).loc main_arg1)) :=
  kA_v13 (W0 m ρ c)

theorem w1_cst_2 : W1 m ρ c (Proc.devRef .tc main_cst_2) = val_main_cst_2 (F := Ideal) :=
  kA_cst_2 (W0 m ρ c)

theorem w1_arg0 : W1 m ρ c (Proc.devRef .tc main_arg0) = (m ((c : Thread nD τ).loc main_arg0)) :=
  kA_keep_arg0 (W0 m ρ c)

theorem w1_arg2 : W1 m ρ c (Proc.devRef .tc main_arg2) = (m ((c : Thread nD τ).loc main_arg2)) :=
  kA_keep_arg2 (W0 m ρ c)

theorem w1_arg3 : W1 m ρ c (Proc.devRef .tc main_arg3) = (m ((c : Thread nD τ).loc main_arg3)) :=
  kA_keep_arg3 (W0 m ρ c)

theorem w1_arg4 : W1 m ρ c (Proc.devRef .tc main_arg4) = (m ((c : Thread nD τ).loc main_arg4)) :=
  kA_keep_arg4 (W0 m ρ c)

theorem w1_arg5 : W1 m ρ c (Proc.devRef .tc main_arg5) = (m ((c : Thread nD τ).loc main_arg5)) :=
  kA_keep_arg5 (W0 m ρ c)

theorem w1_arg6 : W1 m ρ c (Proc.devRef .tc main_arg6) = (m ((c : Thread nD τ).loc main_arg6)) :=
  kA_keep_arg6 (W0 m ρ c)

theorem w1_arg7 : W1 m ρ c (Proc.devRef .tc main_arg7) = (m ((c : Thread nD τ).loc main_arg7)) :=
  kA_keep_arg7 (W0 m ρ c)

/-! ## After the `where`: d -/

theorem w2_v14 : W2 m ρ c (Proc.devRef .tc main_v14) = val_main_v14 (F := Ideal) (m ((c : Thread nD τ).loc main_arg1)) :=
  (afterWhere (W1 m ρ c) _).trans (kB_v14 (W1 m ρ c) (m ((c : Thread nD τ).loc main_arg1)) (w1_v12 m ρ c) (w1_v13 m ρ c) (w1_cst_2 m ρ c))

theorem w2_v3 : W2 m ρ c (Proc.devRef .tc main_v3) = val_main_v3 (F := Ideal) (m ((c : Thread nD τ).loc main_arg1)) :=
  ((afterWhere (W1 m ρ c) _).trans (kB_keep_v3 (W1 m ρ c))).trans (w1_v3 m ρ c)

theorem w2_v6 : W2 m ρ c (Proc.devRef .tc main_v6) = val_main_v6 (F := Ideal) (m ((c : Thread nD τ).loc main_arg1)) :=
  ((afterWhere (W1 m ρ c) _).trans (kB_keep_v6 (W1 m ρ c))).trans (w1_v6 m ρ c)

theorem w2_arg0 : W2 m ρ c (Proc.devRef .tc main_arg0) = (m ((c : Thread nD τ).loc main_arg0)) :=
  ((afterWhere (W1 m ρ c) _).trans (kB_keep_arg0 (W1 m ρ c))).trans (w1_arg0 m ρ c)

theorem w2_arg2 : W2 m ρ c (Proc.devRef .tc main_arg2) = (m ((c : Thread nD τ).loc main_arg2)) :=
  ((afterWhere (W1 m ρ c) _).trans (kB_keep_arg2 (W1 m ρ c))).trans (w1_arg2 m ρ c)

theorem w2_arg3 : W2 m ρ c (Proc.devRef .tc main_arg3) = (m ((c : Thread nD τ).loc main_arg3)) :=
  ((afterWhere (W1 m ρ c) _).trans (kB_keep_arg3 (W1 m ρ c))).trans (w1_arg3 m ρ c)

theorem w2_arg4 : W2 m ρ c (Proc.devRef .tc main_arg4) = (m ((c : Thread nD τ).loc main_arg4)) :=
  ((afterWhere (W1 m ρ c) _).trans (kB_keep_arg4 (W1 m ρ c))).trans (w1_arg4 m ρ c)

theorem w2_arg5 : W2 m ρ c (Proc.devRef .tc main_arg5) = (m ((c : Thread nD τ).loc main_arg5)) :=
  ((afterWhere (W1 m ρ c) _).trans (kB_keep_arg5 (W1 m ρ c))).trans (w1_arg5 m ρ c)

theorem w2_arg6 : W2 m ρ c (Proc.devRef .tc main_arg6) = (m ((c : Thread nD τ).loc main_arg6)) :=
  ((afterWhere (W1 m ρ c) _).trans (kB_keep_arg6 (W1 m ρ c))).trans (w1_arg6 m ρ c)

theorem w2_arg7 : W2 m ρ c (Proc.devRef .tc main_arg7) = (m ((c : Thread nD τ).loc main_arg7)) :=
  ((afterWhere (W1 m ρ c) _).trans (kB_keep_arg7 (W1 m ρ c))).trans (w1_arg7 m ρ c)

/-! ## Before the first product: the edge weights -/

theorem w3_v29 : W3 m ρ c (Proc.devRef .tc main_v29) = val_main_v29 (F := Ideal) (m ((c : Thread nD τ).loc main_arg1)) :=
  kC_v29 (W2 m ρ c) (m ((c : Thread nD τ).loc main_arg1)) (w2_v3 m ρ c) (w2_v6 m ρ c) (w2_v14 m ρ c)

theorem w3_v3 : W3 m ρ c (Proc.devRef .tc main_v3) = val_main_v3 (F := Ideal) (m ((c : Thread nD τ).loc main_arg1)) :=
  (kC_keep_v3 (W2 m ρ c)).trans (w2_v3 m ρ c)

theorem w3_v6 : W3 m ρ c (Proc.devRef .tc main_v6) = val_main_v6 (F := Ideal) (m ((c : Thread nD τ).loc main_arg1)) :=
  (kC_keep_v6 (W2 m ρ c)).trans (w2_v6 m ρ c)

theorem w3_arg0 : W3 m ρ c (Proc.devRef .tc main_arg0) = (m ((c : Thread nD τ).loc main_arg0)) :=
  (kC_keep_arg0 (W2 m ρ c)).trans (w2_arg0 m ρ c)

theorem w3_arg2 : W3 m ρ c (Proc.devRef .tc main_arg2) = (m ((c : Thread nD τ).loc main_arg2)) :=
  (kC_keep_arg2 (W2 m ρ c)).trans (w2_arg2 m ρ c)

theorem w3_arg3 : W3 m ρ c (Proc.devRef .tc main_arg3) = (m ((c : Thread nD τ).loc main_arg3)) :=
  (kC_keep_arg3 (W2 m ρ c)).trans (w2_arg3 m ρ c)

theorem w3_arg4 : W3 m ρ c (Proc.devRef .tc main_arg4) = (m ((c : Thread nD τ).loc main_arg4)) :=
  (kC_keep_arg4 (W2 m ρ c)).trans (w2_arg4 m ρ c)

theorem w3_arg5 : W3 m ρ c (Proc.devRef .tc main_arg5) = (m ((c : Thread nD τ).loc main_arg5)) :=
  (kC_keep_arg5 (W2 m ρ c)).trans (w2_arg5 m ρ c)

theorem w3_arg6 : W3 m ρ c (Proc.devRef .tc main_arg6) = (m ((c : Thread nD τ).loc main_arg6)) :=
  (kC_keep_arg6 (W2 m ρ c)).trans (w2_arg6 m ρ c)

theorem w3_arg7 : W3 m ρ c (Proc.devRef .tc main_arg7) = (m ((c : Thread nD τ).loc main_arg7)) :=
  (kC_keep_arg7 (W2 m ρ c)).trans (w2_arg7 m ρ c)

/-! ## After the first product -/

/-- The first product, x · W1: the hundred tiles fill it, and entry by entry it is the reference's product. -/
theorem w4_v30 : W4 m ρ c (Proc.devRef .tc main_v30) = val_main_v30 (F := Ideal) (m ((c : Thread nD τ).loc main_arg0)) (m ((c : Thread nD τ).loc main_arg2)) := by
  refine (W4_arr m ρ c 2).trans ((Tiles0.final (V3 m ρ) c).trans
    ((congrArg₂ (mm (M := 100000) (K := 1433) (N := 80)) (w3_arg0 m ρ c) (w3_arg2 m ρ c)).trans ?_))
  funext i
  obtain ⟨p, q, rfl⟩ : ∃ (p : Fin 100000) (q : Fin 80), i = ix2 p q := ⟨i 0, i 1, eq_ix2 i⟩
  exact (mm_ix2 _ _ p q).trans (Cert.ReferenceIdeal.Head.first_apply _ _ p q).symm

theorem w4_v3 : W4 m ρ c (Proc.devRef .tc main_v3) = val_main_v3 (F := Ideal) (m ((c : Thread nD τ).loc main_arg1)) :=
  (W4_of_ne m ρ c main_v3 (by decide)).trans (w3_v3 m ρ c)

theorem w4_v6 : W4 m ρ c (Proc.devRef .tc main_v6) = val_main_v6 (F := Ideal) (m ((c : Thread nD τ).loc main_arg1)) :=
  (W4_of_ne m ρ c main_v6 (by decide)).trans (w3_v6 m ρ c)

theorem w4_v29 : W4 m ρ c (Proc.devRef .tc main_v29) = val_main_v29 (F := Ideal) (m ((c : Thread nD τ).loc main_arg1)) :=
  (W4_of_ne m ρ c main_v29 (by decide)).trans (w3_v29 m ρ c)

theorem w4_arg3 : W4 m ρ c (Proc.devRef .tc main_arg3) = (m ((c : Thread nD τ).loc main_arg3)) :=
  (W4_of_ne m ρ c main_arg3 (by decide)).trans (w3_arg3 m ρ c)

theorem w4_arg4 : W4 m ρ c (Proc.devRef .tc main_arg4) = (m ((c : Thread nD τ).loc main_arg4)) :=
  (W4_of_ne m ρ c main_arg4 (by decide)).trans (w3_arg4 m ρ c)

theorem w4_arg5 : W4 m ρ c (Proc.devRef .tc main_arg5) = (m ((c : Thread nD τ).loc main_arg5)) :=
  (W4_of_ne m ρ c main_arg5 (by decide)).trans (w3_arg5 m ρ c)

theorem w4_arg6 : W4 m ρ c (Proc.devRef .tc main_arg6) = (m ((c : Thread nD τ).loc main_arg6)) :=
  (W4_of_ne m ρ c main_arg6 (by decide)).trans (w3_arg6 m ρ c)

theorem w4_arg7 : W4 m ρ c (Proc.devRef .tc main_arg7) = (m ((c : Thread nD τ).loc main_arg7)) :=
  (W4_of_ne m ρ c main_arg7 (by decide)).trans (w3_arg7 m ρ c)

/-! ## The first layer -/

theorem w5_v46 : W5 m ρ c (Proc.devRef .tc main_v46) = val_main_v46 (F := Ideal) (m ((c : Thread nD τ).loc main_arg0)) (m ((c : Thread nD τ).loc main_arg1)) (m ((c : Thread nD τ).loc main_arg2)) (m ((c : Thread nD τ).loc main_arg3)) :=
  kE_v46 (W4 m ρ c) (m ((c : Thread nD τ).loc main_arg0)) (m ((c : Thread nD τ).loc main_arg1)) (m ((c : Thread nD τ).loc main_arg2)) (m ((c : Thread nD τ).loc main_arg3)) (w4_v30 m ρ c) (w4_v3 m ρ c) (w4_v6 m ρ c) (w4_v29 m ρ c) (w4_arg3 m ρ c)

theorem w5_v3 : W5 m ρ c (Proc.devRef .tc main_v3) = val_main_v3 (F := Ideal) (m ((c : Thread nD τ).loc main_arg1)) :=
  (kE_keep_v3 (W4 m ρ c)).trans (w4_v3 m ρ c)

theorem w5_v6 : W5 m ρ c (Proc.devRef .tc main_v6) = val_main_v6 (F := Ideal) (m ((c : Thread nD τ).loc main_arg1)) :=
  (kE_keep_v6 (W4 m ρ c)).trans (w4_v6 m ρ c)

theorem w5_v29 : W5 m ρ c (Proc.devRef .tc main_v29) = val_main_v29 (F := Ideal) (m ((c : Thread nD τ).loc main_arg1)) :=
  (kE_keep_v29 (W4 m ρ c)).trans (w4_v29 m ρ c)

theorem w5_arg4 : W5 m ρ c (Proc.devRef .tc main_arg4) = (m ((c : Thread nD τ).loc main_arg4)) :=
  (kE_keep_arg4 (W4 m ρ c)).trans (w4_arg4 m ρ c)

theorem w5_arg5 : W5 m ρ c (Proc.devRef .tc main_arg5) = (m ((c : Thread nD τ).loc main_arg5)) :=
  (kE_keep_arg5 (W4 m ρ c)).trans (w4_arg5 m ρ c)

theorem w5_arg6 : W5 m ρ c (Proc.devRef .tc main_arg6) = (m ((c : Thread nD τ).loc main_arg6)) :=
  (kE_keep_arg6 (W4 m ρ c)).trans (w4_arg6 m ρ c)

theorem w5_arg7 : W5 m ρ c (Proc.devRef .tc main_arg7) = (m ((c : Thread nD τ).loc main_arg7)) :=
  (kE_keep_arg7 (W4 m ρ c)).trans (w4_arg7 m ρ c)

theorem w6_v47 : W6 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) :=
  (afterRelu1 (W5 m ρ c) _).trans (kF_v47 (W5 m ρ c) (m ((c : Thread nD τ).loc main_arg0)) (m ((c : Thread nD τ).loc main_arg1)) (m ((c : Thread nD τ).loc main_arg2)) (m ((c : Thread nD τ).loc main_arg3)) (w5_v46 m ρ c))

theorem w6_v3 : W6 m ρ c (Proc.devRef .tc main_v3) = val_main_v3 (F := Ideal) (m ((c : Thread nD τ).loc main_arg1)) :=
  ((afterRelu1 (W5 m ρ c) _).trans (kF_keep_v3 (W5 m ρ c))).trans (w5_v3 m ρ c)

theorem w6_v6 : W6 m ρ c (Proc.devRef .tc main_v6) = val_main_v6 (F := Ideal) (m ((c : Thread nD τ).loc main_arg1)) :=
  ((afterRelu1 (W5 m ρ c) _).trans (kF_keep_v6 (W5 m ρ c))).trans (w5_v6 m ρ c)

theorem w6_v29 : W6 m ρ c (Proc.devRef .tc main_v29) = val_main_v29 (F := Ideal) (m ((c : Thread nD τ).loc main_arg1)) :=
  ((afterRelu1 (W5 m ρ c) _).trans (kF_keep_v29 (W5 m ρ c))).trans (w5_v29 m ρ c)

theorem w6_arg4 : W6 m ρ c (Proc.devRef .tc main_arg4) = (m ((c : Thread nD τ).loc main_arg4)) :=
  ((afterRelu1 (W5 m ρ c) _).trans (kF_keep_arg4 (W5 m ρ c))).trans (w5_arg4 m ρ c)

theorem w6_arg5 : W6 m ρ c (Proc.devRef .tc main_arg5) = (m ((c : Thread nD τ).loc main_arg5)) :=
  ((afterRelu1 (W5 m ρ c) _).trans (kF_keep_arg5 (W5 m ρ c))).trans (w5_arg5 m ρ c)

theorem w6_arg6 : W6 m ρ c (Proc.devRef .tc main_arg6) = (m ((c : Thread nD τ).loc main_arg6)) :=
  ((afterRelu1 (W5 m ρ c) _).trans (kF_keep_arg6 (W5 m ρ c))).trans (w5_arg6 m ρ c)

theorem w6_arg7 : W6 m ρ c (Proc.devRef .tc main_arg7) = (m ((c : Thread nD τ).loc main_arg7)) :=
  ((afterRelu1 (W5 m ρ c) _).trans (kF_keep_arg7 (W5 m ρ c))).trans (w5_arg7 m ρ c)

/-! ## After the second product -/

/-- The second product, h₁ · W2. -/
theorem w7_v48 : W7 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Tiles1.final (V6 m ρ) c).trans
    ((congrArg₂ (mm (M := 100000) (K := 80) (N := 80)) (w6_v47 m ρ c) (w6_arg4 m ρ c)).trans ?_))
  funext i
  obtain ⟨p, q, rfl⟩ : ∃ (p : Fin 100000) (q : Fin 80), i = ix2 p q := ⟨i 0, i 1, eq_ix2 i⟩
  exact (mm_ix2 _ _ p q).trans (Cert.ReferenceIdeal.Head.second_apply _ _ _ _ _ p q).symm

theorem w7_v3 : W7 m ρ c (Proc.devRef .tc main_v3) = val_main_v3 (F := Ideal) (m ((c : Thread nD τ).loc main_arg1)) :=
  (W7_of_ne m ρ c main_v3 (by decide)).trans (w6_v3 m ρ c)

theorem w7_v6 : W7 m ρ c (Proc.devRef .tc main_v6) = val_main_v6 (F := Ideal) (m ((c : Thread nD τ).loc main_arg1)) :=
  (W7_of_ne m ρ c main_v6 (by decide)).trans (w6_v6 m ρ c)

theorem w7_v29 : W7 m ρ c (Proc.devRef .tc main_v29) = val_main_v29 (F := Ideal) (m ((c : Thread nD τ).loc main_arg1)) :=
  (W7_of_ne m ρ c main_v29 (by decide)).trans (w6_v29 m ρ c)

theorem w7_arg5 : W7 m ρ c (Proc.devRef .tc main_arg5) = (m ((c : Thread nD τ).loc main_arg5)) :=
  (W7_of_ne m ρ c main_arg5 (by decide)).trans (w6_arg5 m ρ c)

theorem w7_arg6 : W7 m ρ c (Proc.devRef .tc main_arg6) = (m ((c : Thread nD τ).loc main_arg6)) :=
  (W7_of_ne m ρ c main_arg6 (by decide)).trans (w6_arg6 m ρ c)

theorem w7_arg7 : W7 m ρ c (Proc.devRef .tc main_arg7) = (m ((c : Thread nD τ).loc main_arg7)) :=
  (W7_of_ne m ρ c main_arg7 (by decide)).trans (w6_arg7 m ρ c)

/-! ## The second layer and the bias row -/

theorem w8_v64 : W8 m ρ c (Proc.devRef .tc main_v64) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  kH_v64 (W7 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (w7_v48 m ρ c) (w7_v3 m ρ c) (w7_v6 m ρ c) (w7_v29 m ρ c) (w7_arg5 m ρ c)

theorem w8_arg6 : W8 m ρ c (Proc.devRef .tc main_arg6) = (m ((c : Thread nD τ).loc main_arg6)) :=
  (kH_keep_arg6 (W7 m ρ c)).trans (w7_arg6 m ρ c)

theorem w8_arg7 : W8 m ρ c (Proc.devRef .tc main_arg7) = (m ((c : Thread nD τ).loc main_arg7)) :=
  (kH_keep_arg7 (W7 m ρ c)).trans (w7_arg7 m ρ c)

theorem w9_v65 : W9 m ρ c (Proc.devRef .tc main_v65) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (afterRelu2 (W8 m ρ c) _).trans (kI_v65 (W8 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (w8_v64 m ρ c))

theorem w9_arg6 : W9 m ρ c (Proc.devRef .tc main_arg6) = (m ((c : Thread nD τ).loc main_arg6)) :=
  ((afterRelu2 (W8 m ρ c) _).trans (kI_keep_arg6 (W8 m ρ c))).trans (w8_arg6 m ρ c)

theorem w9_arg7 : W9 m ρ c (Proc.devRef .tc main_arg7) = (m ((c : Thread nD τ).loc main_arg7)) :=
  ((afterRelu2 (W8 m ρ c) _).trans (kI_keep_arg7 (W8 m ρ c))).trans (w8_arg7 m ρ c)

theorem w10_v65 : W10 m ρ c (Proc.devRef .tc main_v65) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (kJ_keep_v65 (W9 m ρ c)).trans (w9_v65 m ρ c)

theorem w10_arg6 : W10 m ρ c (Proc.devRef .tc main_arg6) = (m ((c : Thread nD τ).loc main_arg6)) :=
  (kJ_keep_arg6 (W9 m ρ c)).trans (w9_arg6 m ρ c)

/-- The classifier's bias laid out as the one row [1, 7]. -/
theorem w10_v66 (q : Fin 7) : W10 m ρ c (Proc.devRef .tc main_v66) (ix2 (0 : Fin 1) q) = (m ((c : Thread nD τ).loc main_arg7)) (ix1 q) :=
  (kJ_v66 (W9 m ρ c) q).trans (congrFun (w9_arg7 m ρ c) (ix1 q))

/-! ## The result -/

/-- The result: the row-wise log-softmax of the logits h₂ · Wl + bl, the reference's result entry by entry (a row of the
    log-softmax reads that row of the logits only, and the two programs' logits agree entry by entry). -/
theorem w11_v67 : W11 m ρ c (Proc.devRef .tc main_v67) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W11_arr m ρ c 3).trans ((Tiles2.final (V10 m ρ) c).trans ?_)
  funext i
  obtain ⟨p, q, rfl⟩ : ∃ (p : Fin 100000) (q : Fin 7), i = ix2 p q := ⟨i 0, i 1, eq_ix2 i⟩
  refine Eq.trans ?_ (Cert.ReferenceIdeal.Head.result_apply _ _ _ _ _ _ _ _ p q).symm
  rw [rowLogSoftmax_ix2, rowLogSoftmax_ix2]
  refine rowLogSoftmaxAt_congr p p q fun k => ?_
  rw [Tiles2.logits_ix2, Cert.ReferenceIdeal.Head.logits_apply]
  have e65 : V10 m ρ c main_v65 = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := w10_v65 m ρ c
  have e6 : V10 m ρ c main_arg6 = (m ((c : Thread nD τ).loc main_arg6)) := w10_arg6 m ρ c
  have e66 : V10 m ρ c main_v66 (ix2 (0 : Fin 1) k) = (m ((c : Thread nD τ).loc main_arg7)) (ix1 k) := w10_v66 m ρ c k
  rw [e65, e6, e66]

end Cert.KernelIdeal.Boundary

end
-- ==== Proof.lean ====
/-
  A two-layer graph convolution with a linear classifier and a log-softmax, on 100000 nodes and 1600000 edges with
  self loops added: its three dense products run as tiled kernels, against the same network written with plain products.

      deg    = the number of edges (and self loops) arriving at each node,        d = deg^(-1/2) where deg > 0, else 0,
      norm e = d(src e) · d(dst e),
      layer (h, b) = max (scatter-add over dst of (h[src] · norm) + b, 0),
      result = log-softmax along each row of  layer (layer (x · W1, b1) · W2, b2) · Wl + bl.

  The two programs apply the same host operations in the same order to compute deg, d, norm and each layer's
  gather / scale / scatter-add / bias / clip; they differ only in the three products and in the spelling of the
  log-softmax. Over the extended reals a tile of a product holds the same finite sums ∑ₖ A(p, k) · B(k, q) as the
  whole product (rounding the operands to a narrower format is the identity there, and addition is commutative and
  associative, so neither the tiling nor the order of summation matters: no finiteness of the inputs is used), and a
  row of a log-softmax reads that row of the logits only; the reference's greater-of(−∞, row maximum) is the row
  maximum. So both programs end with the reference's last stage function of the arguments, entry by entry.
  The idealization rewrote no operation of the kernel program, so the claim that it is the sanctioned one is trivial.
-/
import proofs.«168237_j30374008717765_1_alg».proof.Defs
import proofs.«168237_j30374008717765_1_alg».proof.Proof.Gen.Kernel
import proofs.«168237_j30374008717765_1_alg».proof.Proof.Gen.Kernel.Frame
import proofs.«168237_j30374008717765_1_alg».proof.Proof.Gen.KernelIdeal
import proofs.«168237_j30374008717765_1_alg».proof.Proof.Gen.KernelIdeal.Frame
import proofs.«168237_j30374008717765_1_alg».proof.Proof.Gen.ReferenceIdeal
import proofs.«168237_j30374008717765_1_alg».proof.Proof.Gen.Pre_finite_inputs
import proofs.«168237_j30374008717765_1_alg».proof.Proof.RefRead
import proofs.«168237_j30374008717765_1_alg».proof.Proof.RefValue
import proofs.«168237_j30374008717765_1_alg».proof.Proof.KernelRun
import proofs.«168237_j30374008717765_1_alg».proof.Proof.Boundary
import Idealize.ShloMosaic.Adequacy
import Idealize.ShloMosaic.Init

noncomputable section

namespace Cert.Proof

open Idealize.ShloMosaic Idealize.ShloMosaic.TcCoe Idealize.SL.Sem

/-- The program as printed runs, and leaves its arguments as launched. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference runs: its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- No operation was rewritten. -/
theorem preserves : Cert.preserves_Kernel_KernelIdeal := trivial

/-- Both programs end with the reference's last stage function of the arguments. -/
theorem algebraic : Cert.algebraic_KernelIdeal_ReferenceIdeal := by
  intro m ρ m' ρ' _ hagree
  refine ⟨fun c => Cert.ReferenceIdeal.ReadP.val_main_v70 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Boundary.w11_v67 m ρ c), (h c).2⟩)
      (Cert.KernelIdeal.Out.run (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
